-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3x32x32 : Shape := ⟨4, ![8192, 3, 32, 32]⟩
abbrev S1024x3072 : Shape := ⟨2, ![1024, 3072]⟩
abbrev S1024x1024 : Shape := ⟨2, ![1024, 1024]⟩
abbrev S10x1024 : Shape := ⟨2, ![10, 1024]⟩
abbrev S1024 : Shape := ⟨1, ![1024]⟩
abbrev S_ : Shape := ⟨0, ![]⟩

class Facts : Prop where
  bcast_S_S8192x3x32x32 : S_.BroadcastsInDim S8192x3x32x32 (![] : Fin 0 → Fin S8192x3x32x32.rank)
  reducesTo_S8192x3x32x32_S_d0_1_2_3 : S8192x3x32x32.ReducesTo [0, 1, 2, 3] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S10x1024 : S_.BroadcastsInDim S10x1024 (![] : Fin 0 → Fin S10x1024.rank)
  reducesTo_S10x1024_S_d0_1 : S10x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S10x1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S10x1024 .f32 := Host.absf main_arg4
  let main_cst_6 : FVec F S_ .f32 := constant S_ .f32 0x7F800000#32
  let main_v20 : FVec F S10x1024 .f32 := broadcastInDim S10x1024 ![] bcast_S_S10x1024 main_cst_6
  let main_v21 : IVec S10x1024 1 := cmpf .olt main_v19 main_v20
  let main_c_7 : IVec S_ 1 := constantI S_ 1 1#1
  let main_v22 : IVec S_ 1 := (fun x v => Host.reduce IntOp.andi x v reducesTo_S10x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x3x32x32 .f32) (main_arg1 : FVec F S1024x3072 .f32) (main_arg2 : FVec F S1024x1024 .f32) (main_arg3 : FVec F S1024x1024 .f32) (main_arg4 : FVec F S10x1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) : IVec S_ 1 :=
  let main_v0 : FVec F S8192x3x32x32 .f32 := Host.absf main_arg0
  let main_cst : FVec F S_ .f32 := constant S_ .f32 0x7F800000#32
  let main_v1 : FVec F S8192x3x32x32 .f32 := broadcastInDim S8192x3x32x32 ![] bcast_S_S8192x3x32x32 main_cst
  let main_v2 : IVec S8192x3x32x32 1 := cmpf .olt main_v0 main_v1
  let main_c : IVec S_ 1 := constantI S_ 1 1#1
  let main_v3 : IVec S_ 1 := (fun x v => Host.reduce IntOp.andi x v reducesTo_S8192x3x32x32_S_d0_1_2_3 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S8192x3x32x32 : Shape := ⟨4, ![8192, 3, 32, 32]⟩
abbrev S1024x3072 : Shape := ⟨2, ![1024, 3072]⟩
abbrev S1024x1024 : Shape := ⟨2, ![1024, 1024]⟩
abbrev S10x1024 : Shape := ⟨2, ![10, 1024]⟩
abbrev S1024 : Shape := ⟨1, ![1024]⟩
abbrev S_ : Shape := ⟨0, ![]⟩
abbrev S3072x1024 : Shape := ⟨2, ![3072, 1024]⟩
abbrev S1024x10 : Shape := ⟨2, ![1024, 10]⟩
abbrev S1024x128 : Shape := ⟨2, ![1024, 128]⟩
abbrev S8192x3072 : Shape := ⟨2, ![8192, 3072]⟩
abbrev S8192x1024 : Shape := ⟨2, ![8192, 1024]⟩
abbrev S128x1024 : Shape := ⟨2, ![128, 1024]⟩
abbrev S512x3072 : Shape := ⟨2, ![512, 3072]⟩
abbrev S512x1024 : Shape := ⟨2, ![512, 1024]⟩
abbrev S8x1024 : Shape := ⟨2, ![8, 1024]⟩
abbrev S1x1024 : Shape := ⟨2, ![1, 1024]⟩
abbrev S64x1024 : Shape := ⟨2, ![64, 1024]⟩
abbrev S8192x128 : Shape := ⟨2, ![8192, 128]⟩
abbrev S8192x10 : Shape := ⟨2, ![8192, 10]⟩

abbrev nBuf : Space → Nat
  | .hbm => 145
  | .vmem => 38
  | .smem => 0
  | _ => 0

abbrev hbmTy0_0 (i : Nat) : BufTy := match i % 128 with
  | 0 => ⟨S8192x3x32x32, .f32⟩
  | 1 => ⟨S1024x3072, .f32⟩
  | 2 => ⟨S1024x1024, .f32⟩
  | 3 => ⟨S1024x1024, .f32⟩
  | 4 => ⟨S10x1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S_, .f32⟩
  | 12 => ⟨S1024x3072, .f32⟩
  | 13 => ⟨S1024x3072, .i1⟩
  | 14 => ⟨S_, .f32⟩
  | 15 => ⟨S_, .f32⟩
  | 16 => ⟨S1024x3072, .f32⟩
  | 17 => ⟨S1024x3072, .f32⟩
  | 18 => ⟨S1024x3072, .f32⟩
  | 19 => ⟨S1024x3072, .f32⟩
  | 20 => ⟨S3072x1024, .f32⟩
  | 21 => ⟨S3072x1024, .bf16⟩
  | 22 => ⟨S_, .f32⟩
  | 23 => ⟨S1024x1024, .f32⟩
  | 24 => ⟨S1024x1024, .i1⟩
  | 25 => ⟨S_, .f32⟩
  | 26 => ⟨S_, .f32⟩
  | 27 => ⟨S1024x1024, .f32⟩
  | 28 => ⟨S1024x1024, .f32⟩
  | 29 => ⟨S1024x1024, .f32⟩
  | 30 => ⟨S1024x1024, .f32⟩
  | 31 => ⟨S1024x1024, .f32⟩
  | 32 => ⟨S1024x1024, .bf16⟩
  | 33 => ⟨S_, .f32⟩
  | 34 => ⟨S1024x1024, .f32⟩
  | 35 => ⟨S1024x1024, .i1⟩
  | 36 => ⟨S_, .f32⟩
  | 37 => ⟨S_, .f32⟩
  | 38 => ⟨S1024x1024, .f32⟩
  | 39 => ⟨S1024x1024, .f32⟩
  | 40 => ⟨S1024x1024, .f32⟩
  | 41 => ⟨S1024x1024, .f32⟩
  | 42 => ⟨S1024x1024, .f32⟩
  | 43 => ⟨S1024x1024, .bf16⟩
  | 44 => ⟨S_, .f32⟩
  | 45 => ⟨S10x1024, .f32⟩
  | 46 => ⟨S10x1024, .i1⟩
  | 47 => ⟨S_, .f32⟩
  | 48 => ⟨S_, .f32⟩
  | 49 => ⟨S10x1024, .f32⟩
  | 50 => ⟨S10x1024, .f32⟩
  | 51 => ⟨S10x1024, .f32⟩
  | 52 => ⟨S10x1024, .f32⟩
  | 53 => ⟨S1024x10, .f32⟩
  | 54 => ⟨S1024x10, .bf16⟩
  | 55 => ⟨S_, .i32⟩
  | 56 => ⟨S_, .bf16⟩
  | 57 => ⟨S1024x128, .bf16⟩
  | 58 => ⟨S8192x3072, .f32⟩
  | 59 => ⟨S8192x1024, .bf16⟩
  | 60 => ⟨S128x1024, .f32⟩
  | 61 => ⟨S128x1024, .f32⟩
  | 62 => ⟨S_, .f32⟩
  | 63 => ⟨S1024, .f32⟩
  | 64 => ⟨S_, .f32⟩
  | 65 => ⟨S1024, .f32⟩
  | 66 => ⟨S_, .f32⟩
  | 67 => ⟨S1024, .f32⟩
  | 68 => ⟨S1024, .f32⟩
  | 69 => ⟨S_, .f32⟩
  | 70 => ⟨S1024, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S_, .f32⟩
  | 78 => ⟨S1024, .f32⟩
  | 79 => ⟨S1024, .f32⟩
  | 80 => ⟨S1024, .f32⟩
  | 81 => ⟨S1024, .f32⟩
  | 82 => ⟨S1x1024, .f32⟩
  | 83 => ⟨S1024, .f32⟩
  | 84 => ⟨S1024, .f32⟩
  | 85 => ⟨S1024, .f32⟩
  | 86 => ⟨S1x1024, .f32⟩
  | 87 => ⟨S8192x1024, .bf16⟩
  | 88 => ⟨S64x1024, .f32⟩
  | 89 => ⟨S64x1024, .f32⟩
  | 90 => ⟨S_, .f32⟩
  | 91 => ⟨S1024, .f32⟩
  | 92 => ⟨S_, .f32⟩
  | 93 => ⟨S1024, .f32⟩
  | 94 => ⟨S_, .f32⟩
  | 95 => ⟨S1024, .f32⟩
  | 96 => ⟨S1024, .f32⟩
  | 97 => ⟨S_, .f32⟩
  | 98 => ⟨S1024, .f32⟩
  | 99 => ⟨S1024, .f32⟩
  | 100 => ⟨S1024, .f32⟩
  | 101 => ⟨S1024, .f32⟩
  | 102 => ⟨S_, .f32⟩
  | 103 => ⟨S1024, .f32⟩
  | 104 => ⟨S1024, .f32⟩
  | 105 => ⟨S_, .f32⟩
  | 106 => ⟨S1024, .f32⟩
  | 107 => ⟨S1024, .f32⟩
  | 108 => ⟨S1024, .f32⟩
  | 109 => ⟨S1024, .f32⟩
  | 110 => ⟨S1x1024, .f32⟩
  | 111 => ⟨S1024, .f32⟩
  | 112 => ⟨S1024, .f32⟩
  | 113 => ⟨S1024, .f32⟩
  | 114 => ⟨S1x1024, .f32⟩
  | 115 => ⟨S8192x1024, .bf16⟩
  | 116 => ⟨S64x1024, .f32⟩
  | 117 => ⟨S64x1024, .f32⟩
  | 118 => ⟨S_, .f32⟩
  | 119 => ⟨S1024, .f32⟩
  | 120 => ⟨S_, .f32⟩
  | 121 => ⟨S1024, .f32⟩
  | 122 => ⟨S_, .f32⟩
  | 123 => ⟨S1024, .f32⟩
  | 124 => ⟨S1024, .f32⟩
  | 125 => ⟨S_, .f32⟩
  | 126 => ⟨S1024, .f32⟩
  | 127 => ⟨S1024, .f32⟩
  | _ => ⟨S8192x3x32x32, .f32⟩

abbrev hbmTy0_1 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S_, .f32⟩
  | 6 => ⟨S1024, .f32⟩
  | 7 => ⟨S1024, .f32⟩
  | 8 => ⟨S1024, .f32⟩
  | 9 => ⟨S1024, .f32⟩
  | 10 => ⟨S1x1024, .f32⟩
  | 11 => ⟨S1024, .f32⟩
  | 12 => ⟨S1024, .f32⟩
  | 13 => ⟨S1024, .f32⟩
  | 14 => ⟨S1x1024, .f32⟩
  | 15 => ⟨S8192x128, .f32⟩
  | 16 => ⟨S8192x10, .f32⟩
  | _ => ⟨S8192x3x32x32, .f32⟩

abbrev hbmTy (i : Nat) : BufTy := match i / 128 with
  | 0 => hbmTy0_0 i
  | 1 => hbmTy0_1 i
  | _ => ⟨S8192x3x32x32, .f32⟩

abbrev bufTy : (tb : Table) → Fin (tcTables nBuf tb) → BufTy
  | .hbm, ⟨i, _⟩ => hbmTy i
  | .local _ .vmem, ⟨0, _⟩ => ⟨S512x3072, .f32⟩
  | .local _ .vmem, ⟨1, _⟩ => ⟨S512x3072, .f32⟩
  | .local _ .vmem, ⟨2, _⟩ => ⟨S3072x1024, .bf16⟩
  | .local _ .vmem, ⟨3, _⟩ => ⟨S512x1024, .bf16⟩
  | .local _ .vmem, ⟨4, _⟩ => ⟨S512x1024, .bf16⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S1024x1024, .bf16⟩
  | .local _ .vmem, ⟨26, _⟩ => ⟨S1024x1024, .bf16⟩
  | .local _ .vmem, ⟨27, _⟩ => ⟨S8x1024, .f32⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | .local _ .vmem, ⟨31, _⟩ => ⟨S1024x1024, .bf16⟩
  | .local _ .vmem, ⟨32, _⟩ => ⟨S1024x1024, .bf16⟩
  | .local _ .vmem, ⟨33, _⟩ => ⟨S1024x128, .bf16⟩
  | .local _ .vmem, ⟨34, _⟩ => ⟨S1x1024, .f32⟩
  | .local _ .vmem, ⟨35, _⟩ => ⟨S1x1024, .f32⟩
  | .local _ .vmem, ⟨36, _⟩ => ⟨S1024x128, .f32⟩
  | .local _ .vmem, ⟨37, _⟩ => ⟨S1024x128, .f32⟩
  | _, _ => ⟨S8192x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_cst_6 : Ref sig .tc := ⟨.hbm, 36, rfl⟩
abbrev main_cst_7 : Ref sig .tc := ⟨.hbm, 37, rfl⟩
abbrev main_call2_v0 : Ref sig .tc := ⟨.hbm, 38, rfl⟩
abbrev main_call2_v1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_8 : Ref sig .tc := ⟨.hbm, 44, rfl⟩
abbrev main_v18 : Ref sig .tc := ⟨.hbm, 45, rfl⟩
abbrev main_v19 : Ref sig .tc := ⟨.hbm, 46, rfl⟩
abbrev main_cst_9 : Ref sig .tc := ⟨.hbm, 47, rfl⟩
abbrev main_cst_10 : Ref sig .tc := ⟨.hbm, 48, rfl⟩
abbrev main_call3_v0 : Ref sig .tc := ⟨.hbm, 49, rfl⟩
abbrev main_call3_v1 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c : Ref sig .tc := ⟨.hbm, 55, rfl⟩
abbrev main_call4_v0 : Ref sig .tc := ⟨.hbm, 56, rfl⟩
abbrev main_v24 : Ref sig .tc := ⟨.hbm, 57, rfl⟩
abbrev main_v25 : Ref sig .tc := ⟨.hbm, 58, rfl⟩
abbrev main_v26_0 : Ref sig .tc := ⟨.hbm, 59, rfl⟩
abbrev main_v26_1 : Ref sig .tc := ⟨.hbm, 60, rfl⟩
abbrev main_v26_2 : Ref sig .tc := ⟨.hbm, 61, rfl⟩
abbrev main_cst_11 : Ref sig .tc := ⟨.hbm, 62, rfl⟩
abbrev main_v27 : Ref sig .tc := ⟨.hbm, 63, rfl⟩
abbrev main_cst_12 : Ref sig .tc := ⟨.hbm, 64, rfl⟩
abbrev main_v28 : Ref sig .tc := ⟨.hbm, 65, rfl⟩
abbrev main_cst_13 : Ref sig .tc := ⟨.hbm, 66, rfl⟩
abbrev main_v29 : Ref sig .tc := ⟨.hbm, 67, rfl⟩
abbrev main_v30 : Ref sig .tc := ⟨.hbm, 68, rfl⟩
abbrev main_cst_14 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_15 : Ref sig .tc := ⟨.hbm, 74, rfl⟩
abbrev main_v35 : Ref sig .tc := ⟨.hbm, 75, rfl⟩
abbrev main_v36 : Ref sig .tc := ⟨.hbm, 76, rfl⟩
abbrev main_cst_16 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46_0 : Ref sig .tc := ⟨.hbm, 87, rfl⟩
abbrev main_v46_1 : Ref sig .tc := ⟨.hbm, 88, rfl⟩
abbrev main_v46_2 : Ref sig .tc := ⟨.hbm, 89, rfl⟩
abbrev main_cst_17 : Ref sig .tc := ⟨.hbm, 90, rfl⟩
abbrev main_v47 : Ref sig .tc := ⟨.hbm, 91, rfl⟩
abbrev main_cst_18 : Ref sig .tc := ⟨.hbm, 92, rfl⟩
abbrev main_v48 : Ref sig .tc := ⟨.hbm, 93, rfl⟩
abbrev main_cst_19 : Ref sig .tc := ⟨.hbm, 94, rfl⟩
abbrev main_v49 : Ref sig .tc := ⟨.hbm, 95, rfl⟩
abbrev main_v50 : Ref sig .tc := ⟨.hbm, 96, rfl⟩
abbrev main_cst_20 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_21 : Ref sig .tc := ⟨.hbm, 102, rfl⟩
abbrev main_v55 : Ref sig .tc := ⟨.hbm, 103, rfl⟩
abbrev main_v56 : Ref sig .tc := ⟨.hbm, 104, rfl⟩
abbrev main_cst_22 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66_0 : Ref sig .tc := ⟨.hbm, 115, rfl⟩
abbrev main_v66_1 : Ref sig .tc := ⟨.hbm, 116, rfl⟩
abbrev main_v66_2 : Ref sig .tc := ⟨.hbm, 117, rfl⟩
abbrev main_cst_23 : Ref sig .tc := ⟨.hbm, 118, rfl⟩
abbrev main_v67 : Ref sig .tc := ⟨.hbm, 119, rfl⟩
abbrev main_cst_24 : Ref sig .tc := ⟨.hbm, 120, rfl⟩
abbrev main_v68 : Ref sig .tc := ⟨.hbm, 121, rfl⟩
abbrev main_cst_25 : Ref sig .tc := ⟨.hbm, 122, rfl⟩
abbrev main_v69 : Ref sig .tc := ⟨.hbm, 123, rfl⟩
abbrev main_v70 : Ref sig .tc := ⟨.hbm, 124, rfl⟩
abbrev main_cst_26 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_27 : Ref sig .tc := ⟨.hbm, 130, rfl⟩
abbrev main_v75 : Ref sig .tc := ⟨.hbm, 131, rfl⟩
abbrev main_v76 : Ref sig .tc := ⟨.hbm, 132, rfl⟩
abbrev main_cst_28 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem4_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1024x3072 : S_.BroadcastsInDim S1024x3072 (![] : Fin 0 → Fin S1024x3072.rank)
  transposes_S1024x3072_S3072x1024_1_0 : S1024x3072.Transposes [1, 0] S3072x1024
  bitsLt_bf16_f32 : FTy.bits .bf16 < FTy.bits .f32
  bcast_S_S1024x1024 : S_.BroadcastsInDim S1024x1024 (![] : Fin 0 → Fin S1024x1024.rank)
  transposes_S1024x1024_S1024x1024_1_0 : S1024x1024.Transposes [1, 0] S1024x1024
  bcast_S_S10x1024 : S_.BroadcastsInDim S10x1024 (![] : Fin 0 → Fin S10x1024.rank)
  transposes_S10x1024_S1024x10_1_0 : S10x1024.Transposes [1, 0] S1024x10
  pads_S1024x10_S1024x128_000_01180 : S1024x10.Pads (![0, 0] : Fin 2 → Nat) ![0, 118] ![0, 0] S1024x128
  h_S_ : 0 < S_.numel
  shapeCasts_S8192x3x32x32_S8192x3072 : S8192x3x32x32.ShapeCasts S8192x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  reduces_S512x1024_S1024 : S512x1024.Reduces [0] S1024
  shapeCasts_S1024_S1x1024 : S1024.ShapeCasts S1x1024
  iota_S8x1024_d0_w32 : S8x1024.Iotas .tc 32 [0]
  shapeCasts_S1x1024_S1x1024 : S1x1024.ShapeCasts S1x1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  reducesTo_S128x1024_S1024_d0 : S128x1024.ReducesTo [0] S1024
  bcast_S_S1024 : S_.BroadcastsInDim S1024 (![] : Fin 0 → Fin S1024.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  reduces_S1024x1024_S1024 : S1024x1024.Reduces [0] S1024
  reducesTo_S64x1024_S1024_d0 : S64x1024.ReducesTo [0] S1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S8192x128_S8192x10_0_0 : S8192x128.Slices ![0, 0] S8192x10
  dot_S512x3072_S3072x1024_S512x1024_1_0_0_1_n_n_wf : DotDims.WF S512x3072 S3072x1024 S512x1024 [1] [0] [0] [1] [] []
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .f32 = 32 ∨ (Rect.block (s := S8192x3072) S512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .bf16 = 32 ∨ (Rect.block (s := S8192x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S128x1024.size a
  hwx0_3 : ∀ i : grid0.Coords, EltTy.bits .f32 = 32 ∨ (Rect.block (s := S128x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S128x1024.size a
  hwx0_4 : ∀ i : grid0.Coords, EltTy.bits .f32 = 32 ∨ (Rect.block (s := S128x1024) S8x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x1024.size a
  hwx1_4 : ∀ i : grid1.Coords, EltTy.bits .bf16 = 32 ∨ (Rect.block (s := S8192x1024) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x1024.size a ≤ S64x1024.size a
  hwx1_5 : ∀ i : grid1.Coords, EltTy.bits .f32 = 32 ∨ (Rect.block (s := S64x1024) S8x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x1024.size a ≤ S64x1024.size a
  hwx1_6 : ∀ i : grid1.Coords, EltTy.bits .f32 = 32 ∨ (Rect.block (s := S64x1024) S8x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x1024.size a
  hwx2_4 : ∀ i : grid2.Coords, EltTy.bits .bf16 = 32 ∨ (Rect.block (s := S8192x1024) S1024x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x1024.size a ≤ S64x1024.size a
  hwx2_5 : ∀ i : grid2.Coords, EltTy.bits .f32 = 32 ∨ (Rect.block (s := S64x1024) S8x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x1024.size a ≤ S64x1024.size a
  hwx2_6 : ∀ i : grid2.Coords, EltTy.bits .f32 = 32 ∨ (Rect.block (s := S64x1024) S8x1024.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x1024.size a
  hwx3_0 : ∀ i : grid3.Coords, EltTy.bits .bf16 = 32 ∨ (Rect.block (s := S8192x1024) S1024x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S1024x128.size a
  hwx3_1 : ∀ i : grid3.Coords, EltTy.bits .bf16 = 32 ∨ (Rect.block (s := S1024x128) S1024x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S8192x128.size a
  hwx3_4 : ∀ i : grid3.Coords, EltTy.bits .f32 = 32 ∨ (Rect.block (s := S8192x128) S1024x128.size (cc3_transform_4 i) (hinb3_4 i)).WholeWords (EltTy.packing .f32)

variable [Facts₀]

def dot_S512x3072_S3072x1024_S512x1024_1_0_0_1_n_n : DotDims S512x3072 S3072x1024 S512x1024 where
  lhsContracting := [1]
  rhsContracting := [0]
  lhsNonContracting := [0]
  rhsNonContracting := [1]
  lhsBatch := []
  rhsBatch := []
  wf := dot_S512x3072_S3072x1024_S512x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v25) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26_1) S8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26_2) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_0) S1024x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46_1) S8x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v46_2) S8x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66_0) S1024x1024.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v66_1) S8x1024.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v66_2) S8x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66_0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1024x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1024x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x3x32x32 : Shape := ⟨4, ![8192, 3, 32, 32]⟩
abbrev S1024x3072 : Shape := ⟨2, ![1024, 3072]⟩
abbrev S1024x1024 : Shape := ⟨2, ![1024, 1024]⟩
abbrev S10x1024 : Shape := ⟨2, ![10, 1024]⟩
abbrev S1024 : Shape := ⟨1, ![1024]⟩
abbrev S8192x3072 : Shape := ⟨2, ![8192, 3072]⟩
abbrev S_ : Shape := ⟨0, ![]⟩
abbrev S3072x1024 : Shape := ⟨2, ![3072, 1024]⟩
abbrev S8192x1024 : Shape := ⟨2, ![8192, 1024]⟩
abbrev S1x1024 : Shape := ⟨2, ![1, 1024]⟩
abbrev S1024x10 : Shape := ⟨2, ![1024, 10]⟩
abbrev S8192x10 : Shape := ⟨2, ![8192, 10]⟩

abbrev nBuf : Space → Nat
  | .hbm => 197
  | .vmem => 0
  | .smem => 0
  | _ => 0

abbrev hbmTy0_0 (i : Nat) : BufTy := match i % 128 with
  | 0 => ⟨S8192x3x32x32, .f32⟩
  | 1 => ⟨S1024x3072, .f32⟩
  | 2 => ⟨S1024x1024, .f32⟩
  | 3 => ⟨S1024x1024, .f32⟩
  | 4 => ⟨S10x1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S8192x3072, .f32⟩
  | 12 => ⟨S_, .f32⟩
  | 13 => ⟨S1024x3072, .f32⟩
  | 14 => ⟨S1024x3072, .i1⟩
  | 15 => ⟨S_, .f32⟩
  | 16 => ⟨S_, .f32⟩
  | 17 => ⟨S1024x3072, .f32⟩
  | 18 => ⟨S1024x3072, .f32⟩
  | 19 => ⟨S1024x3072, .f32⟩
  | 20 => ⟨S1024x3072, .f32⟩
  | 21 => ⟨S3072x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S1024, .f32⟩
  | 28 => ⟨S_, .f32⟩
  | 29 => ⟨S1024, .f32⟩
  | 30 => ⟨S1024, .f32⟩
  | 31 => ⟨S_, .i32⟩
  | 32 => ⟨S_, .f32⟩
  | 33 => ⟨S1024, .f32⟩
  | 34 => ⟨S1x1024, .f32⟩
  | 35 => ⟨S_, .f32⟩
  | 36 => ⟨S1x1024, .f32⟩
  | 37 => ⟨S1x1024, .f32⟩
  | 38 => ⟨S8192x1024, .f32⟩
  | 39 => ⟨S8192x1024, .f32⟩
  | 40 => ⟨S8192x1024, .f32⟩
  | 41 => ⟨S_, .f32⟩
  | 42 => ⟨S_, .f32⟩
  | 43 => ⟨S_, .f32⟩
  | 44 => ⟨S_, .f32⟩
  | 45 => ⟨S1024, .f32⟩
  | 46 => ⟨S1024, .f32⟩
  | 47 => ⟨S1024, .f32⟩
  | 48 => ⟨S_, .f32⟩
  | 49 => ⟨S_, .i1⟩
  | 50 => ⟨S_, .f32⟩
  | 51 => ⟨S_, .f32⟩
  | 52 => ⟨S1024, .f32⟩
  | 53 => ⟨S1024, .f32⟩
  | 54 => ⟨S1x1024, .f32⟩
  | 55 => ⟨S8192x1024, .f32⟩
  | 56 => ⟨S8192x1024, .f32⟩
  | 57 => ⟨S1x1024, .f32⟩
  | 58 => ⟨S8192x1024, .f32⟩
  | 59 => ⟨S8192x1024, .f32⟩
  | 60 => ⟨S_, .f32⟩
  | 61 => ⟨S1024, .f32⟩
  | 62 => ⟨S1024, .f32⟩
  | 63 => ⟨S1024, .f32⟩
  | 64 => ⟨S1x1024, .f32⟩
  | 65 => ⟨S8192x1024, .f32⟩
  | 66 => ⟨S8192x1024, .f32⟩
  | 67 => ⟨S1x1024, .f32⟩
  | 68 => ⟨S8192x1024, .f32⟩
  | 69 => ⟨S8192x1024, .f32⟩
  | 70 => ⟨S_, .f32⟩
  | 71 => ⟨S1024x1024, .f32⟩
  | 72 => ⟨S1024x1024, .i1⟩
  | 73 => ⟨S_, .f32⟩
  | 74 => ⟨S_, .f32⟩
  | 75 => ⟨S1024x1024, .f32⟩
  | 76 => ⟨S1024x1024, .f32⟩
  | 77 => ⟨S1024x1024, .f32⟩
  | 78 => ⟨S1024x1024, .f32⟩
  | 79 => ⟨S1024x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S1024, .f32⟩
  | 86 => ⟨S_, .f32⟩
  | 87 => ⟨S1024, .f32⟩
  | 88 => ⟨S1024, .f32⟩
  | 89 => ⟨S_, .i32⟩
  | 90 => ⟨S_, .f32⟩
  | 91 => ⟨S1024, .f32⟩
  | 92 => ⟨S1x1024, .f32⟩
  | 93 => ⟨S_, .f32⟩
  | 94 => ⟨S1x1024, .f32⟩
  | 95 => ⟨S1x1024, .f32⟩
  | 96 => ⟨S8192x1024, .f32⟩
  | 97 => ⟨S8192x1024, .f32⟩
  | 98 => ⟨S8192x1024, .f32⟩
  | 99 => ⟨S_, .f32⟩
  | 100 => ⟨S_, .f32⟩
  | 101 => ⟨S_, .f32⟩
  | 102 => ⟨S_, .f32⟩
  | 103 => ⟨S1024, .f32⟩
  | 104 => ⟨S1024, .f32⟩
  | 105 => ⟨S1024, .f32⟩
  | 106 => ⟨S_, .f32⟩
  | 107 => ⟨S_, .i1⟩
  | 108 => ⟨S_, .f32⟩
  | 109 => ⟨S_, .f32⟩
  | 110 => ⟨S1024, .f32⟩
  | 111 => ⟨S1024, .f32⟩
  | 112 => ⟨S1x1024, .f32⟩
  | 113 => ⟨S8192x1024, .f32⟩
  | 114 => ⟨S8192x1024, .f32⟩
  | 115 => ⟨S1x1024, .f32⟩
  | 116 => ⟨S8192x1024, .f32⟩
  | 117 => ⟨S8192x1024, .f32⟩
  | 118 => ⟨S_, .f32⟩
  | 119 => ⟨S1024, .f32⟩
  | 120 => ⟨S1024, .f32⟩
  | 121 => ⟨S1024, .f32⟩
  | 122 => ⟨S1x1024, .f32⟩
  | 123 => ⟨S8192x1024, .f32⟩
  | 124 => ⟨S8192x1024, .f32⟩
  | 125 => ⟨S1x1024, .f32⟩
  | 126 => ⟨S8192x1024, .f32⟩
  | 127 => ⟨S8192x1024, .f32⟩
  | _ => ⟨S8192x3x32x32, .f32⟩

abbrev hbmTy0_1 (i : Nat) : BufTy := match i % 128 with
  | 0 => ⟨S_, .f32⟩
  | 1 => ⟨S1024x1024, .f32⟩
  | 2 => ⟨S1024x1024, .i1⟩
  | 3 => ⟨S_, .f32⟩
  | 4 => ⟨S_, .f32⟩
  | 5 => ⟨S1024x1024, .f32⟩
  | 6 => ⟨S1024x1024, .f32⟩
  | 7 => ⟨S1024x1024, .f32⟩
  | 8 => ⟨S1024x1024, .f32⟩
  | 9 => ⟨S1024x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S1024, .f32⟩
  | 16 => ⟨S_, .f32⟩
  | 17 => ⟨S1024, .f32⟩
  | 18 => ⟨S1024, .f32⟩
  | 19 => ⟨S_, .i32⟩
  | 20 => ⟨S_, .f32⟩
  | 21 => ⟨S1024, .f32⟩
  | 22 => ⟨S1x1024, .f32⟩
  | 23 => ⟨S_, .f32⟩
  | 24 => ⟨S1x1024, .f32⟩
  | 25 => ⟨S1x1024, .f32⟩
  | 26 => ⟨S8192x1024, .f32⟩
  | 27 => ⟨S8192x1024, .f32⟩
  | 28 => ⟨S8192x1024, .f32⟩
  | 29 => ⟨S_, .f32⟩
  | 30 => ⟨S_, .f32⟩
  | 31 => ⟨S_, .f32⟩
  | 32 => ⟨S_, .f32⟩
  | 33 => ⟨S1024, .f32⟩
  | 34 => ⟨S1024, .f32⟩
  | 35 => ⟨S1024, .f32⟩
  | 36 => ⟨S_, .f32⟩
  | 37 => ⟨S_, .i1⟩
  | 38 => ⟨S_, .f32⟩
  | 39 => ⟨S_, .f32⟩
  | 40 => ⟨S1024, .f32⟩
  | 41 => ⟨S1024, .f32⟩
  | 42 => ⟨S1x1024, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S_, .f32⟩
  | 49 => ⟨S1024, .f32⟩
  | 50 => ⟨S1024, .f32⟩
  | 51 => ⟨S1024, .f32⟩
  | 52 => ⟨S1x1024, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S_, .f32⟩
  | 59 => ⟨S10x1024, .f32⟩
  | 60 => ⟨S10x1024, .i1⟩
  | 61 => ⟨S_, .f32⟩
  | 62 => ⟨S_, .f32⟩
  | 63 => ⟨S10x1024, .f32⟩
  | 64 => ⟨S10x1024, .f32⟩
  | 65 => ⟨S10x1024, .f32⟩
  | 66 => ⟨S10x1024, .f32⟩
  | 67 => ⟨S1024x10, .f32⟩
  | 68 => ⟨S8192x10, .f32⟩
  | _ => ⟨S8192x3x32x32, .f32⟩

abbrev hbmTy (i : Nat) : BufTy := match i / 128 with
  | 0 => hbmTy0_0 i
  | 1 => hbmTy0_1 i
  | _ => ⟨S8192x3x32x32, .f32⟩

abbrev bufTy : (tb : Table) → Fin (tcTables nBuf tb) → BufTy
  | .hbm, ⟨i, _⟩ => hbmTy i
  | _, _ => ⟨S8192x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_cst : Ref sig .tc := ⟨.hbm, 23, rfl⟩
abbrev main_call1_v0 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_call2_cst : Ref sig .tc := ⟨.hbm, 32, rfl⟩
abbrev main_call2_v0 : Ref sig .tc := ⟨.hbm, 33, rfl⟩
abbrev main_call2_v1 : Ref sig .tc := ⟨.hbm, 34, rfl⟩
abbrev main_call2_cst_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_cst_1 : Ref sig .tc := ⟨.hbm, 42, rfl⟩
abbrev main_call2_v8 : Ref sig .tc := ⟨.hbm, 43, rfl⟩
abbrev main_call2_cst_2 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_cst_3 : Ref sig .tc := ⟨.hbm, 48, rfl⟩
abbrev main_call2_v12 : Ref sig .tc := ⟨.hbm, 49, rfl⟩
abbrev main_call2_cst_4 : Ref sig .tc := ⟨.hbm, 50, rfl⟩
abbrev main_call2_call0_v0 : Ref sig .tc := ⟨.hbm, 51, rfl⟩
abbrev main_call2_call0_v1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_4 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_5 : Ref sig .tc := ⟨.hbm, 70, rfl⟩
abbrev main_v27 : Ref sig .tc := ⟨.hbm, 71, rfl⟩
abbrev main_v28 : Ref sig .tc := ⟨.hbm, 72, rfl⟩
abbrev main_cst_6 : Ref sig .tc := ⟨.hbm, 73, rfl⟩
abbrev main_cst_7 : Ref sig .tc := ⟨.hbm, 74, rfl⟩
abbrev main_call3_v0 : Ref sig .tc := ⟨.hbm, 75, rfl⟩
abbrev main_call3_v1 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_call4_cst : Ref sig .tc := ⟨.hbm, 81, rfl⟩
abbrev main_call4_v0 : Ref sig .tc := ⟨.hbm, 82, rfl⟩
abbrev main_v33 : Ref sig .tc := ⟨.hbm, 83, rfl⟩
abbrev main_cst_8 : Ref sig .tc := ⟨.hbm, 84, rfl⟩
abbrev main_v34 : Ref sig .tc := ⟨.hbm, 85, rfl⟩
abbrev main_cst_9 : Ref sig .tc := ⟨.hbm, 86, rfl⟩
abbrev main_v35 : Ref sig .tc := ⟨.hbm, 87, rfl⟩
abbrev main_v36 : Ref sig .tc := ⟨.hbm, 88, rfl⟩
abbrev main_c_10 : Ref sig .tc := ⟨.hbm, 89, rfl⟩
abbrev main_call5_cst : Ref sig .tc := ⟨.hbm, 90, rfl⟩
abbrev main_call5_v0 : Ref sig .tc := ⟨.hbm, 91, rfl⟩
abbrev main_call5_v1 : Ref sig .tc := ⟨.hbm, 92, rfl⟩
abbrev main_call5_cst_0 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_v5 : Ref sig .tc := ⟨.hbm, 97, rfl⟩
abbrev main_call5_v6 : Ref sig .tc := ⟨.hbm, 98, rfl⟩
abbrev main_call5_v7 : Ref sig .tc := ⟨.hbm, 99, rfl⟩
abbrev main_call5_cst_1 : Ref sig .tc := ⟨.hbm, 100, rfl⟩
abbrev main_call5_v8 : Ref sig .tc := ⟨.hbm, 101, rfl⟩
abbrev main_call5_cst_2 : Ref sig .tc := ⟨.hbm, 102, rfl⟩
abbrev main_call5_v9 : Ref sig .tc := ⟨.hbm, 103, rfl⟩
abbrev main_call5_v10 : Ref sig .tc := ⟨.hbm, 104, rfl⟩
abbrev main_call5_v11 : Ref sig .tc := ⟨.hbm, 105, rfl⟩
abbrev main_call5_cst_3 : Ref sig .tc := ⟨.hbm, 106, rfl⟩
abbrev main_call5_v12 : Ref sig .tc := ⟨.hbm, 107, rfl⟩
abbrev main_call5_cst_4 : Ref sig .tc := ⟨.hbm, 108, rfl⟩
abbrev main_call5_call0_v0 : Ref sig .tc := ⟨.hbm, 109, rfl⟩
abbrev main_call5_call0_v1 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_cst_11 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_cst_12 : Ref sig .tc := ⟨.hbm, 128, rfl⟩
abbrev main_v53 : Ref sig .tc := ⟨.hbm, 129, rfl⟩
abbrev main_v54 : Ref sig .tc := ⟨.hbm, 130, rfl⟩
abbrev main_cst_13 : Ref sig .tc := ⟨.hbm, 131, rfl⟩
abbrev main_cst_14 : Ref sig .tc := ⟨.hbm, 132, rfl⟩
abbrev main_call6_v0 : Ref sig .tc := ⟨.hbm, 133, rfl⟩
abbrev main_call6_v1 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_call7_cst : Ref sig .tc := ⟨.hbm, 139, rfl⟩
abbrev main_call7_v0 : Ref sig .tc := ⟨.hbm, 140, rfl⟩
abbrev main_v59 : Ref sig .tc := ⟨.hbm, 141, rfl⟩
abbrev main_cst_15 : Ref sig .tc := ⟨.hbm, 142, rfl⟩
abbrev main_v60 : Ref sig .tc := ⟨.hbm, 143, rfl⟩
abbrev main_cst_16 : Ref sig .tc := ⟨.hbm, 144, rfl⟩
abbrev main_v61 : Ref sig .tc := ⟨.hbm, 145, rfl⟩
abbrev main_v62 : Ref sig .tc := ⟨.hbm, 146, rfl⟩
abbrev main_c_17 : Ref sig .tc := ⟨.hbm, 147, rfl⟩
abbrev main_call8_cst : Ref sig .tc := ⟨.hbm, 148, rfl⟩
abbrev main_call8_v0 : Ref sig .tc := ⟨.hbm, 149, rfl⟩
abbrev main_call8_v1 : Ref sig .tc := ⟨.hbm, 150, rfl⟩
abbrev main_call8_cst_0 : Ref sig .tc := ⟨.hbm, 151, rfl⟩
abbrev main_call8_v2 : Ref sig .tc := ⟨.hbm, 152, rfl⟩
abbrev main_call8_v3 : Ref sig .tc := ⟨.hbm, 153, rfl⟩
abbrev main_call8_v4 : Ref sig .tc := ⟨.hbm, 154, rfl⟩
abbrev main_call8_v5 : Ref sig .tc := ⟨.hbm, 155, rfl⟩
abbrev main_call8_v6 : Ref sig .tc := ⟨.hbm, 156, rfl⟩
abbrev main_call8_v7 : Ref sig .tc := ⟨.hbm, 157, rfl⟩
abbrev main_call8_cst_1 : Ref sig .tc := ⟨.hbm, 158, rfl⟩
abbrev main_call8_v8 : Ref sig .tc := ⟨.hbm, 159, rfl⟩
abbrev main_call8_cst_2 : Ref sig .tc := ⟨.hbm, 160, rfl⟩
abbrev main_call8_v9 : Ref sig .tc := ⟨.hbm, 161, rfl⟩
abbrev main_call8_v10 : Ref sig .tc := ⟨.hbm, 162, rfl⟩
abbrev main_call8_v11 : Ref sig .tc := ⟨.hbm, 163, rfl⟩
abbrev main_call8_cst_3 : Ref sig .tc := ⟨.hbm, 164, rfl⟩
abbrev main_call8_v12 : Ref sig .tc := ⟨.hbm, 165, rfl⟩
abbrev main_call8_cst_4 : Ref sig .tc := ⟨.hbm, 166, rfl⟩
abbrev main_call8_call0_v0 : Ref sig .tc := ⟨.hbm, 167, rfl⟩
abbrev main_call8_call0_v1 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_cst_18 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_cst_19 : Ref sig .tc := ⟨.hbm, 186, rfl⟩
abbrev main_v79 : Ref sig .tc := ⟨.hbm, 187, rfl⟩
abbrev main_v80 : Ref sig .tc := ⟨.hbm, 188, rfl⟩
abbrev main_cst_20 : Ref sig .tc := ⟨.hbm, 189, rfl⟩
abbrev main_cst_21 : Ref sig .tc := ⟨.hbm, 190, rfl⟩
abbrev main_call9_v0 : Ref sig .tc := ⟨.hbm, 191, rfl⟩
abbrev main_call9_v1 : Ref sig .tc := ⟨.hbm, 192, rfl⟩
abbrev main_v81 : Ref sig .tc := ⟨.hbm, 193, rfl⟩
abbrev main_v82 : Ref sig .tc := ⟨.hbm, 194, rfl⟩
abbrev main_v83 : Ref sig .tc := ⟨.hbm, 195, rfl⟩
abbrev main_v84 : Ref sig .tc := ⟨.hbm, 196, rfl⟩

abbrev nD : Nat := 1
abbrev τ : Topo := Topo.v7x

variable {F : FTy → Type} [FloatOps F]

class Facts₀ : Prop where
  shapeCasts_S8192x3x32x32_S8192x3072 : S8192x3x32x32.ShapeCasts S8192x3072
  bcast_S_S1024x3072 : S_.BroadcastsInDim S1024x3072 (![] : Fin 0 → Fin S1024x3072.rank)
  transposes_S1024x3072_S3072x1024_1_0 : S1024x3072.Transposes [1, 0] S3072x1024
  bcast_S_S8192x1024 : S_.BroadcastsInDim S8192x1024 (![] : Fin 0 → Fin S8192x1024.rank)
  reducesTo_S8192x1024_S1024_d0 : S8192x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)
  bcast_S_S1024x1024 : S_.BroadcastsInDim S1024x1024 (![] : Fin 0 → Fin S1024x1024.rank)
  transposes_S1024x1024_S1024x1024_1_0 : S1024x1024.Transposes [1, 0] S1024x1024
  bcast_S_S10x1024 : S_.BroadcastsInDim S10x1024 (![] : Fin 0 → Fin S10x1024.rank)
  transposes_S10x1024_S1024x10_1_0 : S10x1024.Transposes [1, 0] S1024x10
  dot_S8192x3072_S3072x1024_S8192x1024_1_0_0_1_n_n_wf : DotDims.WF S8192x3072 S3072x1024 S8192x1024 [1] [0] [0] [1] [] []
  dot_S8192x1024_S1024x1024_S8192x1024_1_0_0_1_n_n_wf : DotDims.WF S8192x1024 S1024x1024 S8192x1024 [1] [0] [0] [1] [] []
  dot_S8192x1024_S1024x10_S8192x10_1_0_0_1_n_n_wf : DotDims.WF S8192x1024 S1024x10 S8192x10 [1] [0] [0] [1] [] []

variable [Facts₀]

def dot_S8192x3072_S3072x1024_S8192x1024_1_0_0_1_n_n : DotDims S8192x3072 S3072x1024 S8192x1024 where
  lhsContracting := [1]
  rhsContracting := [0]
  lhsNonContracting := [0]
  rhsNonContracting := [1]
  lhsBatch := []
  rhsBatch := []
  wf := dot_S8192x3072_S3072x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x10_S8192x10_1_0_0_1_n_n : DotDims S8192x1024 S1024x10 S8192x10 where
  lhsContracting := [1]
  rhsContracting := [0]
  lhsNonContracting := [0]
  rhsNonContracting := [1]
  lhsBatch := []
  rhsBatch := []
  wf := dot_S8192x1024_S1024x10_S8192x10_1_0_0_1_n_n_wf

class Facts : Prop extends Facts₀ where

variable [Facts]
-- ==== Proof.Net.lean ====
/-
  A sign-binarised perceptron with batch normalisation taken over the batch, on the extended reals.

  One layer multiplies the activations by the transposed sign matrix of its weights and clips at zero (`act`);
  the last layer only multiplies (`lin`). Between layers each column is normalised with the statistics of that
  column over the whole batch. The normalisation is written here in two arrangements:

  * `bnR`: centre first — the mean `μ`, the variance as the mean of the squared deviations `(a − μ)²`, and
    `γ · (a − μ) · (var + ε)^(−1/2) + β`;
  * `bnK`: moments first — the variance as `max (mean of a² − μ², 0)`, then a per-column scale
    `γ · (var + ε)^(−1/2)` and shift `β − μ · γ · (var + ε)^(−1/2)`, applied as `a · scale + shift`.

  Over the reals the two agree: the mean of the squared deviations is the mean of the squares minus the squared
  mean (the batch size being the divisor), that number is never negative so the clip does nothing, and the rest
  is distributivity. On the extended reals those laws need every entry to be a real number.

  Sums carry the zero they start from, and the divisor, the floor `ε` and the two signs are kept as the words
  the programs print, so that both programs' operations read onto these definitions without evaluating a word.
-/
import Idealize.ShloMosaic.PureOps.Ideal
import Idealize.ShloMosaic.Lib.ValueIdx

noncomputable section

namespace Cert.BinNet

open Idealize.ShloMosaic

/-- The f32 words the programs spell: 0, 1, −1, the batch size 8192, the variance floor (the f32 nearest 1e-5), and
    the not-a-number pattern of a branch that is never taken. -/
abbrev z32 : EReal := Ideal.ofBits .f32 0x00000000#32
abbrev one32 : EReal := Ideal.ofBits .f32 0x3F800000#32
abbrev neg32 : EReal := Ideal.ofBits .f32 0xBF800000#32
abbrev n32 : EReal := Ideal.ofBits .f32 0x46000000#32
abbrev eps32 : EReal := Ideal.ofBits .f32 0x3727C5AC#32
abbrev nan32 : EReal := Ideal.ofBits .f32 0x7FC00000#32

/-- An array of rank 2, 1 read entry by entry, and the input images flattened to one row each. -/
def mat {a b : ℕ} (x : (⟨2, ![a, b]⟩ : Shape).Idx → EReal) (i : Fin a) (j : Fin b) : EReal := x (ValueIdx.ix2 i j)
def vec {a : ℕ} (x : (⟨1, ![a]⟩ : Shape).Idx → EReal) (i : Fin a) : EReal := x (ValueIdx.ix1 i)
def flat (h : (⟨4, ![8192, 3, 32, 32]⟩ : Shape).ShapeCasts ⟨2, ![8192, 3072]⟩)
    (x : (⟨4, ![8192, 3, 32, 32]⟩ : Shape).Idx → EReal) : Fin 8192 → Fin 3072 → EReal :=
  mat (shapeCast ⟨2, ![8192, 3072]⟩ x h)

/-- The sign of a weight: 1 when it is at least zero, else −1. -/
def sgn (w : EReal) : EReal := Scalar.select (Ideal.cmp .oge w z32) one32 neg32

/-- Clipping at zero. -/
def relu (v : EReal) : EReal := max v z32

/-- A matrix product, entry by entry. -/
def mm {B K N : ℕ} (h : Fin B → Fin K → EReal) (w : Fin K → Fin N → EReal) (p : Fin B) (q : Fin N) : EReal :=
  ∑ k : Fin K, h p k * w k q

/-- A per-column scale and shift. -/
def aff {B K : ℕ} (h : Fin B → Fin K → EReal) (s t : Fin K → EReal) (p : Fin B) (k : Fin K) : EReal :=
  h p k * s k + t k

/-- The transposed sign matrix of a weight matrix stored rows = outputs. -/
def signT {N K : ℕ} (W : Fin N → Fin K → EReal) (k : Fin K) (q : Fin N) : EReal := sgn (W q k)

/-- A hidden layer: the product with the transposed signs, clipped at zero. -/
def act {B K N : ℕ} (h : Fin B → Fin K → EReal) (W : Fin N → Fin K → EReal) (p : Fin B) (q : Fin N) : EReal :=
  relu (mm h (signT W) p q)

/-- The last layer: the product with the transposed signs. -/
def lin {B K N : ℕ} (h : Fin B → Fin K → EReal) (W : Fin N → Fin K → EReal) (p : Fin B) (q : Fin N) : EReal :=
  mm h (signT W) p q

/-- A column's sum over the batch, from the zero word. -/
def colSum {B N : ℕ} (a : Fin B → Fin N → EReal) (q : Fin N) : EReal := z32 + ∑ p : Fin B, a p q

/-- A column's mean. -/
def mean {B N : ℕ} (a : Fin B → Fin N → EReal) (q : Fin N) : EReal := Ideal.div (colSum a q) n32

/-! ## Centre first -/

/-- The count the squared deviations are divided by: the batch size less zero degrees of freedom, the zero given as a
    32-bit integer. -/
def cnt : EReal := n32 - (((0#32 : BitVec 32).toInt : ℝ) : EReal)

/-- The variance as the mean of the squared deviations (the other branch is for a count that is not positive). -/
def varR {B N : ℕ} (a : Fin B → Fin N → EReal) (q : Fin N) : EReal :=
  Scalar.select (Ideal.cmp .ogt cnt z32)
    (Ideal.div (z32 + ∑ p : Fin B, (a p q - mean a q) * (a p q - mean a q)) cnt) nan32

def bnR {B N : ℕ} (a : Fin B → Fin N → EReal) (g b : Fin N → EReal) (p : Fin B) (q : Fin N) : EReal :=
  g q * (a p q - mean a q) * Ideal.rsqrt (varR a q + eps32) + b q

/-! ## Moments first -/

def varK {B N : ℕ} (a : Fin B → Fin N → EReal) (q : Fin N) : EReal :=
  max (Ideal.div (z32 + ∑ p : Fin B, a p q * a p q) n32 - mean a q * mean a q) z32

def invK {B N : ℕ} (a : Fin B → Fin N → EReal) (q : Fin N) : EReal := Ideal.rsqrt (varK a q + eps32)

/-- The scale and the shift of one column from its sum `S`, its sum of squares `Q` and its two parameters. -/
def statScale (S Q g : EReal) : EReal :=
  g * Ideal.rsqrt (max (Ideal.div Q n32 - Ideal.div S n32 * Ideal.div S n32) z32 + eps32)
def statShift (S Q g b : EReal) : EReal :=
  b - Ideal.div S n32 * g * Ideal.rsqrt (max (Ideal.div Q n32 - Ideal.div S n32 * Ideal.div S n32) z32 + eps32)

def scaleK {B N : ℕ} (a : Fin B → Fin N → EReal) (g : Fin N → EReal) (q : Fin N) : EReal :=
  statScale (colSum a q) (z32 + ∑ p : Fin B, a p q * a p q) (g q)

def shiftK {B N : ℕ} (a : Fin B → Fin N → EReal) (g b : Fin N → EReal) (q : Fin N) : EReal :=
  statShift (colSum a q) (z32 + ∑ p : Fin B, a p q * a p q) (g q) (b q)

def bnK {B N : ℕ} (a : Fin B → Fin N → EReal) (g b : Fin N → EReal) : Fin B → Fin N → EReal :=
  aff a (scaleK a g) (shiftK a g b)

/-! ## The network: three hidden layers, each followed by the normalisation, and the last layer -/

section net
variable {B K H C : ℕ} (x : Fin B → Fin K → EReal) (W1 : Fin H → Fin K → EReal) (W2 W3 : Fin H → Fin H → EReal)
  (W4 : Fin C → Fin H → EReal) (g1 b1 g2 b2 g3 b3 : Fin H → EReal)

def netR : Fin B → Fin C → EReal :=
  lin (bnR (act (bnR (act (bnR (act x W1) g1 b1) W2) g2 b2) W3) g3 b3) W4

def netK : Fin B → Fin C → EReal :=
  lin (bnK (act (bnK (act (bnK (act x W1) g1 b1) W2) g2 b2) W3) g3 b3) W4

end net

end Cert.BinNet

end
-- ==== Proof.LibNegDot.lean ====
/-
  A product with a NEGATED matrix, subtracted, against the product added — x − y · (−E) against x + y · E — entry
  by entry on the extended reals. The two agree when the row's and the column's entries are real numbers; with
  infinite entries a sum can hold both infinities, and negation does not pass through such a sum.
-/
import Idealize.ShloMosaic.PureOps.Ideal

noncomputable section

namespace Cert.LibNegDot

open scoped BigOperators

/-- A finite sum of reals, read in the extended reals, is the sum of the terms read there. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Subtracting the product of a row with the NEGATED column is adding the product with the column, when the
    row's and the column's entries are real: the terms are then real, and negation passes through a real sum. -/
theorem sub_dot_neg {ι : Type} [Fintype ι] (a : EReal) (y e : ι → EReal) (hy : ∀ k, ∃ r : ℝ, y k = r)
    (he : ∀ k, ∃ r : ℝ, e k = r) : a - ∑ k, y k * -(e k) = a + ∑ k, y k * e k := by
  choose yr hyr using hy
  choose er her using he
  have h1 : ∑ k, y k * -(e k) = ((-(∑ k, yr k * er k) : ℝ) : EReal) := by
    rw [← Finset.sum_neg_distrib, coe_sum]
    refine Finset.sum_congr rfl fun k _ => ?_
    rw [hyr k, her k, ← EReal.coe_neg, ← EReal.coe_mul, mul_neg]
  have h2 : ∑ k, y k * e k = ((∑ k, yr k * er k : ℝ) : EReal) := by
    rw [coe_sum]
    refine Finset.sum_congr rfl fun k _ => ?_
    rw [hyr k, her k, EReal.coe_mul]
  rw [h1, h2, sub_eq_add_neg, ← EReal.coe_neg, neg_neg]

end Cert.LibNegDot
-- ==== Proof.LibAllReal.lean ====
/-
  Arrays of extended reals all of whose entries are real numbers, and the operations that keep them so:
  finite literals, products, sums and differences, cosine and sine, every re-indexing (broadcast, slice, reshape,
  transpose, concatenation: each entry of the result is an entry of an operand), the matrix product (a finite sum of
  products) and the host's sum from a real initial value.
-/
import Idealize.ShloMosaic.PureOps.Ideal.Laws
import Idealize.ShloMosaic.Lib.ValueIdx
import Idealize.ShloMosaic.Lib.Pipeline.Value

noncomputable section

namespace Cert.KernelIdeal.Real

open Idealize.ShloMosaic
open scoped BigOperators

/-- Every entry is a real number. -/
def AllReal {s : Shape} (v : s.Idx → EReal) : Prop := ∀ i, ∃ r : ℝ, v i = (r : EReal)

/-- Every array of a list of arrays (each with its shape) has only real entries. -/
def AllRealL (xs : List ((s : Shape) × (s.Idx → EReal))) : Prop := ∀ p ∈ xs, AllReal p.2

theorem AllRealL.nil : AllRealL [] := fun _ hp => nomatch hp

theorem AllRealL.cons {s : Shape} {x : s.Idx → EReal} {l : List ((s : Shape) × (s.Idx → EReal))}
    (hx : AllReal x) (hl : AllRealL l) : AllRealL (⟨s, x⟩ :: l) := fun p hp => by
  rcases List.mem_cons.1 hp with rfl | hp
  · exact hx
  · exact hl p hp

/-! ## Sums -/

/-- A finite sum of real numbers, taken in the extended reals, is a real number. -/
theorem sum_real {ι : Type} (S : Finset ι) (f : ι → EReal) (hf : ∀ k ∈ S, ∃ r : ℝ, f k = (r : EReal)) :
    ∃ r : ℝ, ∑ k ∈ S, f k = (r : EReal) :=
  Finset.sum_induction f (fun x => ∃ r : ℝ, x = (r : EReal))
    (fun a b ⟨x, hx⟩ ⟨y, hy⟩ => ⟨x + y, by rw [hx, hy, EReal.coe_add]⟩) ⟨0, EReal.coe_zero.symm⟩ hf

/-! ## Literals -/

/-- An f32 word whose exponent field is not all ones denotes a real number. -/
theorem ofBits_f32_real (w : BitVec 32) (h : (w.extractLsb' 23 8).toNat ≠ 255) :
    ∃ r : ℝ, Ideal.ofBits .f32 w = (r : EReal) := by
  show ∃ r : ℝ, Ideal.ieee 8 23 w = (r : EReal)
  unfold Ideal.ieee
  dsimp only
  rw [if_neg (by simpa using h)]
  split_ifs <;> exact ⟨_, rfl⟩

variable {s t : Shape} {φ : FTy}

/-- A splat of a finite f32 literal. -/
theorem AllReal.constant (w : BitVec 32) (h : (w.extractLsb' 23 8).toNat ≠ 255) :
    AllReal (Idealize.ShloMosaic.constant (F := Ideal) s .f32 w) := fun _ => ofBits_f32_real w h

/-- A table of finite f32 literals. -/
theorem AllReal.table {n : Nat} (lit : Fin n → BitVec 32) (h : ∀ k, ((lit k).extractLsb' 23 8).toNat ≠ 255)
    (f : s.Idx → Fin n) : AllReal (fun i => FloatOps.ofBits (F := Ideal) .f32 (lit (f i))) :=
  fun i => ofBits_f32_real _ (h (f i))

/-! ## Arithmetic -/

theorem AllReal.mulf {a b : FVec Ideal s φ} (ha : AllReal a) (hb : AllReal b) :
    AllReal (Idealize.ShloMosaic.mulf a b) := fun i => by
  obtain ⟨x, hx⟩ := ha i
  obtain ⟨y, hy⟩ := hb i
  exact ⟨x * y, by rw [ValueIdx.mulf_apply, hx, hy, EReal.coe_mul]⟩

theorem AllReal.addf {a b : FVec Ideal s φ} (ha : AllReal a) (hb : AllReal b) :
    AllReal (Idealize.ShloMosaic.addf a b) := fun i => by
  obtain ⟨x, hx⟩ := ha i
  obtain ⟨y, hy⟩ := hb i
  exact ⟨x + y, by rw [ValueIdx.addf_apply, hx, hy, EReal.coe_add]⟩

theorem AllReal.subf {a b : FVec Ideal s φ} (ha : AllReal a) (hb : AllReal b) :
    AllReal (Idealize.ShloMosaic.subf a b) := fun i => by
  obtain ⟨x, hx⟩ := ha i
  obtain ⟨y, hy⟩ := hb i
  exact ⟨x - y, by rw [ValueIdx.subf_apply, hx, hy, EReal.coe_sub]⟩

theorem AllReal.cos {a : FVec Ideal s φ} (ha : AllReal a) : AllReal (Host.cos a) := fun i => by
  obtain ⟨x, hx⟩ := ha i
  exact ⟨Real.cos x, by show Ideal.cos (a i) = _; rw [hx, Ideal.cos_coe]⟩

theorem AllReal.sin {a : FVec Ideal s φ} (ha : AllReal a) : AllReal (Host.sin a) := fun i => by
  obtain ⟨x, hx⟩ := ha i
  exact ⟨Real.sin x, by show Ideal.sin (a i) = _; rw [hx, Ideal.sin_coe]⟩

/-! ## Re-indexings: each entry of the result is an entry of the operand -/

theorem AllReal.broadcastInDim {x : s.Idx → EReal} (dims : Fin s.rank → Fin t.rank) (h : s.BroadcastsInDim t dims)
    (hx : AllReal x) : AllReal (Idealize.ShloMosaic.broadcastInDim t dims h x) := fun _ => hx _

theorem AllReal.extractStridedSlice {x : s.Idx → EReal} (off : Fin s.rank → Nat) (h : s.Slices off t)
    (hx : AllReal x) : AllReal (Idealize.ShloMosaic.extractStridedSlice t off x h) := fun _ => hx _

theorem AllReal.shapeCast {x : s.Idx → EReal} (h : s.ShapeCasts t) (hx : AllReal x) :
    AllReal (Idealize.ShloMosaic.shapeCast t x h) := fun _ => hx _

theorem AllReal.transpose {x : s.Idx → EReal} (perm : List (Fin s.rank)) (h : s.Transposes perm t) (hx : AllReal x) :
    AllReal (Idealize.ShloMosaic.transpose t perm x h) := fun _ => hx _

/-- Every entry of a concatenation is an entry of one of the operands. -/
theorem concatenate_entry {α : Type} (a : Fin t.rank) (xs : List ((s : Shape) × (s.Idx → α)))
    (h : Shape.Concatenates (xs.map (·.1)) t a) (j : t.Idx) :
    ∃ p ∈ xs, ∃ i : p.1.Idx, concatenate t a xs h j = p.2 i := by
  unfold concatenate
  exact ⟨_, List.getElem_mem _, _, rfl⟩

theorem AllReal.concatenate (a : Fin t.rank) {xs : List ((s : Shape) × (s.Idx → EReal))}
    (h : Shape.Concatenates (xs.map (·.1)) t a) (hx : AllRealL xs) :
    AllReal (Idealize.ShloMosaic.concatenate t a xs h) := fun j => by
  obtain ⟨p, hp, i, e⟩ := concatenate_entry a xs h j
  rw [e]
  exact hx p hp i

/-! ## Contractions -/

/-- The host's matrix product: each entry is a finite sum of products of entries. -/
theorem AllReal.dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ x : ℝ, FloatOps.dotGeneral d prec .single l r j = (x : EReal)
  rw [Ideal.dotGeneral_apply]
  refine sum_real _ _ fun k _ => ?_
  obtain ⟨x, hx⟩ := hl (d.lhsIdx j k)
  obtain ⟨y, hy⟩ := hr (d.rhsIdx j k)
  exact ⟨x * y, by rw [hx, hy, EReal.coe_mul]⟩

/-- The host's sum along some axes from a real initial value. -/
theorem AllReal.reduceAdd {u : Shape} {axes : List (Fin s.rank)} {x : FVec Ideal s φ} {init : u.Idx → Ideal φ}
    (h : s.ReducesTo axes t) (hu : 0 < u.numel) (hx : AllReal x) (hi : AllReal init) :
    AllReal (Host.reduceAdd x init h hu) := fun j => by
  show ∃ r : ℝ, Ideal.hostReduceAdd h x (init (Shape.Idx.first hu)) j = (r : EReal)
  unfold Ideal.hostReduceAdd
  obtain ⟨a, ha⟩ := hi (Shape.Idx.first hu)
  obtain ⟨b, hb⟩ := sum_real (Finset.univ.filter fun i => h.drop i = j) x fun k _ => hx k
  exact ⟨a + b, by rw [ha, hb, EReal.coe_add]⟩

end Cert.KernelIdeal.Real

end
-- ==== Proof.NetLaw.lean ====
/-
  The two arrangements of the batch normalisation agree when every entry is a real number.

  For one column with real entries `α p` (`p` over the batch of 8192), write `s = Σ α`, `μ = s / 8192` and
  `Q = Σ α²`. Then `Σ (α − μ)² = Q − 2 μ s + 8192 μ² = Q − 8192 μ²`, so the mean of the squared deviations is
  `Q / 8192 − μ²`; it is a mean of squares, hence not negative, and clipping it at zero changes nothing. Both
  arrangements therefore take the same `v + ε > 0` to the power −1/2, a real number `ι`, and
  `α · (γ ι) + (β − μ γ ι) = γ (α − μ) ι + β` by distributivity. A clipped product of real entries with signs is real,
  so the agreement passes from layer to layer.
-/
import proofs.«124504_j45586782880351_2_alg».proof.Proof.Net
import proofs.«124504_j45586782880351_2_alg».proof.Proof.LibNegDot
import proofs.«124504_j45586782880351_2_alg».proof.Proof.LibAllReal

noncomputable section

namespace Cert.BinNet

open Idealize.ShloMosaic
open Cert.KernelIdeal.Real (sum_real ofBits_f32_real)
open Cert.LibNegDot (coe_sum)

/-! ## The words as real numbers -/

theorem z32_eq : z32 = 0 := Ideal.ofBits_zero_f32

theorem n32_eq : n32 = ((8192 : ℝ) : EReal) := by
  simp [Ideal.ofBits, Ideal.ieee, -EReal.coe_mul]; norm_num

/-- The variance floor is a positive real number. -/
theorem eps32_pos : ∃ e : ℝ, 0 < e ∧ eps32 = (e : EReal) := by
  refine ⟨(10995116 : ℝ) / 2 ^ 40, by positivity, ?_⟩
  simp [Ideal.ofBits, Ideal.ieee, -EReal.coe_mul]; norm_num

/-- A sign is a real number. -/
theorem sgn_real (w : EReal) : ∃ r : ℝ, sgn w = (r : EReal) := by
  unfold sgn Scalar.select
  split_ifs
  · exact ofBits_f32_real _ (by decide)
  · exact ofBits_f32_real _ (by decide)

/-- Dividing a real number by the batch size. -/
theorem div_n (x : ℝ) : Ideal.div (x : EReal) n32 = ((x / 8192 : ℝ) : EReal) := by
  rw [n32_eq, Ideal.div_coe (by norm_num : (8192 : ℝ) ≠ 0), ← EReal.coe_mul]
  congr 1; ring

/-- The count of the squared deviations is the batch size. -/
theorem cnt_eq : cnt = ((8192 : ℝ) : EReal) := by
  unfold cnt
  rw [n32_eq, ← EReal.coe_sub]
  congr 1; simp

/-- That count is positive, so the variance's first branch is the one taken. -/
theorem cnt_pos : Ideal.cmp .ogt cnt z32 = 1 := by
  rw [cnt_eq, z32_eq]
  unfold Ideal.cmp
  have h : ((0 : EReal) < ((8192 : ℝ) : EReal)) := by exact_mod_cast (by norm_num : (0 : ℝ) < 8192)
  simp [h]

/-- The larger of two real numbers, taken in the extended reals. -/
theorem coe_max' (x y : ℝ) : max (x : EReal) (y : EReal) = ((max x y : ℝ) : EReal) :=
  (EReal.coe_strictMono.monotone.map_max).symm

/-- The reciprocal square root of a positive real number is a real number. -/
theorem rsqrt_pos {v : ℝ} (hv : 0 < v) : Ideal.rsqrt (v : EReal) = (((Real.sqrt v)⁻¹ : ℝ) : EReal) := by
  rw [Ideal.rsqrt_coe, if_neg (not_lt.2 hv.le), if_neg hv.ne']

/-! ## One column over the reals -/

/-- The mean of the squared deviations from the mean is the mean of the squares less the squared mean. -/
theorem var_identity {B : ℕ} (hB : B = 8192) (α : Fin B → ℝ) :
    (∑ p, (α p - (∑ p, α p) / 8192) * (α p - (∑ p, α p) / 8192)) / 8192
      = (∑ p, α p * α p) / 8192 - (∑ p, α p) / 8192 * ((∑ p, α p) / 8192) := by
  subst hB
  set s := ∑ p, α p with hs
  have h1 : ∑ p : Fin 8192, (α p - s / 8192) * (α p - s / 8192)
      = (∑ p, α p * α p) - 2 * (s / 8192) * s + 8192 * (s / 8192 * (s / 8192)) := by
    have : ∀ p, (α p - s / 8192) * (α p - s / 8192) = α p * α p - 2 * (s / 8192) * α p + s / 8192 * (s / 8192) := by
      intro p; ring
    simp only [this, Finset.sum_add_distrib, Finset.sum_sub_distrib, ← Finset.mul_sum, Finset.sum_const,
      Finset.card_univ, Fintype.card_fin, nsmul_eq_mul]
    rw [← hs]; push_cast; ring
  rw [h1]; field_simp; ring

/-- It is not negative. -/
theorem var_nonneg {B : ℕ} (α : Fin B → ℝ) (μ : ℝ) : 0 ≤ (∑ p, (α p - μ) * (α p - μ)) / 8192 :=
  div_nonneg (Finset.sum_nonneg fun p _ => mul_self_nonneg _) (by norm_num)

/-! ## One layer's normalisation -/

section layer
variable {B N : ℕ} (α : Fin B → Fin N → ℝ) (γ β : Fin N → ℝ)

theorem colSum_coe (q : Fin N) : colSum (fun p q => (α p q : EReal)) q = ((∑ p, α p q : ℝ) : EReal) := by
  unfold colSum; rw [z32_eq, zero_add, coe_sum]

theorem mean_coe (q : Fin N) : mean (fun p q => (α p q : EReal)) q = (((∑ p, α p q) / 8192 : ℝ) : EReal) := by
  unfold mean; rw [colSum_coe, div_n]

theorem varR_coe (q : Fin N) : varR (fun p q => (α p q : EReal)) q
    = (((∑ p, (α p q - (∑ p, α p q) / 8192) * (α p q - (∑ p, α p q) / 8192)) / 8192 : ℝ) : EReal) := by
  unfold varR Scalar.select
  rw [if_pos cnt_pos, cnt_eq, mean_coe, z32_eq, zero_add]
  simp only [← EReal.coe_sub, ← EReal.coe_mul, ← coe_sum]
  rw [Ideal.div_coe (by norm_num : (8192 : ℝ) ≠ 0), ← EReal.coe_mul]
  congr 1; ring

theorem varK_coe (hB : B = 8192) (q : Fin N) : varK (fun p q => (α p q : EReal)) q
    = (((∑ p, (α p q - (∑ p, α p q) / 8192) * (α p q - (∑ p, α p q) / 8192)) / 8192 : ℝ) : EReal) := by
  unfold varK
  rw [mean_coe, z32_eq, zero_add]
  simp only [← EReal.coe_mul, ← coe_sum]
  rw [div_n, ← EReal.coe_sub, ← var_identity hB (fun p => α p q), ← EReal.coe_zero, coe_max',
    max_eq_left (var_nonneg _ _)]

/-- The two arrangements of one layer's normalisation agree, and the result is real. -/
theorem bn_agree (hB : B = 8192) (p : Fin B) (q : Fin N) :
    bnK (fun p q => (α p q : EReal)) (fun q => (γ q : EReal)) (fun q => (β q : EReal)) p q
      = bnR (fun p q => (α p q : EReal)) (fun q => (γ q : EReal)) (fun q => (β q : EReal)) p q
    ∧ ∃ r : ℝ, bnR (fun p q => (α p q : EReal)) (fun q => (γ q : EReal)) (fun q => (β q : EReal)) p q = (r : EReal) := by
  obtain ⟨e, he, hε⟩ := eps32_pos
  set v : ℝ := (∑ p, (α p q - (∑ p, α p q) / 8192) * (α p q - (∑ p, α p q) / 8192)) / 8192 with hv
  have hv0 : 0 ≤ v := var_nonneg _ _
  have hpos : 0 < v + e := by linarith
  have hK : Ideal.rsqrt (varK (fun p q => (α p q : EReal)) q + eps32) = (((Real.sqrt (v + e))⁻¹ : ℝ) : EReal) := by
    rw [varK_coe α hB q, hε, ← EReal.coe_add, rsqrt_pos hpos]
  have hR : Ideal.rsqrt (varR (fun p q => (α p q : EReal)) q + eps32) = (((Real.sqrt (v + e))⁻¹ : ℝ) : EReal) := by
    rw [varR_coe α q, hε, ← EReal.coe_add, rsqrt_pos hpos]
  have hRe : bnR (fun p q => (α p q : EReal)) (fun q => (γ q : EReal)) (fun q => (β q : EReal)) p q
      = ((γ q * (α p q - (∑ p, α p q) / 8192) * (Real.sqrt (v + e))⁻¹ + β q : ℝ) : EReal) := by
    unfold bnR
    rw [hR, mean_coe]
    simp only [← EReal.coe_sub, ← EReal.coe_mul, ← EReal.coe_add]
  refine ⟨?_, _, hRe⟩
  rw [hRe]
  unfold bnK aff scaleK shiftK statScale statShift
  have hK' : Ideal.rsqrt (max (Ideal.div (z32 + ∑ p : Fin B, (α p q : EReal) * (α p q : EReal)) n32
        - Ideal.div (colSum (fun p q => (α p q : EReal)) q) n32 * Ideal.div (colSum (fun p q => (α p q : EReal)) q) n32) z32 + eps32)
      = (((Real.sqrt (v + e))⁻¹ : ℝ) : EReal) := hK
  rw [hK']
  have hm : Ideal.div (colSum (fun p q => (α p q : EReal)) q) n32 = (((∑ p, α p q) / 8192 : ℝ) : EReal) := mean_coe α q
  rw [hm]
  simp only [← EReal.coe_sub, ← EReal.coe_mul, ← EReal.coe_add]
  congr 1; ring

end layer

/-! ## From layer to layer -/

/-- A product of real entries with a sign matrix is real, clipped or not. -/
theorem mm_signT_real {B K N : ℕ} (h : Fin B → Fin K → EReal) (W : Fin N → Fin K → EReal)
    (hh : ∀ p k, ∃ r : ℝ, h p k = (r : EReal)) (p : Fin B) (q : Fin N) : ∃ r : ℝ, mm h (signT W) p q = (r : EReal) := by
  unfold mm
  refine sum_real _ _ fun k _ => ?_
  obtain ⟨x, hx⟩ := hh p k
  obtain ⟨y, hy⟩ := sgn_real (W q k)
  exact ⟨x * y, by rw [hx]; unfold signT; rw [hy, EReal.coe_mul]⟩

theorem act_real {B K N : ℕ} (h : Fin B → Fin K → EReal) (W : Fin N → Fin K → EReal)
    (hh : ∀ p k, ∃ r : ℝ, h p k = (r : EReal)) (p : Fin B) (q : Fin N) : ∃ r : ℝ, act h W p q = (r : EReal) := by
  obtain ⟨x, hx⟩ := mm_signT_real h W hh p q
  exact ⟨max x 0, by unfold act relu; rw [hx, z32_eq, ← EReal.coe_zero, coe_max']⟩

/-- One normalisation on an array of real entries with real parameters: the arrangements agree as arrays, and the
    result has real entries. -/
theorem bn_layer {B N : ℕ} (hB : B = 8192) (a : Fin B → Fin N → EReal) (g b : Fin N → EReal)
    (ha : ∀ p q, ∃ r : ℝ, a p q = (r : EReal)) (hg : ∀ q, ∃ r : ℝ, g q = (r : EReal)) (hb : ∀ q, ∃ r : ℝ, b q = (r : EReal)) :
    bnK a g b = bnR a g b ∧ ∀ p q, ∃ r : ℝ, bnR a g b p q = (r : EReal) := by
  choose α hα using ha
  choose γ hγ using hg
  choose β hβ using hb
  obtain rfl : a = fun p q => (α p q : EReal) := funext fun p => funext fun q => hα p q
  obtain rfl : g = fun q => (γ q : EReal) := funext hγ
  obtain rfl : b = fun q => (β q : EReal) := funext hβ
  exact ⟨funext fun p => funext fun q => (bn_agree α γ β hB p q).1, fun p q => (bn_agree α γ β hB p q).2⟩

/-- The whole network: with real inputs and real normalisation parameters, over a batch of 8192, the two arrangements
    compute the same array. -/
theorem netK_eq_netR {B K H C : ℕ} (hB : B = 8192) (x : Fin B → Fin K → EReal) (W1 : Fin H → Fin K → EReal)
    (W2 W3 : Fin H → Fin H → EReal) (W4 : Fin C → Fin H → EReal) (g1 b1 g2 b2 g3 b3 : Fin H → EReal)
    (hx : ∀ p k, ∃ r : ℝ, x p k = (r : EReal))
    (hg1 : ∀ q, ∃ r : ℝ, g1 q = (r : EReal)) (hb1 : ∀ q, ∃ r : ℝ, b1 q = (r : EReal))
    (hg2 : ∀ q, ∃ r : ℝ, g2 q = (r : EReal)) (hb2 : ∀ q, ∃ r : ℝ, b2 q = (r : EReal))
    (hg3 : ∀ q, ∃ r : ℝ, g3 q = (r : EReal)) (hb3 : ∀ q, ∃ r : ℝ, b3 q = (r : EReal)) :
    netK x W1 W2 W3 W4 g1 b1 g2 b2 g3 b3 = netR x W1 W2 W3 W4 g1 b1 g2 b2 g3 b3 := by
  unfold netK netR
  obtain ⟨e1, r1⟩ := bn_layer hB (act x W1) g1 b1 (act_real x W1 hx) hg1 hb1
  rw [e1]
  obtain ⟨e2, r2⟩ := bn_layer hB (act (bnR (act x W1) g1 b1) W2) g2 b2 (act_real _ W2 r1) hg2 hb2
  rw [e2]
  obtain ⟨e3, _⟩ := bn_layer hB (act (bnR (act (bnR (act x W1) g1 b1) W2) g2 b2) W3) g3 b3 (act_real _ W3 r2) hg3 hb3
  rw [e3]

end Cert.BinNet

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.Finite.lean ====
/-
  What the precondition gives: every entry of the input images and of the six normalisation vectors is a real number.

  The precondition is a conjunction, one conjunct per input, each saying that all entries of the input have an absolute
  value below +infinity; an extended real whose absolute value is below +infinity is a real number. (The weight matrices
  enter the network only through their signs, so their conjuncts are not used.)
-/
import proofs.«124504_j45586782880351_2_alg».proof.Pre_finite_inputs
import proofs.«124504_j45586782880351_2_alg».proof.Proof.LibRealEntry
import Idealize.ShloMosaic.Lib.ReduceAll
import Idealize.ShloMosaic.Lib.ValueIdx

noncomputable section

namespace Cert.Pre_finite_inputs.Finite

open Idealize.ShloMosaic Cert.Pre_finite_inputs Cert.Pre_finite_inputs.Facts

variable [Facts]

instance : Subsingleton S_.Idx := ⟨fun a b => funext fun d => d.elim0⟩

/-- One conjunct: all entries of `a` compare below the word of +infinity in absolute value, so all are real. -/
theorem real_of_all {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = (r : EReal) :=
  Cert.LibRealEntry.real_of_abs_lt_inf (a i) (Host.reduce_andi_all _ _ hr hu _ h i)

/-- The precondition's conjuncts for the images and the normalisation vectors. -/
theorem real_of_pre (a0 : FVec Ideal S8192x3x32x32 .f32) (a1 : FVec Ideal S1024x3072 .f32) (a2 a3 : FVec Ideal S1024x1024 .f32)
    (a4 : FVec Ideal S10x1024 .f32) (a5 a6 a7 a8 a9 a10 : FVec Ideal S1024 .f32)
    (h : fn (F := Ideal) a0 a1 a2 a3 a4 a5 a6 a7 a8 a9 a10 = fun _ => 1#1) :
    (∀ i, ∃ r : ℝ, a0 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) := by
  have h0 := congrFun h ValueIdx.ix0
  dsimp only [fn, fn_part1, fn_part2, fn_part3] at h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, _⟩ := IntOp.andi_eq_one.1 h0
  obtain ⟨h0, _⟩ := IntOp.andi_eq_one.1 h0
  obtain ⟨h0, _⟩ := IntOp.andi_eq_one.1 h0
  obtain ⟨c0, _⟩ := IntOp.andi_eq_one.1 h0
  exact ⟨real_of_all a0 _ _ _ c0, real_of_all a5 _ _ _ c5, real_of_all a6 _ _ _ c6, real_of_all a7 _ _ _ c7,
    real_of_all a8 _ _ _ c8, real_of_all a9 _ _ _ c9, real_of_all a10 _ _ _ c10⟩

end Cert.Pre_finite_inputs.Finite

end
-- ==== Proof.KRun.lean ====
/-
  The kernel program's run, with its result array named.

  From any launch memory with zero counters every weakly fair execution of the kernel program on the TensorCores
  terminates without faulting, and in every final state
  * the result array holds what the fold of the buffer contents through the program's segments (the generated `W19`)
    has at that array, and
  * the eleven argument arrays are as launched.
  The final state agrees with the last boundary's contents at every buffer that outlives the regions; that fact is
  read at twelve arrays: the result, and the arguments, which no host operation and no region writes.
-/
import proofs.«124504_j45586782880351_2_alg».proof.Proof.Gen.KernelIdeal.Frame

set_option maxRecDepth 16384

noncomputable section

namespace Cert.KernelIdeal.HostValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result array at the last boundary's contents, the arguments as launched. -/
theorem run_value : θ_run defs (onTc (τ := τ) (main (F := F))) ⟨m, fun _ => 0, ρ⟩ (fun r => ∀ c : Dev nD,
      r.2.mem ((c.tc : Thread nD τ).loc main_v87) = W19 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v87 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c)⟩)

end Cert.KernelIdeal.HostValue

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibColSum.lean ====
/-
  Sums down the columns of a matrix, at the ideal values: a reduction by addition over axis 0 of an a × b array, from
  zero, read at column j, is the sum over the rows of the entries (k, j); and the same sum kept as a one-row matrix,
  read at (0, j). For any extents. (The companion of a row reduction, for kernels that keep the reduced axis on the
  sublanes: features down the rows, pixels along the columns.)
-/
import Idealize.ShloMosaic.PureOps.Ideal.Laws
import Idealize.ShloMosaic.Lib.ValueIdx
import Idealize.ShloMosaic.Lib.ValueLayout

noncomputable section

namespace Cert.LibColSum

open Idealize.ShloMosaic Idealize.ShloMosaic.ValueIdx
open scoped BigOperators

/-! ## Sums down the columns of a matrix -/

/-- The coordinate inserted on axis 0 of a column index. -/
theorem lift_col {a b : Nat} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

/-- The sum of each column from zero, at column j: the sum over the rows. -/
theorem colSum_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ y 0x00000000#32 h hφ hacc (ix1 j) = ∑ k : Fin a, y (ix2 k j) := by
  refine (Ideal.multiReduction_add_single y _ h hφ hacc (ix1 j)).trans ?_
  exact Finset.sum_congr rfl fun k _ => congrArg y (lift_col h j k)

/-- A column sum kept as a one-row matrix, at (0, j). -/
theorem colSumRow_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (j : Fin b) :
    shapeCast ⟨2, ![1, b]⟩ (multiReduction .add [0] ⟨1, ![b]⟩ y 0x00000000#32 h hφ hacc) hc (ix2 u j)
      = ∑ k : Fin a, y (ix2 k j) :=
  (shapeCast_a_1a_apply _ hc u j).trans (colSum_apply y h hφ hacc j)

end Cert.LibColSum

end
-- ==== Proof.LibFinTiles.lean ====
import Idealize.ShloMosaic.Lib.ValueIdx

/-! # A sum over `Fin n` taken tile by tile

When `n = a · b`, the positions below `n` are the positions `i · b + p` of `a` consecutive tiles of `b` positions
(division with remainder), so a sum over `Fin n` is the sum over the tiles of the sums over each tile's positions. The
position map `r` is a parameter, known only through its values, so that a caller's own indexing of the tiles can be
used as it stands. Stated for any commutative additive monoid: only commutativity and associativity of addition are
used (so it applies on the extended reals, where nothing may be cancelled). -/

namespace Cert.FinTiles

open scoped BigOperators

/-- A sum over `a · b` positions taken tile by tile. Position `r i p` is `i · b + p`; every position below `a · b` is
`i · b + p` for exactly one tile `i < a` and one offset `p < b`, so the two sides add the same terms. -/
theorem sum_fin_tiles {M : Type} [AddCommMonoid M] (a b n : ℕ) (h : a * b = n) (f : Fin n → M)
    (r : Fin a → Fin b → Fin n) (hr : ∀ i p, (r i p).val = i.val * b + p.val) :
    ∑ x : Fin n, f x = ∑ i : Fin a, ∑ p : Fin b, f (r i p) := by
  subst h
  refine (Equiv.sum_comp (finProdFinEquiv (m := a) (n := b)) f).symm.trans ?_
  rw [Fintype.sum_prod_type]
  refine Finset.sum_congr rfl fun i _ => Finset.sum_congr rfl fun p _ => ?_
  refine congrArg f (Fin.ext ?_)
  rw [hr, finProdFinEquiv_apply_val]
  show p.val + b * i.val = i.val * b + p.val
  rw [Nat.mul_comm, Nat.add_comm]

end Cert.FinTiles
-- ==== Proof.LibStatRows.lean ====
/-
  Per-tile column statistics kept in an eight-row group. A kernel that works through a tall matrix tile by tile
  writes, for each tile, the column sums of the tile into row 0 of a group of eight rows and the zero word into the
  other seven: the one-row matrix of column sums is spread over the eight rows and a mask "row number = 0" chooses
  between it and zero. Two facts, at the ideal values:

  * one group read at (r, q) is the column sum of the tile at column q when r = 0, and the zero word otherwise;
  * an array made of T such groups one under the other (group t in rows 8t … 8t+7) has, down each column, the sum
    over the groups of their row-0 entries — the zero word being the number zero.
-/
import Idealize.ShloMosaic.PureOps.Ideal.Laws
import Idealize.ShloMosaic.Lib.ValueIdx
import Idealize.ShloMosaic.Lib.ValueLayout
import Idealize.ShloMosaic.Lib.Pipeline.Value
import proofs.«124504_j45586782880351_2_alg».proof.Proof.LibColSum
import proofs.«124504_j45586782880351_2_alg».proof.Proof.LibFinTiles

noncomputable section

namespace Cert.LibStatRows

open Idealize.ShloMosaic Idealize.ShloMosaic.ValueIdx
open scoped BigOperators

/-- The mask "row number = 0" of an eight-row group, as a choice between two values at row r. -/
theorem select_row0 {α : Type} (r : Fin 8) (A B : α) :
    Scalar.select (IntOp.cmpi .eq (BitVec.ofNat 32 r.val) 0#32) A B = if r.val = 0 then A else B := by
  match r with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- One eight-row group of column statistics, read at (r, q): the column sums of the R × n tile y, kept as one row,
    spread over eight rows and masked by "row number = 0" against the zero word, is the sum over the tile's rows of
    column q in row 0, and the zero word in rows 1 … 7. -/
theorem statRows_apply {R n : Nat} (y : FVec Ideal ⟨2, ![R, n]⟩ .f32)
    (hio : (⟨2, ![8, n]⟩ : Shape).Iotas .tc 32 [0])
    (hred : (⟨2, ![R, n]⟩ : Shape).Reduces [0] ⟨1, ![n]⟩) (hφ : FKind.Formats .f32)
    (hacc : (0x00000000#32 : BitVec 32) = FKind.add.neutral .f32 hφ)
    (hc1 : (⟨1, ![n]⟩ : Shape).ShapeCasts ⟨2, ![1, n]⟩)
    (hc2 : (⟨2, ![1, n]⟩ : Shape).ShapeCasts ⟨2, ![1, n]⟩)
    (hb : (⟨2, ![1, n]⟩ : Shape).Broadcasts ⟨2, ![8, n]⟩) (r : Fin 8) (q : Fin n) :
    select (cmpi .eq (iota .tc ⟨2, ![8, n]⟩ 32 [0] hio) (broadcast ⟨2, ![8, n]⟩ 0#32))
        (broadcastTo ⟨2, ![8, n]⟩
          (shapeCast ⟨2, ![1, n]⟩
            (shapeCast ⟨2, ![1, n]⟩ (multiReduction .add [0] ⟨1, ![n]⟩ y 0x00000000#32 hred hφ hacc) hc1) hc2) hb)
        (broadcast ⟨2, ![8, n]⟩ (Scalar.ofBits (F := Ideal) .f32 0x00000000#32)) (ix2 r q)
      = if r.val = 0 then ∑ k : Fin R, y (ix2 k q) else Ideal.ofBits .f32 0x00000000#32 := by
  rw [select_apply]
  show Scalar.select (IntOp.cmpi .eq (iota .tc ⟨2, ![8, n]⟩ 32 [0] hio (ix2 r q)) 0#32) _ _ = _
  rw [iota_single_apply]
  show Scalar.select (IntOp.cmpi .eq (BitVec.ofNat 32 r.val) 0#32) _ _ = _
  rw [select_row0, broadcastTo_1b_ab_apply, shapeCast_self, LibColSum.colSumRow_apply]
  rfl

/-- The column sum of an array of T row groups of b rows each (group t in rows t·b … t·b+b−1), when each group holds a
    value s t in its row 0 and the zero word in its other rows: the sum over the groups of s t. The entries are given
    as a function a of the row; r t i is row i of group t. -/
theorem sum_masked_groups (T b N : Nat) (h : T * b = N) (hb : 0 < b) (a : Fin N → EReal) (s : Fin T → EReal)
    (r : Fin T → Fin b → Fin N) (hr : ∀ t i, (r t i).val = t.val * b + i.val)
    (ha : ∀ t i, a (r t i) = if i.val = 0 then s t else Ideal.ofBits .f32 0x00000000#32) :
    ∑ j : Fin N, a j = ∑ t : Fin T, s t := by
  rw [Cert.FinTiles.sum_fin_tiles T b N h a r hr]
  refine Finset.sum_congr rfl fun t _ => ?_
  rw [Finset.sum_eq_single (⟨0, hb⟩ : Fin b)]
  · rw [ha]; exact if_pos rfl
  · intro i _ hi
    rw [ha, if_neg (fun h0 => hi (Fin.ext h0)), Ideal.ofBits_zero_f32]
  · intro h0; exact absurd (Finset.mem_univ _) h0

end Cert.LibStatRows

end
-- ==== Proof.Region0Body.lean ====
/-
  The arithmetic of the first layer's tile, entry by entry, at the ideal values. A tile of 512 batch rows times the
  whole sign matrix, clipped at zero, is at (p, q) the clipped sum over k of x (p, k) · w (k, q); the two statistics
  groups hold, in their row 0, the sum over the tile's 512 rows of the clipped product at column q, and of its
  square; their rows 1 … 7 hold the zero word.
-/
import proofs.«124504_j45586782880351_2_alg».proof.Proof.Gen.KernelIdeal.Skeleton
import proofs.«124504_j45586782880351_2_alg».proof.Proof.Net
import proofs.«124504_j45586782880351_2_alg».proof.Proof.LibDot
import proofs.«124504_j45586782880351_2_alg».proof.Proof.LibStatRows

noncomputable section

namespace Cert.KernelIdeal.RegionValue

open Cert.KernelIdeal Cert.KernelIdeal.Gen Cert.BinNet
open Idealize.ShloMosaic Idealize.ShloMosaic.ValueIdx
open scoped BigOperators

/-- The clipped product of a tile with the weights at (p, q). -/
theorem tile0_apply (x0 : Vec Ideal S512x3072 .f32) (x1 : Vec Ideal S3072x1024 .bf16) (p : Fin 512) (q : Fin 1024) :
    k0_pay1 x0 x1 (ix2 p q) = relu (∑ k : Fin 3072, x0 (ix2 p k) * x1 (ix2 k q)) := by
  unfold k0_pay1
  simp only [shapeCast_self]
  show max (matmul (F := Ideal) dot_S512x3072_S3072x1024_S512x1024_1_0_0_1_n_n none
    (truncf .bf16 (x0 : FVec Ideal S512x3072 .f32) bitsLt_bf16_f32) (x1 : FVec Ideal S3072x1024 .bf16)
    (constant S512x1024 .f32 0x00000000#32) (ix2 p q)) z32 = _
  unfold relu
  refine congrArg (fun v => max v z32) ?_
  exact LibDot.matmul_zero_apply dot_S512x3072_S3072x1024_S512x1024_1_0_0_1_n_n_wf none
    (truncf .bf16 x0 bitsLt_bf16_f32 : FVec Ideal S512x3072 .bf16) (x1 : FVec Ideal S3072x1024 .bf16) p q

/-- The activation tile the body stores: the same entries (a change of float format keeps the value). -/
theorem act0_apply (x0 : Vec Ideal S512x3072 .f32) (x1 : Vec Ideal S3072x1024 .bf16) (p : Fin 512) (q : Fin 1024) :
    k0_pay2 x0 x1 (ix2 p q) = relu (∑ k : Fin 3072, x0 (ix2 p k) * x1 (ix2 k q)) := by
  unfold k0_pay2
  exact tile0_apply x0 x1 p q

/-- The group of column sums of the tile at (r, q). -/
theorem sum0_apply (x0 : Vec Ideal S512x3072 .f32) (x1 : Vec Ideal S3072x1024 .bf16) (r : Fin 8) (q : Fin 1024) :
    k0_pay5 x0 x1 (ix2 r q)
      = if r.val = 0 then ∑ i : Fin 512, relu (∑ k : Fin 3072, x0 (ix2 i k) * x1 (ix2 k q)) else z32 := by
  unfold k0_pay5 k0_pay3 k0_pay4
  refine (LibStatRows.statRows_apply (k0_pay1 x0 x1) iota_S8x1024_d0_w32 reduces_S512x1024_S1024 (.inl rfl) rfl
    shapeCasts_S1024_S1x1024 shapeCasts_S1x1024_S1x1024 broadcasts_S1x1024_S8x1024 r q).trans ?_
  refine if_congr Iff.rfl ?_ rfl
  exact Finset.sum_congr rfl fun i _ => tile0_apply x0 x1 i q

/-- The group of column sums of the squared tile at (r, q). -/
theorem sumsq0_apply (x0 : Vec Ideal S512x3072 .f32) (x1 : Vec Ideal S3072x1024 .bf16) (r : Fin 8) (q : Fin 1024) :
    k0_pay6 x0 x1 (ix2 r q)
      = if r.val = 0 then ∑ i : Fin 512, relu (∑ k : Fin 3072, x0 (ix2 i k) * x1 (ix2 k q))
          * relu (∑ k : Fin 3072, x0 (ix2 i k) * x1 (ix2 k q)) else z32 := by
  unfold k0_pay6 k0_pay3 k0_pay4
  refine (LibStatRows.statRows_apply (mulf (k0_pay1 x0 x1) (k0_pay1 x0 x1)) iota_S8x1024_d0_w32
    reduces_S512x1024_S1024 (.inl rfl) rfl
    shapeCasts_S1024_S1x1024 shapeCasts_S1x1024_S1x1024 broadcasts_S1x1024_S8x1024 r q).trans ?_
  refine if_congr Iff.rfl ?_ rfl
  refine Finset.sum_congr rfl fun i _ => ?_
  rw [mulf_apply, tile0_apply]

end Cert.KernelIdeal.RegionValue

end
-- ==== Proof.LibMatLayout.lean ====
/-
  Two matrix layout facts, for any element type and any extents: the offsets of a rectangle that starts at a matrix's
  origin are the zero function (zero_off2), and the transpose of an [a, b] matrix read at (k, q) is the matrix at
  (q, k) (transpose_ab_ba_apply).
-/
import Idealize.ShloMosaic.Lib.Pipeline.Value
import Idealize.ShloMosaic.Lib.ValueIdx

namespace Cert.LibMatLayout

open Idealize.ShloMosaic Idealize.ShloMosaic.ValueIdx

/-- The offsets of a rectangle that starts at the origin of a matrix. -/
theorem zero_off2 : (![0, 0] : Fin 2 → Nat) = fun _ => 0 := funext fun a => by fin_cases a <;> rfl

/-- The transpose of a matrix `[a, b]` reads, at `(k, q)`, the matrix at `(q, k)`. -/
theorem transpose_ab_ba_apply {α : Type} {a b : ℕ} (x : (⟨2, ![a, b]⟩ : Shape).Idx → α)
    (h : (⟨2, ![a, b]⟩ : Shape).Transposes [1, 0] ⟨2, ![b, a]⟩) (k : Fin b) (q : Fin a) :
    transpose ⟨2, ![b, a]⟩ [1, 0] x h (ix2 k q) = x (ix2 q k) := by
  refine transpose_apply [1, 0] x h (ix2 k q) (ix2 q k) fun ax => ?_
  match ax with
  | ⟨0, _⟩ => rfl
  | ⟨1, _⟩ => rfl

end Cert.LibMatLayout
-- ==== Proof.Region0.lean ====
/-
  What the first layer's region leaves in its three output arrays, at the ideal values, whatever the buffers hold when
  the region is entered. The batch of 8192 rows is worked through in 16 tiles of 512 rows; tile t reads rows
  512·t … 512·t+511 of the input and the whole weight matrix. The activation array ends holding, at (p, q), the
  clipped product relu (Σ_k x (p, k) · w (k, q)). Each statistics array has 16 groups of eight rows: group t holds in
  its row 0 the sum over tile t's rows of a column of the clipped product (or of its square), and the zero word in
  rows 1 … 7; so summing a column of a statistics array over all its 128 rows gives the sum over the whole batch.
-/
import proofs.«124504_j45586782880351_2_alg».proof.Proof.Gen.KernelIdeal.Frame
import proofs.«124504_j45586782880351_2_alg».proof.Proof.Region0Body
import proofs.«124504_j45586782880351_2_alg».proof.Proof.LibFinTiles
import proofs.«124504_j45586782880351_2_alg».proof.Proof.LibMatLayout
import Idealize.ShloMosaic.Lib.Pipeline.Value

noncomputable section

namespace Cert.KernelIdeal.RegionValue

open Cert.KernelIdeal Cert.KernelIdeal.Gen Cert.BinNet
open Idealize.ShloMosaic Idealize.ShloMosaic.ValueIdx Idealize.ShloMosaic.TcCoe
open Idealize.ShloMosaic.Pipeline (Dat)
open Cert.LibMatLayout (zero_off2)
open scoped BigOperators

/-! ## Sixteen groups of eight rows, one per tile of 512 batch rows -/

/-- Row r of tile T of the batch. -/
def tileRow0 (T : Fin 16) (r : Fin 512) : Fin 8192 := ⟨T.val * 512 + r.val, by have := T.isLt; have := r.isLt; omega⟩
/-- The group (the tile) a row of a statistics array belongs to. -/
def group0 (j : Fin 128) : Fin 16 := ⟨j.val / 8, by have := j.isLt; omega⟩

/-- A statistics array of a function f of (batch row, column): row 0 of group T holds the sum of f over tile T's rows,
    the other rows of the group the zero word. -/
def statArr0 (f : Fin 8192 → Fin 1024 → EReal) : S128x1024.Idx → EReal := fun I =>
  if (I 0).val % 8 = 0 then ∑ r : Fin 512, f (tileRow0 (group0 (I 0)) r) (I 1) else z32

/-- Down a column, a statistics array adds up to the sum of f over the whole batch: only the groups' rows 0 count, and
    the tiles' rows are all the batch rows. -/
theorem statArr0_colSum (f : Fin 8192 → Fin 1024 → EReal) (q : Fin 1024) :
    ∑ j : Fin 128, statArr0 f (ix2 j q) = ∑ p : Fin 8192, f p q := by
  rw [LibStatRows.sum_masked_groups 16 8 128 rfl (by decide) (fun j => statArr0 f (ix2 j q))
    (fun T => ∑ r : Fin 512, f (tileRow0 T r) q)
    (fun T i => ⟨T.val * 8 + i.val, by have := T.isLt; have := i.isLt; omega⟩) (fun _ _ => rfl)]
  · exact (Cert.FinTiles.sum_fin_tiles 16 512 8192 rfl (fun p => f p q) tileRow0 (fun _ _ => rfl)).symm
  · intro T i
    have hT := T.isLt
    have hi := i.isLt
    have hg : group0 ⟨T.val * 8 + i.val, by omega⟩ = T := Fin.ext (by show (T.val * 8 + i.val) / 8 = T.val; omega)
    show (if (T.val * 8 + i.val) % 8 = 0 then ∑ r : Fin 512, f (tileRow0 (group0 ⟨T.val * 8 + i.val, _⟩) r) q else z32) = _
    rw [hg]
    exact if_congr (by omega) rfl rfl

variable (V : (c : Dev nD) → (b : Ref sig .tc) → Buf (Elt Ideal) ((c : Thread nD τ).loc b)) (c : Dev nD)

/-! ## The blocks the tiles read -/

/-- The printed index maps over the grid: tile t's input block and its three output blocks are block t along the
    rows; the weights are read whole. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Tile t's input block at (p, k) is the input at row 512·t + p. -/
theorem x_block0 (t : Fin cfg0.N) (p : Fin 512) (k : Fin 3072) (P : Fin 8192) (hP : P.val = t.val * 512 + p.val) :
    iblk0 V c 0 t (ix2 p k) = V c main_v25 (ix2 P k) := by
  unfold iblk0
  show V c main_v25 (((cfg0.win 0).blk t).view.emb (ix2 p k)) = V c main_v25 (ix2 P k)
  refine congrArg (V c main_v25) (funext fun a => Fin.ext ?_)
  obtain ⟨e0, e1, -⟩ := index_facts0 t
  match a with
  | ⟨0, _⟩ => show win0_0.index t (0 : Fin 2) * 512 + 1 * p.val = P.val; rw [e0, hP]; omega
  | ⟨1, _⟩ => show win0_0.index t (1 : Fin 2) * 3072 + 1 * k.val = k.val; rw [e1]; omega

/-- Every tile's weight block is the whole weight matrix. -/
theorem w_block0 (t : Fin cfg0.N) (k : Fin 3072) (q Q : Fin 1024) (hQ : Q.val = q.val) :
    iblk0 V c 1 t (ix2 k q) = V c main_v5 (ix2 k Q) := by
  unfold iblk0
  show V c main_v5 (((cfg0.win 1).blk t).view.emb (ix2 k q)) = V c main_v5 (ix2 k Q)
  refine congrArg (V c main_v5) (funext fun a => Fin.ext ?_)
  obtain ⟨-, -, e2, e3, -⟩ := index_facts0 t
  match a with
  | ⟨0, _⟩ => show win0_1.index t (0 : Fin 2) * 3072 + 1 * k.val = k.val; rw [e2]; omega
  | ⟨1, _⟩ => show win0_1.index t (1 : Fin 2) * 1024 + 1 * q.val = Q.val; rw [e3, hQ]; omega

/-! ## The clipped product -/

/-- The clipped product of the whole batch with the weights, entry by entry. -/
def clip0 : Fin 8192 → Fin 1024 → EReal :=
  fun p q => relu (mm (mat (V c main_v25 : S8192x3072.Idx → EReal)) (mat (V c main_v5 : S3072x1024.Idx → EReal)) p q)

/-- Entry (p, q) of tile t's clipped product is entry (512·t + p, q) of the whole one. -/
theorem tile0_point (t : Fin cfg0.N) (x0 : Vec Ideal S512x3072 .f32) (x1 : Vec Ideal S3072x1024 .bf16)
    (hx0 : x0 = iblk0 V c 0 t) (hx1 : x1 = iblk0 V c 1 t) (p : Fin 512) (q : Fin 1024) (P : Fin 8192) (Q : Fin 1024)
    (hP : P.val = t.val * 512 + p.val) (hQ : Q.val = q.val) :
    relu (∑ k : Fin 3072, x0 (ix2 p k) * x1 (ix2 k q)) = clip0 V c P Q := by
  unfold clip0 mm mat
  refine congrArg relu (Finset.sum_congr rfl fun k _ => ?_)
  rw [hx0, hx1, x_block0 V c t p k P hP, w_block0 V c t k q Q hQ]

/-! ## The activation array -/

/-- What tile t writes back to the activation array is block t of the clipped product. -/
theorem flushed0_act (t : Fin cfg0.N) :
    (dat0 V c).flushed 2 t = ((cfg0.win 2).blk t).view.read (Elt Ideal) (fun i => clip0 V c (i 0) (i 1)) := by
  show (cfg0.win 2).cut (grid0.coords t) ((dat0 V c).after 2 t) = _
  rw [after0_2]
  unfold out0_2
  rw [View.canon_unit_zero zero_off2]
  simp only [View.ld_unit_zero (S := S512x3072) zero_off2, View.ld_unit_zero (S := S3072x1024) zero_off2]
  obtain ⟨-, -, -, -, e4, e5, -⟩ := index_facts0 t
  funext j
  obtain ⟨p, q, rfl⟩ : ∃ (p : Fin 512) (q : Fin 1024), j = ix2 p q := ⟨j 0, j 1, eq_ix2 j⟩
  refine (act0_apply (iblk0 V c 0 t) (iblk0 V c 1 t) p q).trans ?_
  exact tile0_point V c t _ _ rfl rfl p q (((cfg0.win 2).blk t).view.emb (ix2 p q) 0)
    (((cfg0.win 2).blk t).view.emb (ix2 p q) 1)
    (by show win0_2.index t (0 : Fin 2) * 512 + 1 * p.val = t.val * 512 + p.val; rw [e4]; omega)
    (by show win0_2.index t (1 : Fin 2) * 1024 + 1 * q.val = q.val; rw [e5]; omega)

/-- An index of the activation array lies in tile t's block iff each coordinate lies in the block's range. -/
theorem mem_blk0_act (t : Fin cfg0.N) (i : S8192x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v26_0).slice (win0_2.rect t)).set ↔ _
  rw [View.set_slice_whole, Rect.mem_set_unit]
  exact Iff.rfl

/-- Row p of the activation array is written by tile p / 512. -/
theorem cover0_act (i : S8192x1024.Idx) :
    ∃ t : Fin cfg0.N, (cfg0.win 2).flush t = true ∧ i ∈ ((cfg0.win 2).blk t).view.set := by
  have hN : cfg0.N = 16 := N_0
  have hi0 : (i 0).val < 8192 := (i 0).isLt
  have hi1 : (i 1).val < 1024 := (i 1).isLt
  have ht : (i 0).val / 512 < cfg0.N := by rw [hN]; omega
  obtain ⟨-, -, -, -, e4, e5, -⟩ := index_facts0 ⟨(i 0).val / 512, ht⟩
  refine ⟨⟨(i 0).val / 512, ht⟩, flush0_2 _, ?_⟩
  rw [mem_blk0_act]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, ht⟩ (1 : Fin 2) * 1024 ≤ (i 1).val
      ∧ (i 1).val < win0_2.index ⟨(i 0).val / 512, ht⟩ (1 : Fin 2) * 1024 + 1024
    rw [e5]; omega

/-- The activation array after the region: the clipped product, entry by entry. -/
theorem act0_array : (dat0 V c).arrAt 2 cfg0.N = fun i => clip0 V c (i 0) (i 1) :=
  (dat0 V c).arrAt_eq_of_cover 2 (fun i => clip0 V c (i 0) (i 1)) (fun t _ => flushed0_act V c t) (cover0_act)

theorem region0_act :
    mat ((Gen.dat0 (F := Ideal) V c).arrAt 2 cfg0.N)
      = fun p q => relu (mm (mat (V c main_v25)) (mat (V c main_v5)) p q) := by
  funext p q
  unfold mat
  rw [act0_array]
  rfl

/-! ## The statistics arrays -/

/-- A group of tile t read at (r, q), against the statistics array of f at the row 8·t + r it is written to: the
    group's row 0 holds a sum over the tile's rows whose terms are f at the rows 512·t + i. -/
theorem stat0_point (f : Fin 8192 → Fin 1024 → EReal) (g : Fin 512 → EReal) (t : Fin cfg0.N) (r : Fin 8)
    (I : S128x1024.Idx) (h0 : (I 0).val = t.val * 8 + r.val)
    (hg : ∀ (i : Fin 512) (P : Fin 8192), P.val = t.val * 512 + i.val → g i = f P (I 1)) :
    (if r.val = 0 then ∑ i : Fin 512, g i else z32) = statArr0 f I := by
  unfold statArr0
  have hr := r.isLt
  refine if_congr (by omega) ?_ rfl
  refine Finset.sum_congr rfl fun i _ => hg i _ ?_
  show (I 0).val / 8 * 512 + i.val = t.val * 512 + i.val
  have hq : (I 0).val / 8 = t.val := by omega
  rw [hq]

/-- What tile t writes back to the array of column sums is block t of the statistics array of the clipped product. -/
theorem flushed0_sum (t : Fin cfg0.N) :
    (dat0 V c).flushed 3 t = ((cfg0.win 3).blk t).view.read (Elt Ideal) (statArr0 (clip0 V c)) := by
  show (cfg0.win 3).cut (grid0.coords t) ((dat0 V c).after 3 t) = _
  rw [after0_3]
  unfold out0_3
  rw [View.canon_unit_zero zero_off2]
  simp only [View.ld_unit_zero (S := S512x3072) zero_off2, View.ld_unit_zero (S := S3072x1024) zero_off2]
  obtain ⟨-, -, -, -, -, -, e6, e7, -⟩ := index_facts0 t
  funext j
  obtain ⟨r, q, rfl⟩ : ∃ (r : Fin 8) (q : Fin 1024), j = ix2 r q := ⟨j 0, j 1, eq_ix2 j⟩
  refine (sum0_apply (iblk0 V c 0 t) (iblk0 V c 1 t) r q).trans ?_
  exact stat0_point (clip0 V c) _ t r (((cfg0.win 3).blk t).view.emb (ix2 r q))
    (by show win0_3.index t (0 : Fin 2) * 8 + 1 * r.val = t.val * 8 + r.val; rw [e6]; omega)
    (fun i P hP => tile0_point V c t (iblk0 V c 0 t) (iblk0 V c 1 t) rfl rfl i q P
      (((cfg0.win 3).blk t).view.emb (ix2 r q) 1) hP
      (by show win0_3.index t (1 : Fin 2) * 1024 + 1 * q.val = q.val; rw [e7]; omega))

/-- What tile t writes back to the array of column sums of squares is block t of the statistics array of the squared
    clipped product. -/
theorem flushed0_sumsq (t : Fin cfg0.N) :
    (dat0 V c).flushed 4 t
      = ((cfg0.win 4).blk t).view.read (Elt Ideal) (statArr0 (fun p q => clip0 V c p q * clip0 V c p q)) := by
  show (cfg0.win 4).cut (grid0.coords t) ((dat0 V c).after 4 t) = _
  rw [after0_4]
  unfold out0_4
  rw [View.canon_unit_zero zero_off2]
  simp only [View.ld_unit_zero (S := S512x3072) zero_off2, View.ld_unit_zero (S := S3072x1024) zero_off2]
  obtain ⟨-, -, -, -, -, -, -, -, e8, e9⟩ := index_facts0 t
  funext j
  obtain ⟨r, q, rfl⟩ : ∃ (r : Fin 8) (q : Fin 1024), j = ix2 r q := ⟨j 0, j 1, eq_ix2 j⟩
  refine (sumsq0_apply (iblk0 V c 0 t) (iblk0 V c 1 t) r q).trans ?_
  exact stat0_point (fun p q => clip0 V c p q * clip0 V c p q) _ t r (((cfg0.win 4).blk t).view.emb (ix2 r q))
    (by show win0_4.index t (0 : Fin 2) * 8 + 1 * r.val = t.val * 8 + r.val; rw [e8]; omega)
    (fun i P hP => by
      have h := tile0_point V c t (iblk0 V c 0 t) (iblk0 V c 1 t) rfl rfl i q P
        (((cfg0.win 4).blk t).view.emb (ix2 r q) 1) hP
        (by show win0_4.index t (1 : Fin 2) * 1024 + 1 * q.val = q.val; rw [e9]; omega)
      exact congrArg (fun v => v * v) h)

/-- An index of a statistics array lies in tile t's group iff each coordinate lies in the group's range. -/
theorem mem_blk0_sum (t : Fin cfg0.N) (i : S128x1024.Idx) :
    i ∈ ((cfg0.win 3).blk t).view.set ↔ ∀ a : Fin 2, win0_3.index t a * S8x1024.size a ≤ (i a).val
      ∧ (i a).val < win0_3.index t a * S8x1024.size a + S8x1024.size a := by
  show i ∈ ((View.whole main_v26_1).slice (win0_3.rect t)).set ↔ _
  rw [View.set_slice_whole, Rect.mem_set_unit]
  exact Iff.rfl

theorem mem_blk0_sumsq (t : Fin cfg0.N) (i : S128x1024.Idx) :
    i ∈ ((cfg0.win 4).blk t).view.set ↔ ∀ a : Fin 2, win0_4.index t a * S8x1024.size a ≤ (i a).val
      ∧ (i a).val < win0_4.index t a * S8x1024.size a + S8x1024.size a := by
  show i ∈ ((View.whole main_v26_2).slice (win0_4.rect t)).set ↔ _
  rw [View.set_slice_whole, Rect.mem_set_unit]
  exact Iff.rfl

/-- Row j of the array of column sums is written by tile j / 8. -/
theorem cover0_sum (i : S128x1024.Idx) :
    ∃ t : Fin cfg0.N, (cfg0.win 3).flush t = true ∧ i ∈ ((cfg0.win 3).blk t).view.set := by
  have hN : cfg0.N = 16 := N_0
  have hi0 : (i 0).val < 128 := (i 0).isLt
  have hi1 : (i 1).val < 1024 := (i 1).isLt
  have ht : (i 0).val / 8 < cfg0.N := by rw [hN]; omega
  obtain ⟨-, -, -, -, -, -, e6, e7, -⟩ := index_facts0 ⟨(i 0).val / 8, ht⟩
  refine ⟨⟨(i 0).val / 8, ht⟩, flush0_3 _, ?_⟩
  rw [mem_blk0_sum]
  intro a
  match a with
  | ⟨0, _⟩ =>
    show win0_3.index ⟨(i 0).val / 8, ht⟩ (0 : Fin 2) * 8 ≤ (i 0).val
      ∧ (i 0).val < win0_3.index ⟨(i 0).val / 8, ht⟩ (0 : Fin 2) * 8 + 8
    rw [e6]; show (i 0).val / 8 * 8 ≤ (i 0).val ∧ (i 0).val < (i 0).val / 8 * 8 + 8; omega
  | ⟨1, _⟩ =>
    show win0_3.index ⟨(i 0).val / 8, ht⟩ (1 : Fin 2) * 1024 ≤ (i 1).val
      ∧ (i 1).val < win0_3.index ⟨(i 0).val / 8, ht⟩ (1 : Fin 2) * 1024 + 1024
    rw [e7]; omega

/-- Row j of the array of column sums of squares is written by tile j / 8. -/
theorem cover0_sumsq (i : S128x1024.Idx) :
    ∃ t : Fin cfg0.N, (cfg0.win 4).flush t = true ∧ i ∈ ((cfg0.win 4).blk t).view.set := by
  have hN : cfg0.N = 16 := N_0
  have hi0 : (i 0).val < 128 := (i 0).isLt
  have hi1 : (i 1).val < 1024 := (i 1).isLt
  have ht : (i 0).val / 8 < cfg0.N := by rw [hN]; omega
  obtain ⟨-, -, -, -, -, -, -, -, e8, e9⟩ := index_facts0 ⟨(i 0).val / 8, ht⟩
  refine ⟨⟨(i 0).val / 8, ht⟩, flush0_4 _, ?_⟩
  rw [mem_blk0_sumsq]
  intro a
  match a with
  | ⟨0, _⟩ =>
    show win0_4.index ⟨(i 0).val / 8, ht⟩ (0 : Fin 2) * 8 ≤ (i 0).val
      ∧ (i 0).val < win0_4.index ⟨(i 0).val / 8, ht⟩ (0 : Fin 2) * 8 + 8
    rw [e8]; show (i 0).val / 8 * 8 ≤ (i 0).val ∧ (i 0).val < (i 0).val / 8 * 8 + 8; omega
  | ⟨1, _⟩ =>
    show win0_4.index ⟨(i 0).val / 8, ht⟩ (1 : Fin 2) * 1024 ≤ (i 1).val
      ∧ (i 1).val < win0_4.index ⟨(i 0).val / 8, ht⟩ (1 : Fin 2) * 1024 + 1024
    rw [e9]; omega

/-- The array of column sums after the region. -/
theorem sum0_array : (dat0 V c).arrAt 3 cfg0.N = statArr0 (clip0 V c) :=
  (dat0 V c).arrAt_eq_of_cover 3 (statArr0 (clip0 V c)) (fun t _ => flushed0_sum V c t) (cover0_sum)

/-- The array of column sums of squares after the region. -/
theorem sumsq0_array : (dat0 V c).arrAt 4 cfg0.N = statArr0 (fun p q => clip0 V c p q * clip0 V c p q) :=
  (dat0 V c).arrAt_eq_of_cover 4 (statArr0 (fun p q => clip0 V c p q * clip0 V c p q))
    (fun t _ => flushed0_sumsq V c t) (cover0_sumsq)

/-- Down column q the array of column sums adds up to the sum of the clipped product over the whole batch. -/
theorem region0_sum (q : Fin 1024) :
    ∑ j : Fin 128, mat ((Gen.dat0 (F := Ideal) V c).arrAt 3 cfg0.N) j q
      = ∑ p : Fin 8192, relu (mm (mat (V c main_v25)) (mat (V c main_v5)) p q) := by
  rw [sum0_array]
  exact statArr0_colSum (clip0 V c) q

/-- Down column q the array of column sums of squares adds up to the sum of the squared clipped product over the whole
    batch. -/
theorem region0_sumsq (q : Fin 1024) :
    ∑ j : Fin 128, mat ((Gen.dat0 (F := Ideal) V c).arrAt 4 cfg0.N) j q
      = ∑ p : Fin 8192, relu (mm (mat (V c main_v25)) (mat (V c main_v5)) p q)
          * relu (mm (mat (V c main_v25)) (mat (V c main_v5)) p q) := by
  rw [sumsq0_array]
  exact statArr0_colSum (fun p q => clip0 V c p q * clip0 V c p q) q

end Cert.KernelIdeal.RegionValue

end
-- ==== Proof.Region1Body.lean ====
/-
  One row tile of a hidden layer that first rescales its input. The tile's input rows h (1024 × 1024) are taken to
  h · s + t column by column (s and t one row each), multiplied by the whole right factor w, and clipped at zero:
  entry (p, q) is  max (∑ k, (h (p, k) · s k + t k) · w (k, q)) 0.  At the ideal values the changes of float format are
  the identity, the row spread over the tile's rows reads the row, and the matrix unit's product into a zero
  accumulator is the plain sum over k. The tile also keeps, in an eight-row group, the sum down each column of these
  entries (row 0; the zero word in rows 1 … 7), and likewise the sum of their squares.
-/
import proofs.«124504_j45586782880351_2_alg».proof.Proof.Gen.KernelIdeal.Skeleton
import proofs.«124504_j45586782880351_2_alg».proof.Proof.Net
import proofs.«124504_j45586782880351_2_alg».proof.Proof.LibDot
import proofs.«124504_j45586782880351_2_alg».proof.Proof.LibStatRows
import Idealize.ShloMosaic.Lib.ValueLayout
import Idealize.ShloMosaic.Lib.Pipeline.Value

noncomputable section

namespace Cert.KernelIdeal.RegionValue

open Cert.KernelIdeal Cert.KernelIdeal.Gen Cert.BinNet
open Idealize.ShloMosaic Idealize.ShloMosaic.ValueIdx
open scoped BigOperators

/-- The clipped product of one tile at (p, q), in the network's vocabulary. -/
abbrev tileAct (h : Vec Ideal S1024x1024 .bf16) (s t : Vec Ideal S1x1024 .f32) (w : Vec Ideal S1024x1024 .bf16)
    (p q : Fin 1024) : EReal :=
  relu (mm (aff (mat h) (mat s 0) (mat t 0)) (mat w) p q)

/-- The tile's clipped product, read at (p, q). -/
theorem k1_pay1_apply (h : Vec Ideal S1024x1024 .bf16) (s t : Vec Ideal S1x1024 .f32) (w : Vec Ideal S1024x1024 .bf16)
    (p q : Fin 1024) : k1_pay1 (F := Ideal) h s t w (ix2 p q) = tileAct h s t w p q := by
  unfold k1_pay1
  simp only [shapeCast_self]
  refine (maximumf_apply _ _ (ix2 p q)).trans ?_
  refine congrArg (fun v => max v z32) ?_
  refine (LibDot.matmul_zero_apply (φ₁ := .bf16) (φ₂ := .bf16) dot_S1024x1024_S1024x1024_S1024x1024_1_0_0_1_n_n_wf none _ w p q).trans ?_
  refine Finset.sum_congr rfl fun k _ => ?_
  refine congrArg (fun v => v * w (ix2 k q)) ?_
  show h (ix2 p k) * broadcastTo S1024x1024 s broadcasts_S1x1024_S1024x1024 (ix2 p k)
      + broadcastTo S1024x1024 t broadcasts_S1x1024_S1024x1024 (ix2 p k) = _
  rw [broadcastTo_1b_ab_apply, broadcastTo_1b_ab_apply]
  rfl

/-- What the tile stores as its activations is the same entry (the narrowing of the format is the identity). -/
theorem k1_pay2_apply (h : Vec Ideal S1024x1024 .bf16) (s t : Vec Ideal S1x1024 .f32) (w : Vec Ideal S1024x1024 .bf16)
    (p q : Fin 1024) : k1_pay2 (F := Ideal) h s t w (ix2 p q) = tileAct h s t w p q := by
  unfold k1_pay2
  exact k1_pay1_apply h s t w p q

/-- The tile's column sums, kept in row 0 of an eight-row group. -/
theorem k1_pay5_apply (h : Vec Ideal S1024x1024 .bf16) (s t : Vec Ideal S1x1024 .f32) (w : Vec Ideal S1024x1024 .bf16)
    (r : Fin 8) (q : Fin 1024) :
    k1_pay5 (F := Ideal) h s t w (ix2 r q)
      = if r.val = 0 then ∑ p : Fin 1024, tileAct h s t w p q else Ideal.ofBits .f32 0x00000000#32 := by
  unfold k1_pay5 k1_pay3 k1_pay4
  refine (LibStatRows.statRows_apply (k1_pay1 (F := Ideal) h s t w) _ _ _ _ _ _ _ r q).trans ?_
  exact if_congr Iff.rfl (Finset.sum_congr rfl fun p _ => k1_pay1_apply h s t w p q) rfl

/-- The tile's column sums of squares, kept in row 0 of an eight-row group. -/
theorem k1_pay6_apply (h : Vec Ideal S1024x1024 .bf16) (s t : Vec Ideal S1x1024 .f32) (w : Vec Ideal S1024x1024 .bf16)
    (r : Fin 8) (q : Fin 1024) :
    k1_pay6 (F := Ideal) h s t w (ix2 r q)
      = if r.val = 0 then ∑ p : Fin 1024, tileAct h s t w p q * tileAct h s t w p q
        else Ideal.ofBits .f32 0x00000000#32 := by
  unfold k1_pay6 k1_pay3 k1_pay4
  refine (LibStatRows.statRows_apply (mulf (k1_pay1 (F := Ideal) h s t w) (k1_pay1 (F := Ideal) h s t w)) _ _ _ _ _ _ _ r q).trans ?_
  refine if_congr Iff.rfl (Finset.sum_congr rfl fun p _ => ?_) rfl
  show k1_pay1 (F := Ideal) h s t w (ix2 p q) * k1_pay1 (F := Ideal) h s t w (ix2 p q) = _
  rw [k1_pay1_apply]

/-! ## The same entries from the whole arrays

A tile is 1024 consecutive rows of the tall input; the two rows and the right factor are read whole. So the tile's
entry (p, q) is entry (a, q) of the layer over the whole batch, a the row of the batch that the tile's row p is. -/

/-- If row p of the tile is row a of the tall input H, the scale and shift rows are the rows S and T, and column q of
    the tile's right factor is column q' of W, then the tile's entry (p, q) is the whole layer's entry (a, q'). -/
theorem tileAct_eq (H : S8192x1024.Idx → EReal) (S T : S1x1024.Idx → EReal) (W : S1024x1024.Idx → EReal)
    (h : Vec Ideal S1024x1024 .bf16) (s t : Vec Ideal S1x1024 .f32) (w : Vec Ideal S1024x1024 .bf16)
    (p q q' : Fin 1024) (a : Fin 8192)
    (hh : ∀ k : Fin 1024, h (ix2 p k) = H (ix2 a k)) (hs : ∀ k : Fin 1024, s (ix2 0 k) = S (ix2 0 k))
    (ht : ∀ k : Fin 1024, t (ix2 0 k) = T (ix2 0 k)) (hw : ∀ k : Fin 1024, w (ix2 k q) = W (ix2 k q')) :
    tileAct h s t w p q = relu (mm (aff (mat H) (mat S 0) (mat T 0)) (mat W) a q') := by
  show relu (∑ k : Fin 1024, (h (ix2 p k) * s (ix2 0 k) + t (ix2 0 k)) * w (ix2 k q))
    = relu (∑ k : Fin 1024, (H (ix2 a k) * S (ix2 0 k) + T (ix2 0 k)) * W (ix2 k q'))
  refine congrArg relu (Finset.sum_congr rfl fun k _ => ?_)
  rw [hh k, hs k, ht k, hw k]

/-! ## The array of per-tile column statistics

Eight tiles, each with an eight-row group: row j of the 64-row array belongs to tile j / 8, and holds that tile's
column sums when j is the first row of its group, the zero word otherwise. -/

/-- Row p of the tile whose eight-row group holds row j of the statistics array, as a row of the batch. -/
def tileRow (j : Fin 64) (p : Fin 1024) : Fin 8192 := ⟨j.val / 8 * 1024 + p.val, by omega⟩

/-- The statistics array of a function f of (batch row, column): the first row of group g holds the sums of f down
    each column over tile g's rows, the other rows the zero word. -/
def statArr (f : Fin 8192 → Fin 1024 → EReal) : S64x1024.Idx → EReal := fun i =>
  if (i 0).val % 8 = 0 then ∑ p : Fin 1024, f (tileRow (i 0) p) (i 1) else Ideal.ofBits .f32 0x00000000#32

/-- One group's entry (r, ·), whose row-0 value is the sum of g over the tile's rows, is the statistics array's entry
    at row 8 · tv + r when g at tile row p is f at batch row 1024 · tv + p. -/
theorem statArr_entry (f : Fin 8192 → Fin 1024 → EReal) (g : Fin 1024 → EReal) (tv : Nat) (r : Fin 8)
    (i : S64x1024.Idx) (hi : (i 0).val = tv * 8 + r.val)
    (hg : ∀ (p : Fin 1024) (a : Fin 8192), a.val = tv * 1024 + p.val → g p = f a (i 1)) :
    (if r.val = 0 then ∑ p : Fin 1024, g p else Ideal.ofBits .f32 0x00000000#32) = statArr f i := by
  have hc : (r.val = 0) ↔ ((i 0).val % 8 = 0) := by omega
  refine if_congr hc (Finset.sum_congr rfl fun p _ => hg p _ ?_) rfl
  show (i 0).val / 8 * 1024 + p.val = tv * 1024 + p.val
  omega

/-- Down a column, the statistics array adds up to the sum of f over the whole batch: the zero word is the number
    zero, each group contributes its tile's sum, and the eight tiles are the batch. -/
theorem statArr_colsum (f : Fin 8192 → Fin 1024 → EReal) (q : Fin 1024) :
    ∑ j : Fin 64, statArr f (ix2 j q) = ∑ p : Fin 8192, f p q := by
  have hr : ∀ (t : Fin 8) (i : Fin 8), t.val * 8 + i.val < 64 := fun t i => by omega
  have hrow : ∀ (t : Fin 8) (p : Fin 1024), t.val * 1024 + p.val < 8192 := fun t p => by omega
  refine (LibStatRows.sum_masked_groups 8 8 64 rfl (by decide) (fun j => statArr f (ix2 j q))
    (fun t => ∑ p : Fin 1024, f ⟨t.val * 1024 + p.val, hrow t p⟩ q)
    (fun t i => ⟨t.val * 8 + i.val, hr t i⟩) (fun _ _ => rfl) (fun t i => ?_)).trans ?_
  · show (if (t.val * 8 + i.val) % 8 = 0 then ∑ p : Fin 1024, f (tileRow ⟨t.val * 8 + i.val, hr t i⟩ p) q
        else Ideal.ofBits .f32 0x00000000#32) = _
    have hc : ((t.val * 8 + i.val) % 8 = 0) ↔ (i.val = 0) := by omega
    refine if_congr hc (Finset.sum_congr rfl fun p _ => congrArg (fun a => f a q) (Fin.ext ?_)) rfl
    show (t.val * 8 + i.val) / 8 * 1024 + p.val = t.val * 1024 + p.val
    omega
  · exact (FinTiles.sum_fin_tiles 8 1024 8192 rfl (fun x => f x q) (fun t p => ⟨t.val * 1024 + p.val, hrow t p⟩)
      (fun _ _ => rfl)).symm

end Cert.KernelIdeal.RegionValue

end
-- ==== Proof.Region1.lean ====
/-
  What region 1 leaves in its three output arrays, from the arrays as the region finds them. The region works through
  the 8192 rows of its input in eight tiles of 1024 rows; the weight matrix and the scale and shift rows are read whole
  at every tile. Tile t's activation block is rows 1024 t … 1024 t + 1023 of the clipped product over the whole batch,
  so the activation array is that clipped product; tile t's two statistics blocks are rows 8 t … 8 t + 7 of the two
  statistics arrays, whose columns therefore add up to the column sums, and the column sums of squares, of the clipped
  product over the whole batch.
-/
import proofs.«124504_j45586782880351_2_alg».proof.Proof.Gen.KernelIdeal.Frame
import proofs.«124504_j45586782880351_2_alg».proof.Proof.Region1Body
import proofs.«124504_j45586782880351_2_alg».proof.Proof.LibMatLayout
import Idealize.ShloMosaic.Lib.Pipeline.Value

noncomputable section

namespace Cert.KernelIdeal.RegionValue

open Cert.KernelIdeal Cert.KernelIdeal.Gen Cert.BinNet
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b)) (c : Dev nD)

/-- The layer's clipped product over the whole batch, from the arrays as the region finds them. -/
abbrev layer1 : Fin 8192 → Fin 1024 → EReal := fun p q =>
  relu (mm (aff (mat (V c main_v26_0 : S8192x1024.Idx → EReal)) (mat (V c main_v41 : S1x1024.Idx → EReal) 0)
    (mat (V c main_v45 : S1x1024.Idx → EReal) 0)) (mat (V c main_v11 : S1024x1024.Idx → EReal)) p q)

/-- The block indices over the grid: the input, the activations and the two statistics arrays move one block down per
    point, the weights and the two rows stay at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## The input blocks, read off the arrays -/

/-- Row p of the input's block at point t is row 1024 t + p of the input. -/
theorem blk1_0_read (t : Fin cfg1.N) (p k : Fin 1024) (a : Fin 8192) (ha : a.val = t.val * 1024 + p.val) :
    (iblk1 V c 0 t : S1024x1024.Idx → EReal) (ix2 p k) = (V c main_v26_0 : S8192x1024.Idx → EReal) (ix2 a k) := by
  obtain ⟨e0, e1, -⟩ := idx1 t
  unfold iblk1
  rw [View.read_apply]
  show V c main_v26_0 (((cfg1.win 0).blk t).view.emb (ix2 p k)) = V c main_v26_0 (ix2 a k)
  refine congrArg (V c main_v26_0) (funext fun ax => Fin.ext ?_)
  match ax with
  | ⟨0, _⟩ => show win1_0.index t (0 : Fin 2) * 1024 + 1 * p.val = a.val; omega
  | ⟨1, _⟩ => show win1_0.index t (1 : Fin 2) * 1024 + 1 * k.val = k.val; omega

/-- The weights' block at any point is the weight matrix. -/
theorem blk1_1_read (t : Fin cfg1.N) (k q q' : Fin 1024) (hq : q'.val = q.val) :
    (iblk1 V c 1 t : S1024x1024.Idx → EReal) (ix2 k q) = (V c main_v11 : S1024x1024.Idx → EReal) (ix2 k q') := by
  obtain ⟨-, -, e0, e1, -⟩ := idx1 t
  unfold iblk1
  rw [View.read_apply]
  show V c main_v11 (((cfg1.win 1).blk t).view.emb (ix2 k q)) = V c main_v11 (ix2 k q')
  refine congrArg (V c main_v11) (funext fun ax => Fin.ext ?_)
  match ax with
  | ⟨0, _⟩ => show win1_1.index t (0 : Fin 2) * 1024 + 1 * k.val = k.val; omega
  | ⟨1, _⟩ => show win1_1.index t (1 : Fin 2) * 1024 + 1 * q.val = q'.val; omega

/-- The scale row's block at any point is the scale row. -/
theorem blk1_2_read (t : Fin cfg1.N) (k : Fin 1024) :
    (iblk1 V c 2 t : S1x1024.Idx → EReal) (ix2 0 k) = (V c main_v41 : S1x1024.Idx → EReal) (ix2 0 k) := by
  obtain ⟨-, -, -, -, e0, e1, -⟩ := idx1 t
  unfold iblk1
  rw [View.read_apply]
  show V c main_v41 (((cfg1.win 2).blk t).view.emb (ix2 0 k)) = V c main_v41 (ix2 0 k)
  refine congrArg (V c main_v41) (funext fun ax => Fin.ext ?_)
  match ax with
  | ⟨0, _⟩ => show win1_2.index t (0 : Fin 2) * 1 + 1 * 0 = 0; omega
  | ⟨1, _⟩ => show win1_2.index t (1 : Fin 2) * 1024 + 1 * k.val = k.val; omega

/-- The shift row's block at any point is the shift row. -/
theorem blk1_3_read (t : Fin cfg1.N) (k : Fin 1024) :
    (iblk1 V c 3 t : S1x1024.Idx → EReal) (ix2 0 k) = (V c main_v45 : S1x1024.Idx → EReal) (ix2 0 k) := by
  obtain ⟨-, -, -, -, -, -, e0, e1, -⟩ := idx1 t
  unfold iblk1
  rw [View.read_apply]
  show V c main_v45 (((cfg1.win 3).blk t).view.emb (ix2 0 k)) = V c main_v45 (ix2 0 k)
  refine congrArg (V c main_v45) (funext fun ax => Fin.ext ?_)
  match ax with
  | ⟨0, _⟩ => show win1_3.index t (0 : Fin 2) * 1 + 1 * 0 = 0; omega
  | ⟨1, _⟩ => show win1_3.index t (1 : Fin 2) * 1024 + 1 * k.val = k.val; omega

/-- So the tile's entry (p, q) at point t is the whole layer's entry (1024 t + p, q). -/
theorem tile1_eq (t : Fin cfg1.N) (p q q' : Fin 1024) (a : Fin 8192) (ha : a.val = t.val * 1024 + p.val)
    (hq : q'.val = q.val) :
    tileAct (iblk1 V c 0 t) (iblk1 V c 2 t) (iblk1 V c 3 t) (iblk1 V c 1 t) p q = layer1 V c a q' :=
  tileAct_eq (V c main_v26_0) (V c main_v41) (V c main_v45) (V c main_v11) _ _ _ _ p q q' a
    (fun k => blk1_0_read V c t p k a ha) (fun k => blk1_2_read V c t k) (fun k => blk1_3_read V c t k)
    (fun k => blk1_1_read V c t k q q' hq)

/-! ## The activations -/

/-- What point t writes back to the activation array is block t of the whole layer's clipped product. -/
theorem flushed1_4_eq (t : Fin cfg1.N) :
    (dat1 (F := Ideal) V c).flushed 4 t
      = ((cfg1.win 4).blk t).view.read (Elt Ideal) (fun i : S8192x1024.Idx => layer1 V c (i 0) (i 1)) := by
  show (cfg1.win 4).cut (grid1.coords t) ((dat1 V c).after 4 t) = _
  rw [after1_4]
  unfold out1_4
  rw [View.canon_unit_zero LibMatLayout.zero_off2]
  simp only [View.ld_unit_zero (S := S1024x1024) LibMatLayout.zero_off2, View.ld_unit_zero (S := S1x1024) LibMatLayout.zero_off2]
  obtain ⟨-, -, -, -, -, -, -, -, e0, e1, -⟩ := idx1 t
  funext j
  obtain ⟨p, q, rfl⟩ : ∃ (p q : Fin 1024), j = ix2 p q := ⟨j 0, j 1, eq_ix2 j⟩
  refine (k1_pay2_apply _ _ _ _ p q).trans ?_
  show _ = layer1 V c ((((cfg1.win 4).blk t).view.emb (ix2 p q)) 0) ((((cfg1.win 4).blk t).view.emb (ix2 p q)) 1)
  refine tile1_eq V c t p q _ _ ?_ ?_
  · show win1_4.index t (0 : Fin 2) * 1024 + 1 * p.val = t.val * 1024 + p.val; omega
  · show win1_4.index t (1 : Fin 2) * 1024 + 1 * q.val = q.val; omega

/-- An index of the activation array is in point t's block iff each coordinate is in the block's range. -/
theorem mem_blk1_4 (t : Fin cfg1.N) (i : S8192x1024.Idx) :
    i ∈ ((cfg1.win 4).blk t).view.set ↔ ∀ a : Fin 2, win1_4.index t a * S1024x1024.size a ≤ (i a).val
      ∧ (i a).val < win1_4.index t a * S1024x1024.size a + S1024x1024.size a := by
  show i ∈ ((View.whole main_v46_0).slice (win1_4.rect t)).set ↔ _
  rw [View.set_slice_whole, Rect.mem_set_unit]
  exact Iff.rfl

/-- Row r of the activation array is in the block of point r / 1024. -/
theorem cover1_4_arr (i : S8192x1024.Idx) :
    ∃ t : Fin cfg1.N, (cfg1.win 4).flush t = true ∧ i ∈ ((cfg1.win 4).blk t).view.set := by
  have h0 : (i 0).val < 8192 := (i 0).isLt
  have h1 : (i 1).val < 1024 := (i 1).isLt
  have hN : cfg1.N = 8 := N_1
  let t : Fin cfg1.N := ⟨(i 0).val / 1024, by rw [hN]; omega⟩
  have ht : t.val = (i 0).val / 1024 := rfl
  obtain ⟨-, -, -, -, -, -, -, -, e0, e1, -⟩ := idx1 t
  refine ⟨t, flush1_4 t, ?_⟩
  rw [mem_blk1_4]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1024 ≤ (i 1).val ∧ (i 1).val < win1_4.index t (1 : Fin 2) * 1024 + 1024; omega

/-- The activation array after the region: the clipped product of the rescaled input with the weights. -/
theorem region1_act :
    mat ((Gen.dat1 (F := Ideal) V c).arrAt 4 cfg1.N : S8192x1024.Idx → EReal)
      = fun p q => relu (mm (aff (mat (V c main_v26_0 : S8192x1024.Idx → EReal)) (mat (V c main_v41 : S1x1024.Idx → EReal) 0)
          (mat (V c main_v45 : S1x1024.Idx → EReal) 0)) (mat (V c main_v11 : S1024x1024.Idx → EReal)) p q) := by
  have h := (dat1 (F := Ideal) V c).arrAt_eq_of_cover 4 (fun i : S8192x1024.Idx => layer1 V c (i 0) (i 1))
    (fun t _ => flushed1_4_eq V c t) (cover1_4_arr)
  funext p q
  show (dat1 (F := Ideal) V c).arrAt 4 cfg1.N (ix2 p q) = _
  rw [h]

/-! ## The two statistics arrays -/

/-- What point t writes back to the array of column sums is group t of the statistics array of the clipped product. -/
theorem flushed1_5_eq (t : Fin cfg1.N) :
    (dat1 (F := Ideal) V c).flushed 5 t
      = ((cfg1.win 5).blk t).view.read (Elt Ideal) (statArr (layer1 V c)) := by
  show (cfg1.win 5).cut (grid1.coords t) ((dat1 V c).after 5 t) = _
  rw [after1_5]
  unfold out1_5
  rw [View.canon_unit_zero LibMatLayout.zero_off2]
  simp only [View.ld_unit_zero (S := S1024x1024) LibMatLayout.zero_off2, View.ld_unit_zero (S := S1x1024) LibMatLayout.zero_off2]
  obtain ⟨-, -, -, -, -, -, -, -, -, -, e0, e1, -⟩ := idx1 t
  funext j
  obtain ⟨r, q, rfl⟩ : ∃ (r : Fin 8) (q : Fin 1024), j = ix2 r q := ⟨j 0, j 1, eq_ix2 j⟩
  refine (k1_pay5_apply _ _ _ _ r q).trans ?_
  show _ = statArr (layer1 V c) (((cfg1.win 5).blk t).view.emb (ix2 r q))
  refine statArr_entry (layer1 V c) _ t.val r _ ?_ (fun p a ha => tile1_eq V c t p q _ a ha ?_)
  · show win1_5.index t (0 : Fin 2) * 8 + 1 * r.val = t.val * 8 + r.val; omega
  · show win1_5.index t (1 : Fin 2) * 1024 + 1 * q.val = q.val; omega

/-- What point t writes back to the array of column sums of squares, likewise. -/
theorem flushed1_6_eq (t : Fin cfg1.N) :
    (dat1 (F := Ideal) V c).flushed 6 t
      = ((cfg1.win 6).blk t).view.read (Elt Ideal) (statArr fun p q => layer1 V c p q * layer1 V c p q) := by
  show (cfg1.win 6).cut (grid1.coords t) ((dat1 V c).after 6 t) = _
  rw [after1_6]
  unfold out1_6
  rw [View.canon_unit_zero LibMatLayout.zero_off2]
  simp only [View.ld_unit_zero (S := S1024x1024) LibMatLayout.zero_off2, View.ld_unit_zero (S := S1x1024) LibMatLayout.zero_off2]
  obtain ⟨-, -, -, -, -, -, -, -, -, -, -, -, e0, e1⟩ := idx1 t
  funext j
  obtain ⟨r, q, rfl⟩ : ∃ (r : Fin 8) (q : Fin 1024), j = ix2 r q := ⟨j 0, j 1, eq_ix2 j⟩
  refine (k1_pay6_apply _ _ _ _ r q).trans ?_
  show _ = statArr (fun p q => layer1 V c p q * layer1 V c p q) (((cfg1.win 6).blk t).view.emb (ix2 r q))
  refine statArr_entry (fun p q => layer1 V c p q * layer1 V c p q) _ t.val r _ ?_ (fun p a ha => ?_)
  · show win1_6.index t (0 : Fin 2) * 8 + 1 * r.val = t.val * 8 + r.val; omega
  · have e := tile1_eq V c t p q ((((cfg1.win 6).blk t).view.emb (ix2 r q)) 1) a ha
      (by show win1_6.index t (1 : Fin 2) * 1024 + 1 * q.val = q.val; omega)
    show tileAct (iblk1 V c 0 t) (iblk1 V c 2 t) (iblk1 V c 3 t) (iblk1 V c 1 t) p q
        * tileAct (iblk1 V c 0 t) (iblk1 V c 2 t) (iblk1 V c 3 t) (iblk1 V c 1 t) p q = _
    rw [e]

/-- An index of a statistics array is in point t's block iff each coordinate is in the block's range. -/
theorem mem_blk1_5 (t : Fin cfg1.N) (i : S64x1024.Idx) :
    i ∈ ((cfg1.win 5).blk t).view.set ↔ ∀ a : Fin 2, win1_5.index t a * S8x1024.size a ≤ (i a).val
      ∧ (i a).val < win1_5.index t a * S8x1024.size a + S8x1024.size a := by
  show i ∈ ((View.whole main_v46_1).slice (win1_5.rect t)).set ↔ _
  rw [View.set_slice_whole, Rect.mem_set_unit]
  exact Iff.rfl

theorem mem_blk1_6 (t : Fin cfg1.N) (i : S64x1024.Idx) :
    i ∈ ((cfg1.win 6).blk t).view.set ↔ ∀ a : Fin 2, win1_6.index t a * S8x1024.size a ≤ (i a).val
      ∧ (i a).val < win1_6.index t a * S8x1024.size a + S8x1024.size a := by
  show i ∈ ((View.whole main_v46_2).slice (win1_6.rect t)).set ↔ _
  rw [View.set_slice_whole, Rect.mem_set_unit]
  exact Iff.rfl

/-- Row r of a statistics array is in the block of point r / 8. -/
theorem cover1_5_arr (i : S64x1024.Idx) :
    ∃ t : Fin cfg1.N, (cfg1.win 5).flush t = true ∧ i ∈ ((cfg1.win 5).blk t).view.set := by
  have h0 : (i 0).val < 64 := (i 0).isLt
  have h1 : (i 1).val < 1024 := (i 1).isLt
  have hN : cfg1.N = 8 := N_1
  let t : Fin cfg1.N := ⟨(i 0).val / 8, by rw [hN]; omega⟩
  have ht : t.val = (i 0).val / 8 := rfl
  obtain ⟨-, -, -, -, -, -, -, -, -, -, e0, e1, -⟩ := idx1 t
  refine ⟨t, flush1_5 t, ?_⟩
  rw [mem_blk1_5]
  intro a
  match a with
  | ⟨0, _⟩ => show win1_5.index t (0 : Fin 2) * 8 ≤ (i 0).val ∧ (i 0).val < win1_5.index t (0 : Fin 2) * 8 + 8; omega
  | ⟨1, _⟩ => show win1_5.index t (1 : Fin 2) * 1024 ≤ (i 1).val ∧ (i 1).val < win1_5.index t (1 : Fin 2) * 1024 + 1024; omega

theorem cover1_6_arr (i : S64x1024.Idx) :
    ∃ t : Fin cfg1.N, (cfg1.win 6).flush t = true ∧ i ∈ ((cfg1.win 6).blk t).view.set := by
  have h0 : (i 0).val < 64 := (i 0).isLt
  have h1 : (i 1).val < 1024 := (i 1).isLt
  have hN : cfg1.N = 8 := N_1
  let t : Fin cfg1.N := ⟨(i 0).val / 8, by rw [hN]; omega⟩
  have ht : t.val = (i 0).val / 8 := rfl
  obtain ⟨-, -, -, -, -, -, -, -, -, -, -, -, e0, e1⟩ := idx1 t
  refine ⟨t, flush1_6 t, ?_⟩
  rw [mem_blk1_6]
  intro a
  match a with
  | ⟨0, _⟩ => show win1_6.index t (0 : Fin 2) * 8 ≤ (i 0).val ∧ (i 0).val < win1_6.index t (0 : Fin 2) * 8 + 8; omega
  | ⟨1, _⟩ => show win1_6.index t (1 : Fin 2) * 1024 ≤ (i 1).val ∧ (i 1).val < win1_6.index t (1 : Fin 2) * 1024 + 1024; omega

/-- The columns of the first statistics array add up to the column sums of the clipped product over the batch. -/
theorem region1_sum (q : Fin 1024) :
    ∑ j : Fin 64, mat ((Gen.dat1 (F := Ideal) V c).arrAt 5 cfg1.N : S64x1024.Idx → EReal) j q
      = ∑ p : Fin 8192, relu (mm (aff (mat (V c main_v26_0 : S8192x1024.Idx → EReal)) (mat (V c main_v41 : S1x1024.Idx → EReal) 0)
          (mat (V c main_v45 : S1x1024.Idx → EReal) 0)) (mat (V c main_v11 : S1024x1024.Idx → EReal)) p q) := by
  have h := (dat1 (F := Ideal) V c).arrAt_eq_of_cover 5 (statArr (layer1 V c))
    (fun t _ => flushed1_5_eq V c t) (cover1_5_arr)
  rw [h]
  exact statArr_colsum (layer1 V c) q

/-- The columns of the second add up to the column sums of its squares. -/
theorem region1_sumsq (q : Fin 1024) :
    ∑ j : Fin 64, mat ((Gen.dat1 (F := Ideal) V c).arrAt 6 cfg1.N : S64x1024.Idx → EReal) j q
      = ∑ p : Fin 8192, relu (mm (aff (mat (V c main_v26_0 : S8192x1024.Idx → EReal)) (mat (V c main_v41 : S1x1024.Idx → EReal) 0)
          (mat (V c main_v45 : S1x1024.Idx → EReal) 0)) (mat (V c main_v11 : S1024x1024.Idx → EReal)) p q)
        * relu (mm (aff (mat (V c main_v26_0 : S8192x1024.Idx → EReal)) (mat (V c main_v41 : S1x1024.Idx → EReal) 0)
          (mat (V c main_v45 : S1x1024.Idx → EReal) 0)) (mat (V c main_v11 : S1024x1024.Idx → EReal)) p q) := by
  have h := (dat1 (F := Ideal) V c).arrAt_eq_of_cover 6 (statArr fun p q => layer1 V c p q * layer1 V c p q)
    (fun t _ => flushed1_6_eq V c t) (cover1_6_arr)
  rw [h]
  exact statArr_colsum (fun p q => layer1 V c p q * layer1 V c p q) q

end Cert.KernelIdeal.RegionValue

end
-- ==== Proof.Region2Body.lean ====
/-
  The third hidden layer's row tile: the same arithmetic as the second layer's (rescale the tile's input rows column
  by column, multiply by the whole right factor, clip at zero; keep the column sums and the column sums of squares in
  an eight-row group), read entry by entry at the ideal values.
-/
import proofs.«124504_j45586782880351_2_alg».proof.Proof.Region1Body

noncomputable section

namespace Cert.KernelIdeal.RegionValue

open Cert.KernelIdeal Cert.KernelIdeal.Gen Cert.BinNet
open Idealize.ShloMosaic Idealize.ShloMosaic.ValueIdx
open scoped BigOperators

/-- The tile's clipped product, read at (p, q). -/
theorem k2_pay1_apply (h : Vec Ideal S1024x1024 .bf16) (s t : Vec Ideal S1x1024 .f32) (w : Vec Ideal S1024x1024 .bf16)
    (p q : Fin 1024) : k2_pay1 (F := Ideal) h s t w (ix2 p q) = tileAct h s t w p q := by
  unfold k2_pay1
  simp only [shapeCast_self]
  refine (maximumf_apply _ _ (ix2 p q)).trans ?_
  refine congrArg (fun v => max v z32) ?_
  refine (LibDot.matmul_zero_apply (φ₁ := .bf16) (φ₂ := .bf16) dot_S1024x1024_S1024x1024_S1024x1024_1_0_0_1_n_n_wf none _ w p q).trans ?_
  refine Finset.sum_congr rfl fun k _ => ?_
  refine congrArg (fun v => v * w (ix2 k q)) ?_
  show h (ix2 p k) * broadcastTo S1024x1024 s broadcasts_S1x1024_S1024x1024 (ix2 p k)
      + broadcastTo S1024x1024 t broadcasts_S1x1024_S1024x1024 (ix2 p k) = _
  rw [broadcastTo_1b_ab_apply, broadcastTo_1b_ab_apply]
  rfl

/-- What the tile stores as its activations is the same entry (the narrowing of the format is the identity). -/
theorem k2_pay2_apply (h : Vec Ideal S1024x1024 .bf16) (s t : Vec Ideal S1x1024 .f32) (w : Vec Ideal S1024x1024 .bf16)
    (p q : Fin 1024) : k2_pay2 (F := Ideal) h s t w (ix2 p q) = tileAct h s t w p q := by
  unfold k2_pay2
  exact k2_pay1_apply h s t w p q

/-- The tile's column sums, kept in row 0 of an eight-row group. -/
theorem k2_pay5_apply (h : Vec Ideal S1024x1024 .bf16) (s t : Vec Ideal S1x1024 .f32) (w : Vec Ideal S1024x1024 .bf16)
    (r : Fin 8) (q : Fin 1024) :
    k2_pay5 (F := Ideal) h s t w (ix2 r q)
      = if r.val = 0 then ∑ p : Fin 1024, tileAct h s t w p q else Ideal.ofBits .f32 0x00000000#32 := by
  unfold k2_pay5 k2_pay3 k2_pay4
  refine (LibStatRows.statRows_apply (k2_pay1 (F := Ideal) h s t w) _ _ _ _ _ _ _ r q).trans ?_
  exact if_congr Iff.rfl (Finset.sum_congr rfl fun p _ => k2_pay1_apply h s t w p q) rfl

/-- The tile's column sums of squares, kept in row 0 of an eight-row group. -/
theorem k2_pay6_apply (h : Vec Ideal S1024x1024 .bf16) (s t : Vec Ideal S1x1024 .f32) (w : Vec Ideal S1024x1024 .bf16)
    (r : Fin 8) (q : Fin 1024) :
    k2_pay6 (F := Ideal) h s t w (ix2 r q)
      = if r.val = 0 then ∑ p : Fin 1024, tileAct h s t w p q * tileAct h s t w p q
        else Ideal.ofBits .f32 0x00000000#32 := by
  unfold k2_pay6 k2_pay3 k2_pay4
  refine (LibStatRows.statRows_apply (mulf (k2_pay1 (F := Ideal) h s t w) (k2_pay1 (F := Ideal) h s t w)) _ _ _ _ _ _ _ r q).trans ?_
  refine if_congr Iff.rfl (Finset.sum_congr rfl fun p _ => ?_) rfl
  show k2_pay1 (F := Ideal) h s t w (ix2 p q) * k2_pay1 (F := Ideal) h s t w (ix2 p q) = _
  rw [k2_pay1_apply]

end Cert.KernelIdeal.RegionValue

end
-- ==== Proof.Region2.lean ====
/-
  What region 2 leaves in its three output arrays, from the arrays as the region finds them. The region works through
  the 8192 rows of its input in eight tiles of 1024 rows; the weight matrix and the scale and shift rows are read whole
  at every tile. Tile t's activation block is rows 1024 t … 1024 t + 1023 of the clipped product over the whole batch,
  so the activation array is that clipped product; tile t's two statistics blocks are rows 8 t … 8 t + 7 of the two
  statistics arrays, whose columns therefore add up to the column sums, and the column sums of squares, of the clipped
  product over the whole batch.
-/
import proofs.«124504_j45586782880351_2_alg».proof.Proof.Gen.KernelIdeal.Frame
import proofs.«124504_j45586782880351_2_alg».proof.Proof.Region2Body
import proofs.«124504_j45586782880351_2_alg».proof.Proof.LibMatLayout
import Idealize.ShloMosaic.Lib.Pipeline.Value

noncomputable section

namespace Cert.KernelIdeal.RegionValue

open Cert.KernelIdeal Cert.KernelIdeal.Gen Cert.BinNet
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b)) (c : Dev nD)

/-- The layer's clipped product over the whole batch, from the arrays as the region finds them. -/
abbrev layer2 : Fin 8192 → Fin 1024 → EReal := fun p q =>
  relu (mm (aff (mat (V c main_v46_0 : S8192x1024.Idx → EReal)) (mat (V c main_v61 : S1x1024.Idx → EReal) 0)
    (mat (V c main_v65 : S1x1024.Idx → EReal) 0)) (mat (V c main_v17 : S1024x1024.Idx → EReal)) p q)

/-- The block indices over the grid: the input, the activations and the two statistics arrays move one block down per
    point, the weights and the two rows stay at block (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-! ## The input blocks, read off the arrays -/

/-- Row p of the input's block at point t is row 1024 t + p of the input. -/
theorem blk2_0_read (t : Fin cfg2.N) (p k : Fin 1024) (a : Fin 8192) (ha : a.val = t.val * 1024 + p.val) :
    (iblk2 V c 0 t : S1024x1024.Idx → EReal) (ix2 p k) = (V c main_v46_0 : S8192x1024.Idx → EReal) (ix2 a k) := by
  obtain ⟨e0, e1, -⟩ := idx2 t
  unfold iblk2
  rw [View.read_apply]
  show V c main_v46_0 (((cfg2.win 0).blk t).view.emb (ix2 p k)) = V c main_v46_0 (ix2 a k)
  refine congrArg (V c main_v46_0) (funext fun ax => Fin.ext ?_)
  match ax with
  | ⟨0, _⟩ => show win2_0.index t (0 : Fin 2) * 1024 + 1 * p.val = a.val; omega
  | ⟨1, _⟩ => show win2_0.index t (1 : Fin 2) * 1024 + 1 * k.val = k.val; omega

/-- The weights' block at any point is the weight matrix. -/
theorem blk2_1_read (t : Fin cfg2.N) (k q q' : Fin 1024) (hq : q'.val = q.val) :
    (iblk2 V c 1 t : S1024x1024.Idx → EReal) (ix2 k q) = (V c main_v17 : S1024x1024.Idx → EReal) (ix2 k q') := by
  obtain ⟨-, -, e0, e1, -⟩ := idx2 t
  unfold iblk2
  rw [View.read_apply]
  show V c main_v17 (((cfg2.win 1).blk t).view.emb (ix2 k q)) = V c main_v17 (ix2 k q')
  refine congrArg (V c main_v17) (funext fun ax => Fin.ext ?_)
  match ax with
  | ⟨0, _⟩ => show win2_1.index t (0 : Fin 2) * 1024 + 1 * k.val = k.val; omega
  | ⟨1, _⟩ => show win2_1.index t (1 : Fin 2) * 1024 + 1 * q.val = q'.val; omega

/-- The scale row's block at any point is the scale row. -/
theorem blk2_2_read (t : Fin cfg2.N) (k : Fin 1024) :
    (iblk2 V c 2 t : S1x1024.Idx → EReal) (ix2 0 k) = (V c main_v61 : S1x1024.Idx → EReal) (ix2 0 k) := by
  obtain ⟨-, -, -, -, e0, e1, -⟩ := idx2 t
  unfold iblk2
  rw [View.read_apply]
  show V c main_v61 (((cfg2.win 2).blk t).view.emb (ix2 0 k)) = V c main_v61 (ix2 0 k)
  refine congrArg (V c main_v61) (funext fun ax => Fin.ext ?_)
  match ax with
  | ⟨0, _⟩ => show win2_2.index t (0 : Fin 2) * 1 + 1 * 0 = 0; omega
  | ⟨1, _⟩ => show win2_2.index t (1 : Fin 2) * 1024 + 1 * k.val = k.val; omega

/-- The shift row's block at any point is the shift row. -/
theorem blk2_3_read (t : Fin cfg2.N) (k : Fin 1024) :
    (iblk2 V c 3 t : S1x1024.Idx → EReal) (ix2 0 k) = (V c main_v65 : S1x1024.Idx → EReal) (ix2 0 k) := by
  obtain ⟨-, -, -, -, -, -, e0, e1, -⟩ := idx2 t
  unfold iblk2
  rw [View.read_apply]
  show V c main_v65 (((cfg2.win 3).blk t).view.emb (ix2 0 k)) = V c main_v65 (ix2 0 k)
  refine congrArg (V c main_v65) (funext fun ax => Fin.ext ?_)
  match ax with
  | ⟨0, _⟩ => show win2_3.index t (0 : Fin 2) * 1 + 1 * 0 = 0; omega
  | ⟨1, _⟩ => show win2_3.index t (1 : Fin 2) * 1024 + 1 * k.val = k.val; omega

/-- So the tile's entry (p, q) at point t is the whole layer's entry (1024 t + p, q). -/
theorem tile2_eq (t : Fin cfg2.N) (p q q' : Fin 1024) (a : Fin 8192) (ha : a.val = t.val * 1024 + p.val)
    (hq : q'.val = q.val) :
    tileAct (iblk2 V c 0 t) (iblk2 V c 2 t) (iblk2 V c 3 t) (iblk2 V c 1 t) p q = layer2 V c a q' :=
  tileAct_eq (V c main_v46_0) (V c main_v61) (V c main_v65) (V c main_v17) _ _ _ _ p q q' a
    (fun k => blk2_0_read V c t p k a ha) (fun k => blk2_2_read V c t k) (fun k => blk2_3_read V c t k)
    (fun k => blk2_1_read V c t k q q' hq)

/-! ## The activations -/

/-- What point t writes back to the activation array is block t of the whole layer's clipped product. -/
theorem flushed2_4_eq (t : Fin cfg2.N) :
    (dat2 (F := Ideal) V c).flushed 4 t
      = ((cfg2.win 4).blk t).view.read (Elt Ideal) (fun i : S8192x1024.Idx => layer2 V c (i 0) (i 1)) := by
  show (cfg2.win 4).cut (grid2.coords t) ((dat2 V c).after 4 t) = _
  rw [after2_4]
  unfold out2_4
  rw [View.canon_unit_zero LibMatLayout.zero_off2]
  simp only [View.ld_unit_zero (S := S1024x1024) LibMatLayout.zero_off2, View.ld_unit_zero (S := S1x1024) LibMatLayout.zero_off2]
  obtain ⟨-, -, -, -, -, -, -, -, e0, e1, -⟩ := idx2 t
  funext j
  obtain ⟨p, q, rfl⟩ : ∃ (p q : Fin 1024), j = ix2 p q := ⟨j 0, j 1, eq_ix2 j⟩
  refine (k2_pay2_apply _ _ _ _ p q).trans ?_
  show _ = layer2 V c ((((cfg2.win 4).blk t).view.emb (ix2 p q)) 0) ((((cfg2.win 4).blk t).view.emb (ix2 p q)) 1)
  refine tile2_eq V c t p q _ _ ?_ ?_
  · show win2_4.index t (0 : Fin 2) * 1024 + 1 * p.val = t.val * 1024 + p.val; omega
  · show win2_4.index t (1 : Fin 2) * 1024 + 1 * q.val = q.val; omega

/-- An index of the activation array is in point t's block iff each coordinate is in the block's range. -/
theorem mem_blk2_4 (t : Fin cfg2.N) (i : S8192x1024.Idx) :
    i ∈ ((cfg2.win 4).blk t).view.set ↔ ∀ a : Fin 2, win2_4.index t a * S1024x1024.size a ≤ (i a).val
      ∧ (i a).val < win2_4.index t a * S1024x1024.size a + S1024x1024.size a := by
  show i ∈ ((View.whole main_v66_0).slice (win2_4.rect t)).set ↔ _
  rw [View.set_slice_whole, Rect.mem_set_unit]
  exact Iff.rfl

/-- Row r of the activation array is in the block of point r / 1024. -/
theorem cover2_4_arr (i : S8192x1024.Idx) :
    ∃ t : Fin cfg2.N, (cfg2.win 4).flush t = true ∧ i ∈ ((cfg2.win 4).blk t).view.set := by
  have h0 : (i 0).val < 8192 := (i 0).isLt
  have h1 : (i 1).val < 1024 := (i 1).isLt
  have hN : cfg2.N = 8 := N_2
  let t : Fin cfg2.N := ⟨(i 0).val / 1024, by rw [hN]; omega⟩
  have ht : t.val = (i 0).val / 1024 := rfl
  obtain ⟨-, -, -, -, -, -, -, -, e0, e1, -⟩ := idx2 t
  refine ⟨t, flush2_4 t, ?_⟩
  rw [mem_blk2_4]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 1024 ≤ (i 1).val ∧ (i 1).val < win2_4.index t (1 : Fin 2) * 1024 + 1024; omega

/-- The activation array after the region: the clipped product of the rescaled input with the weights. -/
theorem region2_act :
    mat ((Gen.dat2 (F := Ideal) V c).arrAt 4 cfg2.N : S8192x1024.Idx → EReal)
      = fun p q => relu (mm (aff (mat (V c main_v46_0 : S8192x1024.Idx → EReal)) (mat (V c main_v61 : S1x1024.Idx → EReal) 0)
          (mat (V c main_v65 : S1x1024.Idx → EReal) 0)) (mat (V c main_v17 : S1024x1024.Idx → EReal)) p q) := by
  have h := (dat2 (F := Ideal) V c).arrAt_eq_of_cover 4 (fun i : S8192x1024.Idx => layer2 V c (i 0) (i 1))
    (fun t _ => flushed2_4_eq V c t) (cover2_4_arr)
  funext p q
  show (dat2 (F := Ideal) V c).arrAt 4 cfg2.N (ix2 p q) = _
  rw [h]

/-! ## The two statistics arrays -/

/-- What point t writes back to the array of column sums is group t of the statistics array of the clipped product. -/
theorem flushed2_5_eq (t : Fin cfg2.N) :
    (dat2 (F := Ideal) V c).flushed 5 t
      = ((cfg2.win 5).blk t).view.read (Elt Ideal) (statArr (layer2 V c)) := by
  show (cfg2.win 5).cut (grid2.coords t) ((dat2 V c).after 5 t) = _
  rw [after2_5]
  unfold out2_5
  rw [View.canon_unit_zero LibMatLayout.zero_off2]
  simp only [View.ld_unit_zero (S := S1024x1024) LibMatLayout.zero_off2, View.ld_unit_zero (S := S1x1024) LibMatLayout.zero_off2]
  obtain ⟨-, -, -, -, -, -, -, -, -, -, e0, e1, -⟩ := idx2 t
  funext j
  obtain ⟨r, q, rfl⟩ : ∃ (r : Fin 8) (q : Fin 1024), j = ix2 r q := ⟨j 0, j 1, eq_ix2 j⟩
  refine (k2_pay5_apply _ _ _ _ r q).trans ?_
  show _ = statArr (layer2 V c) (((cfg2.win 5).blk t).view.emb (ix2 r q))
  refine statArr_entry (layer2 V c) _ t.val r _ ?_ (fun p a ha => tile2_eq V c t p q _ a ha ?_)
  · show win2_5.index t (0 : Fin 2) * 8 + 1 * r.val = t.val * 8 + r.val; omega
  · show win2_5.index t (1 : Fin 2) * 1024 + 1 * q.val = q.val; omega

/-- What point t writes back to the array of column sums of squares, likewise. -/
theorem flushed2_6_eq (t : Fin cfg2.N) :
    (dat2 (F := Ideal) V c).flushed 6 t
      = ((cfg2.win 6).blk t).view.read (Elt Ideal) (statArr fun p q => layer2 V c p q * layer2 V c p q) := by
  show (cfg2.win 6).cut (grid2.coords t) ((dat2 V c).after 6 t) = _
  rw [after2_6]
  unfold out2_6
  rw [View.canon_unit_zero LibMatLayout.zero_off2]
  simp only [View.ld_unit_zero (S := S1024x1024) LibMatLayout.zero_off2, View.ld_unit_zero (S := S1x1024) LibMatLayout.zero_off2]
  obtain ⟨-, -, -, -, -, -, -, -, -, -, -, -, e0, e1⟩ := idx2 t
  funext j
  obtain ⟨r, q, rfl⟩ : ∃ (r : Fin 8) (q : Fin 1024), j = ix2 r q := ⟨j 0, j 1, eq_ix2 j⟩
  refine (k2_pay6_apply _ _ _ _ r q).trans ?_
  show _ = statArr (fun p q => layer2 V c p q * layer2 V c p q) (((cfg2.win 6).blk t).view.emb (ix2 r q))
  refine statArr_entry (fun p q => layer2 V c p q * layer2 V c p q) _ t.val r _ ?_ (fun p a ha => ?_)
  · show win2_6.index t (0 : Fin 2) * 8 + 1 * r.val = t.val * 8 + r.val; omega
  · have e := tile2_eq V c t p q ((((cfg2.win 6).blk t).view.emb (ix2 r q)) 1) a ha
      (by show win2_6.index t (1 : Fin 2) * 1024 + 1 * q.val = q.val; omega)
    show tileAct (iblk2 V c 0 t) (iblk2 V c 2 t) (iblk2 V c 3 t) (iblk2 V c 1 t) p q
        * tileAct (iblk2 V c 0 t) (iblk2 V c 2 t) (iblk2 V c 3 t) (iblk2 V c 1 t) p q = _
    rw [e]

/-- An index of a statistics array is in point t's block iff each coordinate is in the block's range. -/
theorem mem_blk2_5 (t : Fin cfg2.N) (i : S64x1024.Idx) :
    i ∈ ((cfg2.win 5).blk t).view.set ↔ ∀ a : Fin 2, win2_5.index t a * S8x1024.size a ≤ (i a).val
      ∧ (i a).val < win2_5.index t a * S8x1024.size a + S8x1024.size a := by
  show i ∈ ((View.whole main_v66_1).slice (win2_5.rect t)).set ↔ _
  rw [View.set_slice_whole, Rect.mem_set_unit]
  exact Iff.rfl

theorem mem_blk2_6 (t : Fin cfg2.N) (i : S64x1024.Idx) :
    i ∈ ((cfg2.win 6).blk t).view.set ↔ ∀ a : Fin 2, win2_6.index t a * S8x1024.size a ≤ (i a).val
      ∧ (i a).val < win2_6.index t a * S8x1024.size a + S8x1024.size a := by
  show i ∈ ((View.whole main_v66_2).slice (win2_6.rect t)).set ↔ _
  rw [View.set_slice_whole, Rect.mem_set_unit]
  exact Iff.rfl

/-- Row r of a statistics array is in the block of point r / 8. -/
theorem cover2_5_arr (i : S64x1024.Idx) :
    ∃ t : Fin cfg2.N, (cfg2.win 5).flush t = true ∧ i ∈ ((cfg2.win 5).blk t).view.set := by
  have h0 : (i 0).val < 64 := (i 0).isLt
  have h1 : (i 1).val < 1024 := (i 1).isLt
  have hN : cfg2.N = 8 := N_2
  let t : Fin cfg2.N := ⟨(i 0).val / 8, by rw [hN]; omega⟩
  have ht : t.val = (i 0).val / 8 := rfl
  obtain ⟨-, -, -, -, -, -, -, -, -, -, e0, e1, -⟩ := idx2 t
  refine ⟨t, flush2_5 t, ?_⟩
  rw [mem_blk2_5]
  intro a
  match a with
  | ⟨0, _⟩ => show win2_5.index t (0 : Fin 2) * 8 ≤ (i 0).val ∧ (i 0).val < win2_5.index t (0 : Fin 2) * 8 + 8; omega
  | ⟨1, _⟩ => show win2_5.index t (1 : Fin 2) * 1024 ≤ (i 1).val ∧ (i 1).val < win2_5.index t (1 : Fin 2) * 1024 + 1024; omega

theorem cover2_6_arr (i : S64x1024.Idx) :
    ∃ t : Fin cfg2.N, (cfg2.win 6).flush t = true ∧ i ∈ ((cfg2.win 6).blk t).view.set := by
  have h0 : (i 0).val < 64 := (i 0).isLt
  have h1 : (i 1).val < 1024 := (i 1).isLt
  have hN : cfg2.N = 8 := N_2
  let t : Fin cfg2.N := ⟨(i 0).val / 8, by rw [hN]; omega⟩
  have ht : t.val = (i 0).val / 8 := rfl
  obtain ⟨-, -, -, -, -, -, -, -, -, -, -, -, e0, e1⟩ := idx2 t
  refine ⟨t, flush2_6 t, ?_⟩
  rw [mem_blk2_6]
  intro a
  match a with
  | ⟨0, _⟩ => show win2_6.index t (0 : Fin 2) * 8 ≤ (i 0).val ∧ (i 0).val < win2_6.index t (0 : Fin 2) * 8 + 8; omega
  | ⟨1, _⟩ => show win2_6.index t (1 : Fin 2) * 1024 ≤ (i 1).val ∧ (i 1).val < win2_6.index t (1 : Fin 2) * 1024 + 1024; omega

/-- The columns of the first statistics array add up to the column sums of the clipped product over the batch. -/
theorem region2_sum (q : Fin 1024) :
    ∑ j : Fin 64, mat ((Gen.dat2 (F := Ideal) V c).arrAt 5 cfg2.N : S64x1024.Idx → EReal) j q
      = ∑ p : Fin 8192, relu (mm (aff (mat (V c main_v46_0 : S8192x1024.Idx → EReal)) (mat (V c main_v61 : S1x1024.Idx → EReal) 0)
          (mat (V c main_v65 : S1x1024.Idx → EReal) 0)) (mat (V c main_v17 : S1024x1024.Idx → EReal)) p q) := by
  have h := (dat2 (F := Ideal) V c).arrAt_eq_of_cover 5 (statArr (layer2 V c))
    (fun t _ => flushed2_5_eq V c t) (cover2_5_arr)
  rw [h]
  exact statArr_colsum (layer2 V c) q

/-- The columns of the second add up to the column sums of its squares. -/
theorem region2_sumsq (q : Fin 1024) :
    ∑ j : Fin 64, mat ((Gen.dat2 (F := Ideal) V c).arrAt 6 cfg2.N : S64x1024.Idx → EReal) j q
      = ∑ p : Fin 8192, relu (mm (aff (mat (V c main_v46_0 : S8192x1024.Idx → EReal)) (mat (V c main_v61 : S1x1024.Idx → EReal) 0)
          (mat (V c main_v65 : S1x1024.Idx → EReal) 0)) (mat (V c main_v17 : S1024x1024.Idx → EReal)) p q)
        * relu (mm (aff (mat (V c main_v46_0 : S8192x1024.Idx → EReal)) (mat (V c main_v61 : S1x1024.Idx → EReal) 0)
          (mat (V c main_v65 : S1x1024.Idx → EReal) 0)) (mat (V c main_v17 : S1024x1024.Idx → EReal)) p q) := by
  have h := (dat2 (F := Ideal) V c).arrAt_eq_of_cover 6 (statArr fun p q => layer2 V c p q * layer2 V c p q)
    (fun t _ => flushed2_6_eq V c t) (cover2_6_arr)
  rw [h]
  exact statArr_colsum (fun p q => layer2 V c p q * layer2 V c p q) q

end Cert.KernelIdeal.RegionValue

end
-- ==== Proof.Region3.lean ====
/-
  What the last layer's region leaves in its output array, at the ideal values, whatever the buffers hold when the
  region is entered. The batch of 8192 rows is worked through in 8 tiles of 1024 rows; tile t reads rows
  1024·t … 1024·t+1023 of the hidden activations, and the whole of the one-row scale, the one-row shift and the weight
  matrix. It applies h · scale + shift column by column and multiplies by the weights: the output array ends holding,
  at (p, q), Σ_k (h (p, k) · scale k + shift k) · w (k, q).
-/
import proofs.«124504_j45586782880351_2_alg».proof.Proof.Gen.KernelIdeal.Frame
import proofs.«124504_j45586782880351_2_alg».proof.Proof.Net
import proofs.«124504_j45586782880351_2_alg».proof.Proof.LibDot
import proofs.«124504_j45586782880351_2_alg».proof.Proof.LibMatLayout
import Idealize.ShloMosaic.Lib.Pipeline.Value
import Idealize.ShloMosaic.Lib.ValueLayout

noncomputable section

namespace Cert.KernelIdeal.RegionValue

open Cert.KernelIdeal Cert.KernelIdeal.Gen Cert.BinNet
open Idealize.ShloMosaic Idealize.ShloMosaic.ValueIdx Idealize.ShloMosaic.TcCoe
open Idealize.ShloMosaic.Pipeline (Dat)
open Cert.LibMatLayout (zero_off2)
open scoped BigOperators

/-! ## The tile's arithmetic -/

/-- The product of a scaled and shifted tile with the weights at (p, q): the one-row scale and shift are spread over
    the tile's rows, and the changes of float format keep the values. -/
theorem final3_apply (x0 : Vec Ideal S1024x1024 .bf16) (s b : Vec Ideal S1x1024 .f32) (w : Vec Ideal S1024x128 .bf16)
    (p : Fin 1024) (q : Fin 128) :
    k3_pay1 x0 s b w (ix2 p q)
      = ∑ k : Fin 1024, (x0 (ix2 p k) * s (ix2 (0 : Fin 1) k) + b (ix2 (0 : Fin 1) k)) * w (ix2 k q) := by
  unfold k3_pay1
  simp only [shapeCast_self]
  refine (LibDot.matmul_zero_apply (φ₁ := .bf16) (φ₂ := .bf16) dot_S1024x1024_S1024x128_S1024x128_1_0_0_1_n_n_wf none
    _ (w : FVec Ideal S1024x128 .bf16) p q).trans ?_
  refine Finset.sum_congr rfl fun k _ => ?_
  simp only [truncf_apply, addf_apply, mulf_apply, extf_apply]
  rw [broadcastTo_1b_ab_apply, broadcastTo_1b_ab_apply]

variable (V : (c : Dev nD) → (b : Ref sig .tc) → Buf (Elt Ideal) ((c : Thread nD τ).loc b)) (c : Dev nD)

/-! ## The blocks the tiles read -/

/-- The printed index maps over the grid: tile t's activation block and its output block are block t along the rows;
    the weights, the scale and the shift are read whole. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Tile t's activation block at (p, k) is the activation array at row 1024·t + p. -/
theorem h_block3 (t : Fin cfg3.N) (p : Fin 1024) (k : Fin 1024) (P : Fin 8192) (hP : P.val = t.val * 1024 + p.val) :
    iblk3 V c 0 t (ix2 p k) = V c main_v66_0 (ix2 P k) := by
  unfold iblk3
  show V c main_v66_0 (((cfg3.win 0).blk t).view.emb (ix2 p k)) = V c main_v66_0 (ix2 P k)
  refine congrArg (V c main_v66_0) (funext fun a => Fin.ext ?_)
  obtain ⟨e0, e1, -⟩ := index_facts3 t
  match a with
  | ⟨0, _⟩ => show win3_0.index t (0 : Fin 2) * 1024 + 1 * p.val = P.val; rw [e0, hP]; omega
  | ⟨1, _⟩ => show win3_0.index t (1 : Fin 2) * 1024 + 1 * k.val = k.val; rw [e1]; omega

/-- Every tile's weight block is the whole weight matrix. -/
theorem w_block3 (t : Fin cfg3.N) (k : Fin 1024) (q Q : Fin 128) (hQ : Q.val = q.val) :
    iblk3 V c 1 t (ix2 k q) = V c main_v24 (ix2 k Q) := by
  unfold iblk3
  show V c main_v24 (((cfg3.win 1).blk t).view.emb (ix2 k q)) = V c main_v24 (ix2 k Q)
  refine congrArg (V c main_v24) (funext fun a => Fin.ext ?_)
  obtain ⟨-, -, e2, e3, -⟩ := index_facts3 t
  match a with
  | ⟨0, _⟩ => show win3_1.index t (0 : Fin 2) * 1024 + 1 * k.val = k.val; rw [e2]; omega
  | ⟨1, _⟩ => show win3_1.index t (1 : Fin 2) * 128 + 1 * q.val = Q.val; rw [e3, hQ]; omega

/-- Every tile's scale block is the whole scale row. -/
theorem s_block3 (t : Fin cfg3.N) (k : Fin 1024) :
    iblk3 V c 2 t (ix2 (0 : Fin 1) k) = V c main_v81 (ix2 (0 : Fin 1) k) := by
  unfold iblk3
  show V c main_v81 (((cfg3.win 2).blk t).view.emb (ix2 (0 : Fin 1) k)) = V c main_v81 (ix2 (0 : Fin 1) k)
  refine congrArg (V c main_v81) (funext fun a => Fin.ext ?_)
  obtain ⟨-, -, -, -, e4, e5, -⟩ := index_facts3 t
  match a with
  | ⟨0, _⟩ => show win3_2.index t (0 : Fin 2) * 1 + 1 * 0 = 0; rw [e4]
  | ⟨1, _⟩ => show win3_2.index t (1 : Fin 2) * 1024 + 1 * k.val = k.val; rw [e5]; omega

/-- Every tile's shift block is the whole shift row. -/
theorem b_block3 (t : Fin cfg3.N) (k : Fin 1024) :
    iblk3 V c 3 t (ix2 (0 : Fin 1) k) = V c main_v85 (ix2 (0 : Fin 1) k) := by
  unfold iblk3
  show V c main_v85 (((cfg3.win 3).blk t).view.emb (ix2 (0 : Fin 1) k)) = V c main_v85 (ix2 (0 : Fin 1) k)
  refine congrArg (V c main_v85) (funext fun a => Fin.ext ?_)
  obtain ⟨-, -, -, -, -, -, e6, e7, -⟩ := index_facts3 t
  match a with
  | ⟨0, _⟩ => show win3_3.index t (0 : Fin 2) * 1 + 1 * 0 = 0; rw [e6]
  | ⟨1, _⟩ => show win3_3.index t (1 : Fin 2) * 1024 + 1 * k.val = k.val; rw [e7]; omega

/-! ## The output array -/

/-- The last layer's product over the whole batch, entry by entry. -/
def lin3 : Fin 8192 → Fin 128 → EReal :=
  fun p q => mm (aff (mat (V c main_v66_0 : S8192x1024.Idx → EReal)) (mat (V c main_v81 : S1x1024.Idx → EReal) 0)
    (mat (V c main_v85 : S1x1024.Idx → EReal) 0)) (mat (V c main_v24 : S1024x128.Idx → EReal)) p q

/-- Entry (p, q) of tile t's product is entry (1024·t + p, q) of the whole one. -/
theorem tile3_point (t : Fin cfg3.N) (x0 : Vec Ideal S1024x1024 .bf16) (s b : Vec Ideal S1x1024 .f32)
    (w : Vec Ideal S1024x128 .bf16) (hx0 : x0 = iblk3 V c 0 t) (hs : s = iblk3 V c 2 t) (hb : b = iblk3 V c 3 t)
    (hw : w = iblk3 V c 1 t) (p : Fin 1024) (q : Fin 128) (P : Fin 8192) (Q : Fin 128)
    (hP : P.val = t.val * 1024 + p.val) (hQ : Q.val = q.val) :
    (∑ k : Fin 1024, (x0 (ix2 p k) * s (ix2 (0 : Fin 1) k) + b (ix2 (0 : Fin 1) k)) * w (ix2 k q)) = lin3 V c P Q := by
  unfold lin3 mm aff mat
  refine Finset.sum_congr rfl fun k _ => ?_
  rw [hx0, hs, hb, hw, h_block3 V c t p k P hP, w_block3 V c t k q Q hQ, s_block3 V c t k, b_block3 V c t k]

/-- What tile t writes back is block t of the product. -/
theorem flushed3_out (t : Fin cfg3.N) :
    (dat3 V c).flushed 4 t = ((cfg3.win 4).blk t).view.read (Elt Ideal) (fun i => lin3 V c (i 0) (i 1)) := by
  show (cfg3.win 4).cut (grid3.coords t) ((dat3 V c).after 4 t) = _
  rw [after3_4]
  unfold out3_4
  rw [View.canon_unit_zero zero_off2]
  simp only [View.ld_unit_zero (S := S1024x1024) zero_off2, View.ld_unit_zero (S := S1x1024) zero_off2,
    View.ld_unit_zero (S := S1024x128) zero_off2]
  obtain ⟨-, -, -, -, -, -, -, -, e8, e9⟩ := index_facts3 t
  funext j
  obtain ⟨p, q, rfl⟩ : ∃ (p : Fin 1024) (q : Fin 128), j = ix2 p q := ⟨j 0, j 1, eq_ix2 j⟩
  refine (final3_apply (iblk3 V c 0 t) (iblk3 V c 2 t) (iblk3 V c 3 t) (iblk3 V c 1 t) p q).trans ?_
  exact tile3_point V c t _ _ _ _ rfl rfl rfl rfl p q (((cfg3.win 4).blk t).view.emb (ix2 p q) 0)
    (((cfg3.win 4).blk t).view.emb (ix2 p q) 1)
    (by show win3_4.index t (0 : Fin 2) * 1024 + 1 * p.val = t.val * 1024 + p.val; rw [e8]; omega)
    (by show win3_4.index t (1 : Fin 2) * 128 + 1 * q.val = q.val; rw [e9]; omega)

/-- An index of the output array lies in tile t's block iff each coordinate lies in the block's range. -/
theorem mem_blk3_out (t : Fin cfg3.N) (i : S8192x128.Idx) :
    i ∈ ((cfg3.win 4).blk t).view.set ↔ ∀ a : Fin 2, win3_4.index t a * S1024x128.size a ≤ (i a).val
      ∧ (i a).val < win3_4.index t a * S1024x128.size a + S1024x128.size a := by
  show i ∈ ((View.whole main_v86).slice (win3_4.rect t)).set ↔ _
  rw [View.set_slice_whole, Rect.mem_set_unit]
  exact Iff.rfl

/-- Row p of the output array is written by tile p / 1024. -/
theorem cover3_out (i : S8192x128.Idx) :
    ∃ t : Fin cfg3.N, (cfg3.win 4).flush t = true ∧ i ∈ ((cfg3.win 4).blk t).view.set := by
  have hN : cfg3.N = 8 := N_3
  have hi0 : (i 0).val < 8192 := (i 0).isLt
  have hi1 : (i 1).val < 128 := (i 1).isLt
  have ht : (i 0).val / 1024 < cfg3.N := by rw [hN]; omega
  obtain ⟨-, -, -, -, -, -, -, -, e8, e9⟩ := index_facts3 ⟨(i 0).val / 1024, ht⟩
  refine ⟨⟨(i 0).val / 1024, ht⟩, flush3_4 _, ?_⟩
  rw [mem_blk3_out]
  intro a
  match a with
  | ⟨0, _⟩ =>
    show win3_4.index ⟨(i 0).val / 1024, ht⟩ (0 : Fin 2) * 1024 ≤ (i 0).val
      ∧ (i 0).val < win3_4.index ⟨(i 0).val / 1024, ht⟩ (0 : Fin 2) * 1024 + 1024
    rw [e8]; show (i 0).val / 1024 * 1024 ≤ (i 0).val ∧ (i 0).val < (i 0).val / 1024 * 1024 + 1024; omega
  | ⟨1, _⟩ =>
    show win3_4.index ⟨(i 0).val / 1024, ht⟩ (1 : Fin 2) * 128 ≤ (i 1).val
      ∧ (i 1).val < win3_4.index ⟨(i 0).val / 1024, ht⟩ (1 : Fin 2) * 128 + 128
    rw [e9]; omega

/-- The output array after the region: the product, entry by entry. -/
theorem out3_array : (dat3 V c).arrAt 4 cfg3.N = fun i => lin3 V c (i 0) (i 1) :=
  (dat3 V c).arrAt_eq_of_cover 4 (fun i => lin3 V c (i 0) (i 1)) (fun t _ => flushed3_out V c t) (cover3_out)

theorem region3_out :
    mat ((Gen.dat3 (F := Ideal) V c).arrAt 4 cfg3.N)
      = fun p q => mm (aff (mat (V c main_v66_0)) (mat (V c main_v81) 0) (mat (V c main_v85) 0))
          (mat (V c main_v24)) p q := by
  funext p q
  unfold mat
  rw [out3_array]
  rfl

end Cert.KernelIdeal.RegionValue

end
-- ==== Proof.LibKeepsOff.lean ====
/-
  A concatenation of nine, or of twelve, operands is printed as one operation over a literal family of references.
  Its result restated with each operand's contents AT ITS OWN REFERENCE (in place of a function of the position), so
  that reading a line of operations goes on through the operands; and the reading tactic extended by the two.
-/
import Idealize.ShloMosaic.Lib.StableHlo.Run

noncomputable section

namespace Cert.KRIdent

open Idealize.ShloMosaic

variable {τ : Topo} {sig : RefSig} {Val : EltTy → Type}

/-- `nary` over a LITERAL family of 9 references: the result with each operand's contents at its own reference. -/
theorem nary9_result {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (StableHlo.nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [StableHlo.nary_result]; congr 1; funext k; fin_cases k <;> rfl

/-- `nary` over a LITERAL family of 12 references: the result with each operand's contents at its own reference. -/
theorem nary12_result {x0 x1 x2 x3 x4 x5 x6 x7 x8 x9 x10 x11 y : Ref sig .tc}
    (f : ((k : Fin 12) → ((![x0, x1, x2, x3, x4, x5, x6, x7, x8, x9, x10, x11] : Fin 12 → Ref sig .tc) k).ty.Contents Val) → y.ty.Contents Val) (hxs hy)
    (F : Valuation τ sig Val) :
    (StableHlo.nary (τ := τ) ![x0, x1, x2, x3, x4, x5, x6, x7, x8, x9, x10, x11] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (fun i => i.elim0))))))))))))) := by
  rw [StableHlo.nary_result]; congr 1; funext k; fin_cases k <;> rfl

/-! ## What a line leaves unchanged, for any signature -/

/-- The fold over two lines one after the other is the second's fold over the first's. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- Every reference outside `W` keeps its contents through the line `l`. -/
def KeepsOff (W : List (Ref sig .tc)) (l : List (HloOp τ sig Val)) : Prop :=
  ∀ r : Ref sig .tc, r ∉ W → ∀ V : Valuation τ sig Val, StableHlo.after l V (Proc.devRef .tc r) = V (Proc.devRef .tc r)

theorem KeepsOff.of_writes {W : List (Ref sig .tc)} {l : List (HloOp τ sig Val)}
    (hW : l.Forall fun op => op.writes ⊆ (W.map (Proc.devRef (τ := τ) .tc)).toFinset) : KeepsOff W l :=
  fun _ h V => StableHlo.after_of_writes_sub l V hW h

theorem KeepsOff.append {W₁ W₂ : List (Ref sig .tc)} {l₁ l₂ : List (HloOp τ sig Val)} (h₁ : KeepsOff W₁ l₁)
    (h₂ : KeepsOff W₂ l₂) : KeepsOff (W₁ ++ W₂) (l₁ ++ l₂) := fun r h V => by
  rw [after_append, h₂ r (fun hm => h (List.mem_append_right _ hm)), h₁ r (fun hm => h (List.mem_append_left _ hm))]

/-- A result reference in the list is among the device buffers the list maps to. -/
theorem wsub {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

/-- Reading a line of operations at a reference in one pass, with the two restated results above. -/
macro "after_results_simp9" : tactic =>
  `(tactic| (simp (disch := decide) only [StableHlo.after_cons, StableHlo.after_nil,
      StableHlo.nullary_result', StableHlo.unary_result', StableHlo.binary_result', StableHlo.ternary_result',
      StableHlo.quaternary_result', StableHlo.reshape_result', nary9_result, nary12_result, StableHlo.nary_result',
      StableHlo.nullary_result_ne', StableHlo.unary_result_ne', StableHlo.binary_result_ne', StableHlo.ternary_result_ne',
      StableHlo.quaternary_result_ne', StableHlo.reshape_result_ne', StableHlo.nary_result_ne']))

end Cert.KRIdent

end
-- ==== Proof.KKept.lean ====
/-
  What the host operations of the kernel program leave alone.

  The program is a straight line of host operations cut by four regions. Each host operation writes one buffer of its
  own, and a region writes only its output arrays. So a buffer keeps its contents through every stretch of host
  operations that does not name it as a result, and through every region of which it is not an array. Followed
  backwards from the point where a buffer is read, this gives:

  * the three transposed sign matrices of the later layers, written before the first region, are still there when the
    region that multiplies by them is entered;
  * the six normalisation parameters, which are arguments and are never written, hold their launch contents at the
    stretch of host operations that reads them.
-/
import proofs.«124504_j45586782880351_2_alg».proof.Proof.Gen.KernelIdeal.Frame
import proofs.«124504_j45586782880351_2_alg».proof.Proof.LibKeepsOff

set_option maxRecDepth 16384

noncomputable section

namespace Cert.KernelIdeal.HostValue

open Idealize.ShloMosaic Idealize.ShloMosaic.TcCoe
open Cert.KernelIdeal Cert.KernelIdeal.Gen

/-! ## The buffers each stretch of host operations writes, in order -/

abbrev wr0 : List (Ref sig .tc) :=
  [main_cst, main_v0, main_v1, main_cst_0, main_cst_1]
abbrev wr0_1 : List (Ref sig .tc) :=
  [main_call0_v0, main_call0_v1, main_v2]
abbrev wr0_2 : List (Ref sig .tc) :=
  [main_v3, main_v4, main_v5, main_cst_2, main_v6, main_v7, main_cst_3, main_cst_4]
abbrev wr0_3 : List (Ref sig .tc) :=
  [main_call1_v0, main_call1_v1, main_v8]
abbrev wr0_4 : List (Ref sig .tc) :=
  [main_v9, main_v10, main_v11, main_cst_5, main_v12, main_v13, main_cst_6, main_cst_7]
abbrev wr0_5 : List (Ref sig .tc) :=
  [main_call2_v0, main_call2_v1, main_v14]
abbrev wr0_6 : List (Ref sig .tc) :=
  [main_v15, main_v16, main_v17, main_cst_8, main_v18, main_v19, main_cst_9, main_cst_10]
abbrev wr0_7 : List (Ref sig .tc) :=
  [main_call3_v0, main_call3_v1, main_v20]
abbrev wr0_8 : List (Ref sig .tc) :=
  [main_v21, main_v22, main_v23, main_c]
abbrev wr0_9 : List (Ref sig .tc) :=
  [main_call4_v0, main_v24]
abbrev wr0_10 : List (Ref sig .tc) :=
  [main_v25]
abbrev wr1 : List (Ref sig .tc) :=
  [main_cst_11, main_v27, main_cst_12, main_v28, main_cst_13, main_v29, main_v30, main_cst_14, main_v31, main_v32, main_v33, main_v34, main_cst_15, main_v35, main_v36, main_cst_16, main_v37, main_v38, main_v39, main_v40, main_v41, main_v42, main_v43, main_v44, main_v45]
abbrev wr2 : List (Ref sig .tc) :=
  [main_cst_17, main_v47, main_cst_18, main_v48, main_cst_19, main_v49, main_v50, main_cst_20, main_v51, main_v52, main_v53, main_v54, main_cst_21, main_v55, main_v56, main_cst_22, main_v57, main_v58, main_v59, main_v60, main_v61, main_v62, main_v63, main_v64, main_v65]
abbrev wr3 : List (Ref sig .tc) :=
  [main_cst_23, main_v67, main_cst_24, main_v68, main_cst_25, main_v69, main_v70, main_cst_26, main_v71, main_v72, main_v73, main_v74, main_cst_27, main_v75, main_v76, main_cst_28, main_v77, main_v78, main_v79, main_v80, main_v81, main_v82, main_v83, main_v84, main_v85]
abbrev wr4 : List (Ref sig .tc) :=
  [main_v87]

section Keeps
variable {F : FTy → Type} [FloatOps F]

/-- Every operation of the line writes a buffer of the list. -/
local macro "writes_in" ops:ident : tactic => `(tactic| (
  simp only [$ops:ident, List.Forall, StableHlo.nullary_writes, StableHlo.unary_writes, StableHlo.binary_writes,
    StableHlo.ternary_writes, StableHlo.reshape_writes]
  repeat' apply And.intro
  all_goals exact Cert.KRIdent.wsub (by decide)))

/-! ## A buffer a stretch does not write keeps its contents through it -/

theorem keeps0 (V : Valuation τ sig (Elt F)) {r : Ref sig .tc} (hr : r ∉ wr0) :
    StableHlo.after hostOps0 V (Proc.devRef .tc r) = V (Proc.devRef .tc r) :=
  StableHlo.after_of_writes_sub hostOps0 V (by writes_in hostOps0) hr
theorem keeps0_1 (V : Valuation τ sig (Elt F)) {r : Ref sig .tc} (hr : r ∉ wr0_1) :
    StableHlo.after hostOps0_1 V (Proc.devRef .tc r) = V (Proc.devRef .tc r) :=
  StableHlo.after_of_writes_sub hostOps0_1 V (by writes_in hostOps0_1) hr
theorem keeps0_2 (V : Valuation τ sig (Elt F)) {r : Ref sig .tc} (hr : r ∉ wr0_2) :
    StableHlo.after hostOps0_2 V (Proc.devRef .tc r) = V (Proc.devRef .tc r) :=
  StableHlo.after_of_writes_sub hostOps0_2 V (by writes_in hostOps0_2) hr
theorem keeps0_3 (V : Valuation τ sig (Elt F)) {r : Ref sig .tc} (hr : r ∉ wr0_3) :
    StableHlo.after hostOps0_3 V (Proc.devRef .tc r) = V (Proc.devRef .tc r) :=
  StableHlo.after_of_writes_sub hostOps0_3 V (by writes_in hostOps0_3) hr
theorem keeps0_4 (V : Valuation τ sig (Elt F)) {r : Ref sig .tc} (hr : r ∉ wr0_4) :
    StableHlo.after hostOps0_4 V (Proc.devRef .tc r) = V (Proc.devRef .tc r) :=
  StableHlo.after_of_writes_sub hostOps0_4 V (by writes_in hostOps0_4) hr
theorem keeps0_5 (V : Valuation τ sig (Elt F)) {r : Ref sig .tc} (hr : r ∉ wr0_5) :
    StableHlo.after hostOps0_5 V (Proc.devRef .tc r) = V (Proc.devRef .tc r) :=
  StableHlo.after_of_writes_sub hostOps0_5 V (by writes_in hostOps0_5) hr
theorem keeps0_6 (V : Valuation τ sig (Elt F)) {r : Ref sig .tc} (hr : r ∉ wr0_6) :
    StableHlo.after hostOps0_6 V (Proc.devRef .tc r) = V (Proc.devRef .tc r) :=
  StableHlo.after_of_writes_sub hostOps0_6 V (by writes_in hostOps0_6) hr
theorem keeps0_7 (V : Valuation τ sig (Elt F)) {r : Ref sig .tc} (hr : r ∉ wr0_7) :
    StableHlo.after hostOps0_7 V (Proc.devRef .tc r) = V (Proc.devRef .tc r) :=
  StableHlo.after_of_writes_sub hostOps0_7 V (by writes_in hostOps0_7) hr
theorem keeps0_8 (V : Valuation τ sig (Elt F)) {r : Ref sig .tc} (hr : r ∉ wr0_8) :
    StableHlo.after hostOps0_8 V (Proc.devRef .tc r) = V (Proc.devRef .tc r) :=
  StableHlo.after_of_writes_sub hostOps0_8 V (by writes_in hostOps0_8) hr
theorem keeps0_9 (V : Valuation τ sig (Elt F)) {r : Ref sig .tc} (hr : r ∉ wr0_9) :
    StableHlo.after hostOps0_9 V (Proc.devRef .tc r) = V (Proc.devRef .tc r) :=
  StableHlo.after_of_writes_sub hostOps0_9 V (by writes_in hostOps0_9) hr
theorem keeps0_10 (V : Valuation τ sig (Elt F)) {r : Ref sig .tc} (hr : r ∉ wr0_10) :
    StableHlo.after hostOps0_10 V (Proc.devRef .tc r) = V (Proc.devRef .tc r) :=
  StableHlo.after_of_writes_sub hostOps0_10 V (by writes_in hostOps0_10) hr
theorem keeps1 (V : Valuation τ sig (Elt F)) {r : Ref sig .tc} (hr : r ∉ wr1) :
    StableHlo.after hostOps1 V (Proc.devRef .tc r) = V (Proc.devRef .tc r) :=
  StableHlo.after_of_writes_sub hostOps1 V (by writes_in hostOps1) hr
theorem keeps2 (V : Valuation τ sig (Elt F)) {r : Ref sig .tc} (hr : r ∉ wr2) :
    StableHlo.after hostOps2 V (Proc.devRef .tc r) = V (Proc.devRef .tc r) :=
  StableHlo.after_of_writes_sub hostOps2 V (by writes_in hostOps2) hr
theorem keeps3 (V : Valuation τ sig (Elt F)) {r : Ref sig .tc} (hr : r ∉ wr3) :
    StableHlo.after hostOps3 V (Proc.devRef .tc r) = V (Proc.devRef .tc r) :=
  StableHlo.after_of_writes_sub hostOps3 V (by writes_in hostOps3) hr
theorem keeps4 (V : Valuation τ sig (Elt F)) {r : Ref sig .tc} (hr : r ∉ wr4) :
    StableHlo.after hostOps4 V (Proc.devRef .tc r) = V (Proc.devRef .tc r) :=
  StableHlo.after_of_writes_sub hostOps4 V (by writes_in hostOps4) hr

end Keeps

section Kept
variable {F : FTy → Type} [FloatOps F]
variable (m : (ℓ : Loc nD τ sig) → Buf (Elt F) ℓ) (ρ : Dev nD → PrngReg) (c : Dev nD)

/-- A buffer none of the eleven stretches before the first region writes holds its launch contents there. -/
theorem W11_launch {r : Ref sig .tc} (h0 : r ∉ wr0) (h1 : r ∉ wr0_1) (h2 : r ∉ wr0_2) (h3 : r ∉ wr0_3) (h4 : r ∉ wr0_4)
    (h5 : r ∉ wr0_5) (h6 : r ∉ wr0_6) (h7 : r ∉ wr0_7) (h8 : r ∉ wr0_8) (h9 : r ∉ wr0_9) (h10 : r ∉ wr0_10) :
    W11 m ρ c (Proc.devRef .tc r) = W0 m ρ c (Proc.devRef .tc r) :=
  calc W11 m ρ c (Proc.devRef .tc r)
    _ = W10 m ρ c (Proc.devRef .tc r) := keeps0_10 _ h10
    _ = W9 m ρ c (Proc.devRef .tc r) := keeps0_9 _ h9
    _ = W8 m ρ c (Proc.devRef .tc r) := keeps0_8 _ h8
    _ = W7 m ρ c (Proc.devRef .tc r) := keeps0_7 _ h7
    _ = W6 m ρ c (Proc.devRef .tc r) := keeps0_6 _ h6
    _ = W5 m ρ c (Proc.devRef .tc r) := keeps0_5 _ h5
    _ = W4 m ρ c (Proc.devRef .tc r) := keeps0_4 _ h4
    _ = W3 m ρ c (Proc.devRef .tc r) := keeps0_3 _ h3
    _ = W2 m ρ c (Proc.devRef .tc r) := keeps0_2 _ h2
    _ = W1 m ρ c (Proc.devRef .tc r) := keeps0_1 _ h1
    _ = W0 m ρ c (Proc.devRef .tc r) := keeps0 _ h0

/-- From the first region's entry to the second's: the first region's arrays and the host operations between. -/
theorem W13_of_W11 {r : Ref sig .tc} (ha : ∀ w, Pipeline.arrRef spec0 w ≠ r) (hw : r ∉ wr1) :
    W13 m ρ c (Proc.devRef .tc r) = W11 m ρ c (Proc.devRef .tc r) :=
  (keeps1 _ hw).trans (W12_of_ne m ρ c r ha)

/-- From the second region's entry to the third's. -/
theorem W15_of_W13 {r : Ref sig .tc} (ha : ∀ w, Pipeline.arrRef spec1 w ≠ r) (hw : r ∉ wr2) :
    W15 m ρ c (Proc.devRef .tc r) = W13 m ρ c (Proc.devRef .tc r) :=
  (keeps2 _ hw).trans (W14_of_ne m ρ c r ha)

/-- From the third region's entry to the fourth's. -/
theorem W17_of_W15 {r : Ref sig .tc} (ha : ∀ w, Pipeline.arrRef spec2 w ≠ r) (hw : r ∉ wr3) :
    W17 m ρ c (Proc.devRef .tc r) = W15 m ρ c (Proc.devRef .tc r) :=
  (keeps3 _ hw).trans (W16_of_ne m ρ c r ha)

/-! ## The sign matrices of layers two, three and four when their region is entered -/

theorem kept_v11 : W13 m ρ c (Proc.devRef .tc main_v11) = W11 m ρ c (Proc.devRef .tc main_v11) :=
  W13_of_W11 m ρ c (by decide) (by decide)

theorem kept_v17 : W15 m ρ c (Proc.devRef .tc main_v17) = W11 m ρ c (Proc.devRef .tc main_v17) :=
  (W15_of_W13 m ρ c (by decide) (by decide)).trans (W13_of_W11 m ρ c (by decide) (by decide))

theorem kept_v24 : W17 m ρ c (Proc.devRef .tc main_v24) = W11 m ρ c (Proc.devRef .tc main_v24) :=
  (W17_of_W15 m ρ c (by decide) (by decide)).trans
    ((W15_of_W13 m ρ c (by decide) (by decide)).trans (W13_of_W11 m ρ c (by decide) (by decide)))

/-! ## The normalisation parameters where the host operations read them -/

theorem arg5_12 : W12 m ρ c (Proc.devRef .tc main_arg5) = m ((c : Thread nD τ).loc main_arg5) :=
  (W12_of_ne m ρ c main_arg5 (by decide)).trans
    (W11_launch m ρ c (by decide) (by decide) (by decide) (by decide) (by decide) (by decide) (by decide) (by decide)
      (by decide) (by decide) (by decide))

theorem arg6_12 : W12 m ρ c (Proc.devRef .tc main_arg6) = m ((c : Thread nD τ).loc main_arg6) :=
  (W12_of_ne m ρ c main_arg6 (by decide)).trans
    (W11_launch m ρ c (by decide) (by decide) (by decide) (by decide) (by decide) (by decide) (by decide) (by decide)
      (by decide) (by decide) (by decide))

theorem arg7_14 : W14 m ρ c (Proc.devRef .tc main_arg7) = m ((c : Thread nD τ).loc main_arg7) :=
  (W14_of_ne m ρ c main_arg7 (by decide)).trans ((W13_of_W11 m ρ c (by decide) (by decide)).trans
    (W11_launch m ρ c (by decide) (by decide) (by decide) (by decide) (by decide) (by decide) (by decide) (by decide)
      (by decide) (by decide) (by decide)))

theorem arg8_14 : W14 m ρ c (Proc.devRef .tc main_arg8) = m ((c : Thread nD τ).loc main_arg8) :=
  (W14_of_ne m ρ c main_arg8 (by decide)).trans ((W13_of_W11 m ρ c (by decide) (by decide)).trans
    (W11_launch m ρ c (by decide) (by decide) (by decide) (by decide) (by decide) (by decide) (by decide) (by decide)
      (by decide) (by decide) (by decide)))

theorem arg9_16 : W16 m ρ c (Proc.devRef .tc main_arg9) = m ((c : Thread nD τ).loc main_arg9) :=
  (W16_of_ne m ρ c main_arg9 (by decide)).trans ((W15_of_W13 m ρ c (by decide) (by decide)).trans
    ((W13_of_W11 m ρ c (by decide) (by decide)).trans
    (W11_launch m ρ c (by decide) (by decide) (by decide) (by decide) (by decide) (by decide) (by decide) (by decide)
      (by decide) (by decide) (by decide))))

theorem arg10_16 : W16 m ρ c (Proc.devRef .tc main_arg10) = m ((c : Thread nD τ).loc main_arg10) :=
  (W16_of_ne m ρ c main_arg10 (by decide)).trans ((W15_of_W13 m ρ c (by decide) (by decide)).trans
    ((W13_of_W11 m ρ c (by decide) (by decide)).trans
    (W11_launch m ρ c (by decide) (by decide) (by decide) (by decide) (by decide) (by decide) (by decide) (by decide)
      (by decide) (by decide) (by decide))))

end Kept

end Cert.KernelIdeal.HostValue

end
-- ==== Proof.LibBufCast.lean ====
/-
  Contents carried to a buffer's own type and back.

  A host operation of a module-local function is spelt over typed references: a reference together with the proof that
  its buffer's type is the value's type. What the operation reads is carried from the buffer's type to the value's, and
  what it writes is carried back, both along that proof. Carrying a value to the buffer's type and straight back gives
  the value again, whatever the proof: this removes, by rewriting, the pairs of transports that reading one operation's
  result into the next operation leaves behind.
-/
import Idealize.ShloMosaic.Lib.StableHlo

namespace Idealize.ShloMosaic.StableHlo.TRef

variable {sig : RefSig} {T : BufTy} {Val : EltTy → Type}

/-- Contents moved to a buffer's own type and back are the contents. -/
theorem ofBuf_toBuf (x : TRef sig T) (v : T.Contents Val) : x.ofBuf (x.toBuf v) = v := by
  obtain ⟨r, h, h1, h2⟩ := x
  subst h
  rfl

/-- Contents of a buffer moved to the value's type and back are the contents. -/
theorem toBuf_ofBuf (x : TRef sig T) (v : x.ref.ty.Contents Val) : x.toBuf (x.ofBuf v) = v := by
  obtain ⟨r, h, h1, h2⟩ := x
  subst h
  rfl

end Idealize.ShloMosaic.StableHlo.TRef
-- ==== Proof.KWeights.lean ====
/-
  What the host operations of the kernel program compute before the first region and after the last.

  Before the first region the program turns each weight matrix into the transposed matrix of its signs: it compares the
  weights with a matrix of zeros, selects between a matrix of ones and a matrix of minus ones on the outcome, transposes,
  and changes the float format (which does nothing on the extended reals). Entry (k, q) of the result is therefore the
  sign of entry (q, k) of the weights, the sign of w being the selection between the two words on the outcome of
  w ≥ 0, exactly as the network's definition spells it; no word is evaluated. The fourth matrix, which has ten
  columns, is then padded on the right to 128 columns, and its first ten columns are the signs. The input images are
  re-read as one row of 3072 entries each.

  After the last region the program keeps the first ten of the 128 columns of that region's output.

  Each buffer is followed from the stretch of host operations that writes it to the first region's entry through the
  stretches that do not write it.
-/
import proofs.«124504_j45586782880351_2_alg».proof.Proof.Gen.KernelIdeal.Frame
import proofs.«124504_j45586782880351_2_alg».proof.Proof.Net
import proofs.«124504_j45586782880351_2_alg».proof.Proof.KKept
import proofs.«124504_j45586782880351_2_alg».proof.Proof.LibMatLayout
import proofs.«124504_j45586782880351_2_alg».proof.Proof.LibBufCast
import Idealize.ShloMosaic.Lib.Pipeline.Value
import Idealize.ShloMosaic.Lib.ValueIdx
import Idealize.ShloMosaic.Lib.KernelVsHost

set_option maxRecDepth 16384

noncomputable section

namespace Cert.KernelIdeal.HostValue

open Idealize.ShloMosaic Idealize.ShloMosaic.TcCoe Idealize.ShloMosaic.ValueIdx
open Cert.KernelIdeal Cert.KernelIdeal.Gen Cert.BinNet

variable (m : (ℓ : Loc nD τ sig) → Buf (Elt Ideal) ℓ) (ρ : Dev nD → PrngReg) (c : Dev nD)

/-! ## Following a buffer through the stretches that do not write it -/

theorem W2_launch {r : Ref sig .tc} (h0 : r ∉ wr0) (h1 : r ∉ wr0_1) :
    W2 m ρ c (Proc.devRef .tc r) = W0 m ρ c (Proc.devRef .tc r) :=
  (keeps0_1 _ h1).trans (keeps0 _ h0)

theorem W4_launch {r : Ref sig .tc} (h0 : r ∉ wr0) (h1 : r ∉ wr0_1) (h2 : r ∉ wr0_2) (h3 : r ∉ wr0_3) :
    W4 m ρ c (Proc.devRef .tc r) = W0 m ρ c (Proc.devRef .tc r) :=
  (keeps0_3 _ h3).trans ((keeps0_2 _ h2).trans (W2_launch m ρ c h0 h1))

theorem W6_launch {r : Ref sig .tc} (h0 : r ∉ wr0) (h1 : r ∉ wr0_1) (h2 : r ∉ wr0_2) (h3 : r ∉ wr0_3) (h4 : r ∉ wr0_4)
    (h5 : r ∉ wr0_5) : W6 m ρ c (Proc.devRef .tc r) = W0 m ρ c (Proc.devRef .tc r) :=
  (keeps0_5 _ h5).trans ((keeps0_4 _ h4).trans (W4_launch m ρ c h0 h1 h2 h3))

theorem W10_launch {r : Ref sig .tc} (h0 : r ∉ wr0) (h1 : r ∉ wr0_1) (h2 : r ∉ wr0_2) (h3 : r ∉ wr0_3) (h4 : r ∉ wr0_4)
    (h5 : r ∉ wr0_5) (h6 : r ∉ wr0_6) (h7 : r ∉ wr0_7) (h8 : r ∉ wr0_8) (h9 : r ∉ wr0_9) :
    W10 m ρ c (Proc.devRef .tc r) = W0 m ρ c (Proc.devRef .tc r) :=
  (keeps0_9 _ h9).trans ((keeps0_8 _ h8).trans ((keeps0_7 _ h7).trans ((keeps0_6 _ h6).trans
    (W6_launch m ρ c h0 h1 h2 h3 h4 h5))))

theorem W11_of_W7 {r : Ref sig .tc} (h7 : r ∉ wr0_7) (h8 : r ∉ wr0_8) (h9 : r ∉ wr0_9) (h10 : r ∉ wr0_10) :
    W11 m ρ c (Proc.devRef .tc r) = W7 m ρ c (Proc.devRef .tc r) :=
  (keeps0_10 _ h10).trans ((keeps0_9 _ h9).trans ((keeps0_8 _ h8).trans (keeps0_7 _ h7)))

theorem W11_of_W5 {r : Ref sig .tc} (h5 : r ∉ wr0_5) (h6 : r ∉ wr0_6) (h7 : r ∉ wr0_7) (h8 : r ∉ wr0_8) (h9 : r ∉ wr0_9)
    (h10 : r ∉ wr0_10) : W11 m ρ c (Proc.devRef .tc r) = W5 m ρ c (Proc.devRef .tc r) :=
  (W11_of_W7 m ρ c h7 h8 h9 h10).trans ((keeps0_6 _ h6).trans (keeps0_5 _ h5))

theorem W11_of_W3 {r : Ref sig .tc} (h3 : r ∉ wr0_3) (h4 : r ∉ wr0_4) (h5 : r ∉ wr0_5) (h6 : r ∉ wr0_6) (h7 : r ∉ wr0_7)
    (h8 : r ∉ wr0_8) (h9 : r ∉ wr0_9) (h10 : r ∉ wr0_10) :
    W11 m ρ c (Proc.devRef .tc r) = W3 m ρ c (Proc.devRef .tc r) :=
  (W11_of_W5 m ρ c h5 h6 h7 h8 h9 h10).trans ((keeps0_4 _ h4).trans (keeps0_3 _ h3))

/-! ## Layer one: the signs of `main_arg1`, transposed -/

/-- The comparison with zero and the selection between the two words, from any contents `V` before them. -/
theorem main_v2_of (V : Valuation τ sig (Elt Ideal)) :
    (StableHlo.after hostOps0_1 (StableHlo.after hostOps0 V) (Proc.devRef .tc main_v2) : S1024x3072.Idx → EReal)
      = select (cmpf .oge (V (Proc.devRef .tc main_arg1) : FVec Ideal S1024x3072 .f32)
            (broadcastInDim S1024x3072 ![] bcast_S_S1024x3072 (constant (F := Ideal) S_ .f32 0x00000000#32)))
          (broadcastInDim S1024x3072 ![] bcast_S_S1024x3072 (constant (F := Ideal) S_ .f32 0x3F800000#32))
          (broadcastInDim S1024x3072 ![] bcast_S_S1024x3072 (constant (F := Ideal) S_ .f32 0xBF800000#32)) := by
  after_results_simp
  simp only [StableHlo.TRef.ofBuf_toBuf]
  rfl

/-- Entry by entry, that is the sign of the weight. -/
theorem main_v2_apply (q : Fin 1024) (k : Fin 3072) :
    (W2 m ρ c (Proc.devRef .tc main_v2) : S1024x3072.Idx → EReal) (ix2 q k)
      = sgn (mat (m ((c : Thread nD τ).loc main_arg1)) q k) := by
  have ea : W0 m ρ c (Proc.devRef .tc main_arg1) = m ((c : Thread nD τ).loc main_arg1) :=
    rfl
  show (StableHlo.after hostOps0_1 (StableHlo.after hostOps0 (W0 m ρ c)) (Proc.devRef .tc main_v2) : S1024x3072.Idx → EReal)
    (ix2 q k) = _
  rw [main_v2_of, ea]; rfl

/-- The transposition and the change of format, from any contents `V` before them. -/
theorem main_v5_of (V : Valuation τ sig (Elt Ideal)) :
    (StableHlo.after hostOps0_2 V (Proc.devRef .tc main_v5) : S3072x1024.Idx → EReal)
      = (truncf .bf16 (transpose S3072x1024 [1, 0] (id (V (Proc.devRef .tc main_v2) : FVec Ideal S1024x3072 .f32))
          transposes_S1024x3072_S3072x1024_1_0 : FVec Ideal S3072x1024 .f32) bitsLt_bf16_f32 : FVec Ideal S3072x1024 .bf16) := by
  after_results_simp
  first | done | rfl

/-- The transposed matrix, entry by entry, where it is written. -/
theorem main_v5_apply (k : Fin 3072) (q : Fin 1024) :
    (W3 m ρ c (Proc.devRef .tc main_v5) : S3072x1024.Idx → EReal) (ix2 k q)
      = (W2 m ρ c (Proc.devRef .tc main_v2) : S1024x3072.Idx → EReal) (ix2 q k) := by
  show (StableHlo.after hostOps0_2 (W2 m ρ c) (Proc.devRef .tc main_v5) : S3072x1024.Idx → EReal) (ix2 k q) = _
  rw [main_v5_of, truncf_apply]
  exact Cert.LibMatLayout.transpose_ab_ba_apply _ _ k q

/-- **The first layer's matrix at the first region's entry** is the transposed sign matrix of the first weights. -/
theorem signs1 : mat (W11 m ρ c (Proc.devRef .tc main_v5)) = signT (mat (m ((c : Thread nD τ).loc main_arg1))) := by
  funext k q
  have h : W11 m ρ c (Proc.devRef .tc main_v5) = W3 m ρ c (Proc.devRef .tc main_v5) :=
    W11_of_W3 m ρ c (by decide) (by decide) (by decide) (by decide) (by decide) (by decide) (by decide) (by decide)
  show (W11 m ρ c (Proc.devRef .tc main_v5) : S3072x1024.Idx → EReal) (ix2 k q)
    = sgn (mat (m ((c : Thread nD τ).loc main_arg1)) q k)
  rw [h, main_v5_apply, main_v2_apply]

/-! ## Layer two: the signs of `main_arg2`, transposed -/

/-- The comparison with zero and the selection between the two words, from any contents `V` before them. -/
theorem main_v8_of (V : Valuation τ sig (Elt Ideal)) :
    (StableHlo.after hostOps0_3 (StableHlo.after hostOps0_2 V) (Proc.devRef .tc main_v8) : S1024x1024.Idx → EReal)
      = select (cmpf .oge (V (Proc.devRef .tc main_arg2) : FVec Ideal S1024x1024 .f32)
            (broadcastInDim S1024x1024 ![] bcast_S_S1024x1024 (constant (F := Ideal) S_ .f32 0x00000000#32)))
          (broadcastInDim S1024x1024 ![] bcast_S_S1024x1024 (constant (F := Ideal) S_ .f32 0x3F800000#32))
          (broadcastInDim S1024x1024 ![] bcast_S_S1024x1024 (constant (F := Ideal) S_ .f32 0xBF800000#32)) := by
  after_results_simp
  simp only [StableHlo.TRef.ofBuf_toBuf]
  rfl

/-- Entry by entry, that is the sign of the weight. -/
theorem main_v8_apply (q : Fin 1024) (k : Fin 1024) :
    (W4 m ρ c (Proc.devRef .tc main_v8) : S1024x1024.Idx → EReal) (ix2 q k)
      = sgn (mat (m ((c : Thread nD τ).loc main_arg2)) q k) := by
  have ea : W2 m ρ c (Proc.devRef .tc main_arg2) = m ((c : Thread nD τ).loc main_arg2) :=
    W2_launch m ρ c (by decide) (by decide)
  show (StableHlo.after hostOps0_3 (StableHlo.after hostOps0_2 (W2 m ρ c)) (Proc.devRef .tc main_v8) : S1024x1024.Idx → EReal)
    (ix2 q k) = _
  rw [main_v8_of, ea]; rfl

/-- The transposition and the change of format, from any contents `V` before them. -/
theorem main_v11_of (V : Valuation τ sig (Elt Ideal)) :
    (StableHlo.after hostOps0_4 V (Proc.devRef .tc main_v11) : S1024x1024.Idx → EReal)
      = (truncf .bf16 (transpose S1024x1024 [1, 0] (id (V (Proc.devRef .tc main_v8) : FVec Ideal S1024x1024 .f32))
          transposes_S1024x1024_S1024x1024_1_0 : FVec Ideal S1024x1024 .f32) bitsLt_bf16_f32 : FVec Ideal S1024x1024 .bf16) := by
  after_results_simp
  first | done | rfl

/-- The transposed matrix, entry by entry, where it is written. -/
theorem main_v11_apply (k : Fin 1024) (q : Fin 1024) :
    (W5 m ρ c (Proc.devRef .tc main_v11) : S1024x1024.Idx → EReal) (ix2 k q)
      = (W4 m ρ c (Proc.devRef .tc main_v8) : S1024x1024.Idx → EReal) (ix2 q k) := by
  show (StableHlo.after hostOps0_4 (W4 m ρ c) (Proc.devRef .tc main_v11) : S1024x1024.Idx → EReal) (ix2 k q) = _
  rw [main_v11_of, truncf_apply]
  exact Cert.LibMatLayout.transpose_ab_ba_apply _ _ k q

/-- **The second layer's matrix at the first region's entry.** -/
theorem signs2 : mat (W11 m ρ c (Proc.devRef .tc main_v11)) = signT (mat (m ((c : Thread nD τ).loc main_arg2))) := by
  funext k q
  have h : W11 m ρ c (Proc.devRef .tc main_v11) = W5 m ρ c (Proc.devRef .tc main_v11) :=
    W11_of_W5 m ρ c (by decide) (by decide) (by decide) (by decide) (by decide) (by decide)
  show (W11 m ρ c (Proc.devRef .tc main_v11) : S1024x1024.Idx → EReal) (ix2 k q)
    = sgn (mat (m ((c : Thread nD τ).loc main_arg2)) q k)
  rw [h, main_v11_apply, main_v8_apply]

/-! ## Layer three: the signs of `main_arg3`, transposed -/

/-- The comparison with zero and the selection between the two words, from any contents `V` before them. -/
theorem main_v14_of (V : Valuation τ sig (Elt Ideal)) :
    (StableHlo.after hostOps0_5 (StableHlo.after hostOps0_4 V) (Proc.devRef .tc main_v14) : S1024x1024.Idx → EReal)
      = select (cmpf .oge (V (Proc.devRef .tc main_arg3) : FVec Ideal S1024x1024 .f32)
            (broadcastInDim S1024x1024 ![] bcast_S_S1024x1024 (constant (F := Ideal) S_ .f32 0x00000000#32)))
          (broadcastInDim S1024x1024 ![] bcast_S_S1024x1024 (constant (F := Ideal) S_ .f32 0x3F800000#32))
          (broadcastInDim S1024x1024 ![] bcast_S_S1024x1024 (constant (F := Ideal) S_ .f32 0xBF800000#32)) := by
  after_results_simp
  simp only [StableHlo.TRef.ofBuf_toBuf]
  rfl

/-- Entry by entry, that is the sign of the weight. -/
theorem main_v14_apply (q : Fin 1024) (k : Fin 1024) :
    (W6 m ρ c (Proc.devRef .tc main_v14) : S1024x1024.Idx → EReal) (ix2 q k)
      = sgn (mat (m ((c : Thread nD τ).loc main_arg3)) q k) := by
  have ea : W4 m ρ c (Proc.devRef .tc main_arg3) = m ((c : Thread nD τ).loc main_arg3) :=
    W4_launch m ρ c (by decide) (by decide) (by decide) (by decide)
  show (StableHlo.after hostOps0_5 (StableHlo.after hostOps0_4 (W4 m ρ c)) (Proc.devRef .tc main_v14) : S1024x1024.Idx → EReal)
    (ix2 q k) = _
  rw [main_v14_of, ea]; rfl

/-- The transposition and the change of format, from any contents `V` before them. -/
theorem main_v17_of (V : Valuation τ sig (Elt Ideal)) :
    (StableHlo.after hostOps0_6 V (Proc.devRef .tc main_v17) : S1024x1024.Idx → EReal)
      = (truncf .bf16 (transpose S1024x1024 [1, 0] (id (V (Proc.devRef .tc main_v14) : FVec Ideal S1024x1024 .f32))
          transposes_S1024x1024_S1024x1024_1_0 : FVec Ideal S1024x1024 .f32) bitsLt_bf16_f32 : FVec Ideal S1024x1024 .bf16) := by
  after_results_simp
  first | done | rfl

/-- The transposed matrix, entry by entry, where it is written. -/
theorem main_v17_apply (k : Fin 1024) (q : Fin 1024) :
    (W7 m ρ c (Proc.devRef .tc main_v17) : S1024x1024.Idx → EReal) (ix2 k q)
      = (W6 m ρ c (Proc.devRef .tc main_v14) : S1024x1024.Idx → EReal) (ix2 q k) := by
  show (StableHlo.after hostOps0_6 (W6 m ρ c) (Proc.devRef .tc main_v17) : S1024x1024.Idx → EReal) (ix2 k q) = _
  rw [main_v17_of, truncf_apply]
  exact Cert.LibMatLayout.transpose_ab_ba_apply _ _ k q

/-- **The third layer's matrix at the first region's entry.** -/
theorem signs3 : mat (W11 m ρ c (Proc.devRef .tc main_v17)) = signT (mat (m ((c : Thread nD τ).loc main_arg3))) := by
  funext k q
  have h : W11 m ρ c (Proc.devRef .tc main_v17) = W7 m ρ c (Proc.devRef .tc main_v17) :=
    W11_of_W7 m ρ c (by decide) (by decide) (by decide) (by decide)
  show (W11 m ρ c (Proc.devRef .tc main_v17) : S1024x1024.Idx → EReal) (ix2 k q)
    = sgn (mat (m ((c : Thread nD τ).loc main_arg3)) q k)
  rw [h, main_v17_apply, main_v14_apply]

/-! ## Layer four: the signs of `main_arg4`, transposed -/

/-- The comparison with zero and the selection between the two words, from any contents `V` before them. -/
theorem main_v20_of (V : Valuation τ sig (Elt Ideal)) :
    (StableHlo.after hostOps0_7 (StableHlo.after hostOps0_6 V) (Proc.devRef .tc main_v20) : S10x1024.Idx → EReal)
      = select (cmpf .oge (V (Proc.devRef .tc main_arg4) : FVec Ideal S10x1024 .f32)
            (broadcastInDim S10x1024 ![] bcast_S_S10x1024 (constant (F := Ideal) S_ .f32 0x00000000#32)))
          (broadcastInDim S10x1024 ![] bcast_S_S10x1024 (constant (F := Ideal) S_ .f32 0x3F800000#32))
          (broadcastInDim S10x1024 ![] bcast_S_S10x1024 (constant (F := Ideal) S_ .f32 0xBF800000#32)) := by
  after_results_simp
  simp only [StableHlo.TRef.ofBuf_toBuf]
  rfl

/-- Entry by entry, that is the sign of the weight. -/
theorem main_v20_apply (q : Fin 10) (k : Fin 1024) :
    (W8 m ρ c (Proc.devRef .tc main_v20) : S10x1024.Idx → EReal) (ix2 q k)
      = sgn (mat (m ((c : Thread nD τ).loc main_arg4)) q k) := by
  have ea : W6 m ρ c (Proc.devRef .tc main_arg4) = m ((c : Thread nD τ).loc main_arg4) :=
    W6_launch m ρ c (by decide) (by decide) (by decide) (by decide) (by decide) (by decide)
  show (StableHlo.after hostOps0_7 (StableHlo.after hostOps0_6 (W6 m ρ c)) (Proc.devRef .tc main_v20) : S10x1024.Idx → EReal)
    (ix2 q k) = _
  rw [main_v20_of, ea]; rfl

/-- The transposition and the change of format, from any contents `V` before them. -/
theorem main_v23_of (V : Valuation τ sig (Elt Ideal)) :
    (StableHlo.after hostOps0_8 V (Proc.devRef .tc main_v23) : S1024x10.Idx → EReal)
      = (truncf .bf16 (transpose S1024x10 [1, 0] (id (V (Proc.devRef .tc main_v20) : FVec Ideal S10x1024 .f32))
          transposes_S10x1024_S1024x10_1_0 : FVec Ideal S1024x10 .f32) bitsLt_bf16_f32 : FVec Ideal S1024x10 .bf16) := by
  after_results_simp
  first | done | rfl

/-- The transposed matrix, entry by entry, where it is written. -/
theorem main_v23_apply (k : Fin 1024) (q : Fin 10) :
    (W9 m ρ c (Proc.devRef .tc main_v23) : S1024x10.Idx → EReal) (ix2 k q)
      = (W8 m ρ c (Proc.devRef .tc main_v20) : S10x1024.Idx → EReal) (ix2 q k) := by
  show (StableHlo.after hostOps0_8 (W8 m ρ c) (Proc.devRef .tc main_v23) : S1024x10.Idx → EReal) (ix2 k q) = _
  rw [main_v23_of, truncf_apply]
  exact Cert.LibMatLayout.transpose_ab_ba_apply _ _ k q

/-- The padding on the right to 128 columns, from any contents `V` before it, with whatever value `v` fills the new
    columns. -/
theorem main_v24_of (V : Valuation τ sig (Elt Ideal)) :
    ∃ v : FVec Ideal S_ .bf16, (StableHlo.after hostOps0_9 V (Proc.devRef .tc main_v24) : S1024x128.Idx → EReal)
      = pad S1024x128 ![0, 0] ![0, 118] ![0, 0] (V (Proc.devRef .tc main_v23) : FVec Ideal S1024x10 .bf16) v
          pads_S1024x10_S1024x128_000_01180 h_S_ := by
  refine ⟨?_, ?_⟩
  swap
  after_results_simp
  try simp only [StableHlo.TRef.ofBuf_toBuf]
  rfl

/-- The padding leaves the first ten columns as they were. -/
theorem main_v24_apply (k : Fin 1024) (q : Fin 10) :
    (W10 m ρ c (Proc.devRef .tc main_v24) : S1024x128.Idx → EReal) (ix2 k ⟨q.val, by omega⟩)
      = (W9 m ρ c (Proc.devRef .tc main_v23) : S1024x10.Idx → EReal) (ix2 k q) := by
  obtain ⟨v, e⟩ := main_v24_of (W9 m ρ c)
  show (StableHlo.after hostOps0_9 (W9 m ρ c) (Proc.devRef .tc main_v24) : S1024x128.Idx → EReal)
    (ix2 k ⟨q.val, by omega⟩) = _
  rw [e]
  refine pad_apply_of_inside _ _ _ _ _ _ _ _ (ix2 k q) fun a => ?_
  match a with
  | ⟨0, _⟩ => show k.val = 0 + k.val * (0 + 1); omega
  | ⟨1, _⟩ => show q.val = 0 + q.val * (0 + 1); omega

/-- **The last layer's matrix at the first region's entry**: its first ten columns are the transposed signs of the
    last weights. -/
theorem signs4 (k : Fin 1024) (q : Fin 10) :
    mat (W11 m ρ c (Proc.devRef .tc main_v24)) k ⟨q.val, by omega⟩
      = signT (mat (m ((c : Thread nD τ).loc main_arg4))) k q := by
  have h : W11 m ρ c (Proc.devRef .tc main_v24) = W10 m ρ c (Proc.devRef .tc main_v24) := keeps0_10 _ (by decide)
  show (W11 m ρ c (Proc.devRef .tc main_v24) : S1024x128.Idx → EReal) (ix2 k ⟨q.val, by omega⟩)
    = sgn (mat (m ((c : Thread nD τ).loc main_arg4)) q k)
  rw [h, main_v24_apply, main_v23_apply, main_v20_apply]

/-! ## The images, one row each -/

/-- The re-reading of the images in row-major order, from any contents `V` before it. -/
theorem main_v25_of (V : Valuation τ sig (Elt Ideal)) :
    (StableHlo.after hostOps0_10 V (Proc.devRef .tc main_v25) : S8192x3072.Idx → EReal)
      = shapeCast S8192x3072 (V (Proc.devRef .tc main_arg0)) shapeCasts_S8192x3x32x32_S8192x3072 := by
  after_results_simp
  first | done | rfl

/-- **The first region's input** is the images re-read as 8192 rows of 3072 entries. -/
theorem images : mat (W11 m ρ c (Proc.devRef .tc main_v25))
    = flat shapeCasts_S8192x3x32x32_S8192x3072 (m ((c : Thread nD τ).loc main_arg0)) := by
  have ea : W10 m ρ c (Proc.devRef .tc main_arg0) = m ((c : Thread nD τ).loc main_arg0) :=
    W10_launch m ρ c (by decide) (by decide) (by decide) (by decide) (by decide) (by decide) (by decide) (by decide)
      (by decide) (by decide)
  unfold flat
  show mat (StableHlo.after hostOps0_10 (W10 m ρ c) (Proc.devRef .tc main_v25) : S8192x3072.Idx → EReal) = _
  rw [main_v25_of, ea]

/-! ## After the last region: the first ten columns -/

/-- The cut of the first ten columns, from any contents `V` before it. -/
theorem main_v87_of (V : Valuation τ sig (Elt Ideal)) :
    (StableHlo.after hostOps4 V (Proc.devRef .tc main_v87) : S8192x10.Idx → EReal)
      = extractStridedSlice S8192x10 ![0, 0] (V (Proc.devRef .tc main_v86) : S8192x128.Idx → EReal)
          slices_S8192x128_S8192x10_0_0 := by
  after_results_simp
  first | done | rfl

/-- **The result** is the first ten of the 128 columns of the last region's output. -/
theorem sliced (p : Fin 8192) (q : Fin 10) :
    mat (W19 m ρ c (Proc.devRef .tc main_v87)) p q
      = mat (W18 m ρ c (Proc.devRef .tc main_v86)) p ⟨q.val, by omega⟩ := by
  show (StableHlo.after hostOps4 (W18 m ρ c) (Proc.devRef .tc main_v87) : S8192x10.Idx → EReal) (ix2 p q)
    = (W18 m ρ c (Proc.devRef .tc main_v86) : S8192x128.Idx → EReal) (ix2 p ⟨q.val, by omega⟩)
  rw [main_v87_of]
  refine extractStridedSlice_apply _ _ _ _ _ fun a => ?_
  match a with
  | ⟨0, _⟩ => show p.val = 0 + p.val; omega
  | ⟨1, _⟩ => show q.val = 0 + q.val; omega

end Cert.KernelIdeal.HostValue

end
-- ==== Proof.LibStats.lean ====
/-
  The moments of a batch turned into a per-column scale and shift, as a host program does it, read entry by entry on
  the extended reals, for any extents.

  Two a × n arrays hold partial column sums P and partial column sums of squares Q. The program adds each column up
  from a literal word (S = w₀ + ∑ₖ P(k, q), T = w₀ + ∑ₖ Q(k, q)), divides both by a literal count (μ = S / c,
  ν = T / c), forms the clipped variance max (ν − μ · μ, w) and its floored reciprocal square root
  ι = (max (ν − μ · μ, w) + ε)^(−1/2), and leaves, as one-row matrices, the scale g · ι and the shift
  b − μ · g · ι. Every literal stays the word the program prints, the products and the difference stay in the order
  the program forms them, and nothing is evaluated.
-/
import Idealize.ShloMosaic.PureOps.Ideal.Laws
import Idealize.ShloMosaic.Lib.ValueIdx
import Idealize.ShloMosaic.Lib.ValueLayout
import Idealize.ShloMosaic.Lib.IdealHost
import proofs.«124504_j45586782880351_2_alg».proof.Proof.LibColSum

noncomputable section

namespace Cert.LibStats

open Idealize.ShloMosaic Idealize.ShloMosaic.ValueIdx
open scoped BigOperators

section Chain
variable {a n : ℕ}

/-- The sum of each column from a literal word, at column `q`: the word plus the sum over the rows. -/
theorem hostColSum_apply (x : FVec Ideal ⟨2, ![a, n]⟩ .f32) (w : BitVec 32)
    (h' : (⟨2, ![a, n]⟩ : Shape).ReducesTo [0] ⟨1, ![n]⟩) (hu : 0 < (⟨0, ![]⟩ : Shape).numel) (q : Fin n) :
    Host.reduceAdd (F := Ideal) (φ := .f32) x (constant (F := Ideal) ⟨0, ![]⟩ .f32 w) h' hu (ix1 q)
      = Ideal.ofBits .f32 w + ∑ k : Fin a, x (ix2 k q) := by
  have h : (⟨2, ![a, n]⟩ : Shape).Reduces [0] ⟨1, ![n]⟩ := ⟨h'.1, Nat.one_pos, h'.2⟩
  show Ideal.hostReduceAdd h' x (Ideal.ofBits .f32 w) (ix1 q) = _
  rw [Ideal.hostReduceAdd_single h' h x _ (ix1 q)]
  exact congrArg (Ideal.ofBits .f32 w + ·)
    (Finset.sum_congr rfl fun k _ => congrArg x (Cert.LibColSum.lift_col h q k))

variable (w0 wc wz we : BitVec 32)
  (hr : (⟨2, ![a, n]⟩ : Shape).ReducesTo [0] ⟨1, ![n]⟩) (hu : 0 < (⟨0, ![]⟩ : Shape).numel)
  (hb : (⟨0, ![]⟩ : Shape).BroadcastsInDim ⟨1, ![n]⟩ (![] : Fin 0 → Fin 1))
  (hc : (⟨1, ![n]⟩ : Shape).ShapeCasts ⟨2, ![1, n]⟩)

/-- A column's sum from the word `w0`, divided by the count `wc`. -/
def hostMoment (x : FVec Ideal ⟨2, ![a, n]⟩ .f32) : FVec Ideal ⟨1, ![n]⟩ .f32 :=
  Host.divf (F := Ideal) (Host.reduceAdd (F := Ideal) x (constant (F := Ideal) ⟨0, ![]⟩ .f32 w0) hr hu)
    (broadcastInDim ⟨1, ![n]⟩ (![] : Fin 0 → Fin 1) hb (constant (F := Ideal) ⟨0, ![]⟩ .f32 wc))

/-- The floored reciprocal square root of the clipped variance. -/
def hostInv (P Q : FVec Ideal ⟨2, ![a, n]⟩ .f32) : FVec Ideal ⟨1, ![n]⟩ .f32 :=
  Host.rsqrt (F := Ideal)
    (addf
      (maximumf
        (subf (hostMoment w0 wc hr hu hb Q) (mulf (hostMoment w0 wc hr hu hb P) (hostMoment w0 wc hr hu hb P)))
        (broadcastInDim ⟨1, ![n]⟩ (![] : Fin 0 → Fin 1) hb (constant (F := Ideal) ⟨0, ![]⟩ .f32 wz)))
      (broadcastInDim ⟨1, ![n]⟩ (![] : Fin 0 → Fin 1) hb (constant (F := Ideal) ⟨0, ![]⟩ .f32 we)))

/-- The scale, as a one-row matrix. -/
def hostScale (P Q : FVec Ideal ⟨2, ![a, n]⟩ .f32) (g : FVec Ideal ⟨1, ![n]⟩ .f32) : FVec Ideal ⟨2, ![1, n]⟩ .f32 :=
  shapeCast ⟨2, ![1, n]⟩ (mulf g (hostInv w0 wc wz we hr hu hb P Q)) hc

/-- The shift, as a one-row matrix. -/
def hostShift (P Q : FVec Ideal ⟨2, ![a, n]⟩ .f32) (g b : FVec Ideal ⟨1, ![n]⟩ .f32) : FVec Ideal ⟨2, ![1, n]⟩ .f32 :=
  shapeCast ⟨2, ![1, n]⟩ (subf b (mulf (mulf (hostMoment w0 wc hr hu hb P) g) (hostInv w0 wc wz we hr hu hb P Q))) hc

theorem hostMoment_apply (x : FVec Ideal ⟨2, ![a, n]⟩ .f32) (q : Fin n) :
    hostMoment w0 wc hr hu hb x (ix1 q)
      = Ideal.div (Ideal.ofBits .f32 w0 + ∑ k : Fin a, x (ix2 k q)) (Ideal.ofBits .f32 wc) := by
  unfold hostMoment
  rw [hostDivf_apply, hostColSum_apply]
  rfl

theorem hostInv_apply (P Q : FVec Ideal ⟨2, ![a, n]⟩ .f32) (q : Fin n) :
    hostInv w0 wc wz we hr hu hb P Q (ix1 q)
      = Ideal.rsqrt (max (Ideal.div (Ideal.ofBits .f32 w0 + ∑ k : Fin a, Q (ix2 k q)) (Ideal.ofBits .f32 wc)
            - Ideal.div (Ideal.ofBits .f32 w0 + ∑ k : Fin a, P (ix2 k q)) (Ideal.ofBits .f32 wc)
              * Ideal.div (Ideal.ofBits .f32 w0 + ∑ k : Fin a, P (ix2 k q)) (Ideal.ofBits .f32 wc))
          (Ideal.ofBits .f32 wz) + Ideal.ofBits .f32 we) := by
  unfold hostInv
  show Ideal.rsqrt (max (hostMoment w0 wc hr hu hb Q (ix1 q)
      - hostMoment w0 wc hr hu hb P (ix1 q) * hostMoment w0 wc hr hu hb P (ix1 q)) (Ideal.ofBits .f32 wz)
      + Ideal.ofBits .f32 we) = _
  rw [hostMoment_apply, hostMoment_apply]

/-- The scale at `(0, q)`. -/
theorem hostScale_apply (P Q : FVec Ideal ⟨2, ![a, n]⟩ .f32) (g : FVec Ideal ⟨1, ![n]⟩ .f32) (u : Fin 1) (q : Fin n) :
    hostScale w0 wc wz we hr hu hb hc P Q g (ix2 u q)
      = g (ix1 q) * Ideal.rsqrt (max (Ideal.div (Ideal.ofBits .f32 w0 + ∑ k : Fin a, Q (ix2 k q)) (Ideal.ofBits .f32 wc)
            - Ideal.div (Ideal.ofBits .f32 w0 + ∑ k : Fin a, P (ix2 k q)) (Ideal.ofBits .f32 wc)
              * Ideal.div (Ideal.ofBits .f32 w0 + ∑ k : Fin a, P (ix2 k q)) (Ideal.ofBits .f32 wc))
          (Ideal.ofBits .f32 wz) + Ideal.ofBits .f32 we) := by
  unfold hostScale
  rw [shapeCast_a_1a_apply, mulf_apply, hostInv_apply]

/-- The shift at `(0, q)`. -/
theorem hostShift_apply (P Q : FVec Ideal ⟨2, ![a, n]⟩ .f32) (g b : FVec Ideal ⟨1, ![n]⟩ .f32) (u : Fin 1) (q : Fin n) :
    hostShift w0 wc wz we hr hu hb hc P Q g b (ix2 u q)
      = b (ix1 q) - Ideal.div (Ideal.ofBits .f32 w0 + ∑ k : Fin a, P (ix2 k q)) (Ideal.ofBits .f32 wc) * g (ix1 q)
          * Ideal.rsqrt (max (Ideal.div (Ideal.ofBits .f32 w0 + ∑ k : Fin a, Q (ix2 k q)) (Ideal.ofBits .f32 wc)
            - Ideal.div (Ideal.ofBits .f32 w0 + ∑ k : Fin a, P (ix2 k q)) (Ideal.ofBits .f32 wc)
              * Ideal.div (Ideal.ofBits .f32 w0 + ∑ k : Fin a, P (ix2 k q)) (Ideal.ofBits .f32 wc))
          (Ideal.ofBits .f32 wz) + Ideal.ofBits .f32 we) := by
  unfold hostShift
  rw [shapeCast_a_1a_apply, subf_apply, mulf_apply, mulf_apply, hostInv_apply, hostMoment_apply]

end Chain

end Cert.LibStats

end
-- ==== Proof.KStats.lean ====
/-
  Between two regions the program turns a layer's batch moments into the next layer's normalisation. A region leaves,
  in two arrays of partial sums, each row tile's column sums and column sums of squares of its clipped products; the
  host operations that follow add the partial sums of each column up from the zero word, divide by the batch size,
  form the clipped variance max (mean of squares − mean², 0), add the floor, take the reciprocal square root, and
  leave the per-column scale γ · (var + ε)^(−1/2) and shift β − mean · γ · (var + ε)^(−1/2) as one-row matrices for
  the next region. Here each of the three such stretches is read entry by entry: the scale and the shift at column q
  are the network's `statScale` and `statShift` of the two column totals and the layer's two parameters, and the
  stretch leaves the activations the region wrote as they are.
-/
import proofs.«124504_j45586782880351_2_alg».proof.Proof.Gen.KernelIdeal.Frame
import proofs.«124504_j45586782880351_2_alg».proof.Proof.Net
import proofs.«124504_j45586782880351_2_alg».proof.Proof.LibStats

set_option maxRecDepth 16384

noncomputable section

namespace Cert.KernelIdeal.HostValue.Stats

open Idealize.ShloMosaic Idealize.ShloMosaic.ValueIdx
open Cert.KernelIdeal Cert.KernelIdeal.Gen Cert.BinNet
open scoped BigOperators

variable (m : (ℓ : Loc nD τ sig) → Buf (Elt Ideal) ℓ) (ρ : Dev nD → PrngReg) (c : Dev nD)

/-! ## After region 0: the statistics of layer 1 -/

/-- The scale array the stretch leaves is the host chain applied to what region 0 left. -/
theorem scale1_term : (W13 m ρ c (Proc.devRef .tc main_v41) : S1x1024.Idx → EReal)
    = Cert.LibStats.hostScale 0x00000000#32 0x46000000#32 0x00000000#32 0x3727C5AC#32
        reducesTo_S128x1024_S1024_d0 h_S_ bcast_S_S1024 shapeCasts_S1024_S1x1024
        (W12 m ρ c (Proc.devRef .tc main_v26_1)) (W12 m ρ c (Proc.devRef .tc main_v26_2))
        (W12 m ρ c (Proc.devRef .tc main_arg5)) := by
  dsimp only [Gen.W13, Gen.hostOps1]; after_results_simp; rfl

/-- The shift array the stretch leaves, likewise. -/
theorem shift1_term : (W13 m ρ c (Proc.devRef .tc main_v45) : S1x1024.Idx → EReal)
    = Cert.LibStats.hostShift 0x00000000#32 0x46000000#32 0x00000000#32 0x3727C5AC#32
        reducesTo_S128x1024_S1024_d0 h_S_ bcast_S_S1024 shapeCasts_S1024_S1x1024
        (W12 m ρ c (Proc.devRef .tc main_v26_1)) (W12 m ρ c (Proc.devRef .tc main_v26_2))
        (W12 m ρ c (Proc.devRef .tc main_arg5)) (W12 m ρ c (Proc.devRef .tc main_arg6)) := by
  dsimp only [Gen.W13, Gen.hostOps1]; after_results_simp; rfl

/-- Column `q` of the scale: `statScale` of the column's two totals and its γ. -/
theorem scale1 (q : Fin 1024) :
    mat (W13 m ρ c (Proc.devRef .tc main_v41) : S1x1024.Idx → EReal) 0 q
      = statScale (z32 + ∑ j : Fin 128, mat (W12 m ρ c (Proc.devRef .tc main_v26_1) : S128x1024.Idx → EReal) j q)
          (z32 + ∑ j : Fin 128, mat (W12 m ρ c (Proc.devRef .tc main_v26_2) : S128x1024.Idx → EReal) j q)
          (vec (W12 m ρ c (Proc.devRef .tc main_arg5) : S1024.Idx → EReal) q) := by
  unfold mat
  rw [scale1_term, Cert.LibStats.hostScale_apply]
  rfl

/-- Column `q` of the shift: `statShift` of the column's two totals, its γ and its β. -/
theorem shift1 (q : Fin 1024) :
    mat (W13 m ρ c (Proc.devRef .tc main_v45) : S1x1024.Idx → EReal) 0 q
      = statShift (z32 + ∑ j : Fin 128, mat (W12 m ρ c (Proc.devRef .tc main_v26_1) : S128x1024.Idx → EReal) j q)
          (z32 + ∑ j : Fin 128, mat (W12 m ρ c (Proc.devRef .tc main_v26_2) : S128x1024.Idx → EReal) j q)
          (vec (W12 m ρ c (Proc.devRef .tc main_arg5) : S1024.Idx → EReal) q)
          (vec (W12 m ρ c (Proc.devRef .tc main_arg6) : S1024.Idx → EReal) q) := by
  unfold mat
  rw [shift1_term, Cert.LibStats.hostShift_apply]
  rfl

/-- The stretch writes no array a region wrote: the activations stay. -/
theorem kept1 : W13 m ρ c (Proc.devRef .tc main_v26_0) = W12 m ρ c (Proc.devRef .tc main_v26_0) :=
  StableHlo.after_of_forall_not_mem (b := Proc.devRef .tc main_v26_0) _ _ (List.forall_iff_forall_mem.mp (by
    simp only [Gen.hostOps1, List.Forall, StableHlo.nullary_writes, StableHlo.unary_writes, StableHlo.binary_writes,
      StableHlo.reshape_writes, Finset.mem_singleton]
    repeat' apply And.intro
    all_goals exact StableHlo.devRef_ne_of_ne (by decide)))

/-! ## After region 1: the statistics of layer 2 -/

/-- The scale array the stretch leaves is the host chain applied to what region 1 left. -/
theorem scale2_term : (W15 m ρ c (Proc.devRef .tc main_v61) : S1x1024.Idx → EReal)
    = Cert.LibStats.hostScale 0x00000000#32 0x46000000#32 0x00000000#32 0x3727C5AC#32
        reducesTo_S64x1024_S1024_d0 h_S_ bcast_S_S1024 shapeCasts_S1024_S1x1024
        (W14 m ρ c (Proc.devRef .tc main_v46_1)) (W14 m ρ c (Proc.devRef .tc main_v46_2))
        (W14 m ρ c (Proc.devRef .tc main_arg7)) := by
  dsimp only [Gen.W15, Gen.hostOps2]; after_results_simp; rfl

/-- The shift array the stretch leaves, likewise. -/
theorem shift2_term : (W15 m ρ c (Proc.devRef .tc main_v65) : S1x1024.Idx → EReal)
    = Cert.LibStats.hostShift 0x00000000#32 0x46000000#32 0x00000000#32 0x3727C5AC#32
        reducesTo_S64x1024_S1024_d0 h_S_ bcast_S_S1024 shapeCasts_S1024_S1x1024
        (W14 m ρ c (Proc.devRef .tc main_v46_1)) (W14 m ρ c (Proc.devRef .tc main_v46_2))
        (W14 m ρ c (Proc.devRef .tc main_arg7)) (W14 m ρ c (Proc.devRef .tc main_arg8)) := by
  dsimp only [Gen.W15, Gen.hostOps2]; after_results_simp; rfl

/-- Column `q` of the scale: `statScale` of the column's two totals and its γ. -/
theorem scale2 (q : Fin 1024) :
    mat (W15 m ρ c (Proc.devRef .tc main_v61) : S1x1024.Idx → EReal) 0 q
      = statScale (z32 + ∑ j : Fin 64, mat (W14 m ρ c (Proc.devRef .tc main_v46_1) : S64x1024.Idx → EReal) j q)
          (z32 + ∑ j : Fin 64, mat (W14 m ρ c (Proc.devRef .tc main_v46_2) : S64x1024.Idx → EReal) j q)
          (vec (W14 m ρ c (Proc.devRef .tc main_arg7) : S1024.Idx → EReal) q) := by
  unfold mat
  rw [scale2_term, Cert.LibStats.hostScale_apply]
  rfl

/-- Column `q` of the shift: `statShift` of the column's two totals, its γ and its β. -/
theorem shift2 (q : Fin 1024) :
    mat (W15 m ρ c (Proc.devRef .tc main_v65) : S1x1024.Idx → EReal) 0 q
      = statShift (z32 + ∑ j : Fin 64, mat (W14 m ρ c (Proc.devRef .tc main_v46_1) : S64x1024.Idx → EReal) j q)
          (z32 + ∑ j : Fin 64, mat (W14 m ρ c (Proc.devRef .tc main_v46_2) : S64x1024.Idx → EReal) j q)
          (vec (W14 m ρ c (Proc.devRef .tc main_arg7) : S1024.Idx → EReal) q)
          (vec (W14 m ρ c (Proc.devRef .tc main_arg8) : S1024.Idx → EReal) q) := by
  unfold mat
  rw [shift2_term, Cert.LibStats.hostShift_apply]
  rfl

/-- The stretch writes no array a region wrote: the activations stay. -/
theorem kept2 : W15 m ρ c (Proc.devRef .tc main_v46_0) = W14 m ρ c (Proc.devRef .tc main_v46_0) :=
  StableHlo.after_of_forall_not_mem (b := Proc.devRef .tc main_v46_0) _ _ (List.forall_iff_forall_mem.mp (by
    simp only [Gen.hostOps2, List.Forall, StableHlo.nullary_writes, StableHlo.unary_writes, StableHlo.binary_writes,
      StableHlo.reshape_writes, Finset.mem_singleton]
    repeat' apply And.intro
    all_goals exact StableHlo.devRef_ne_of_ne (by decide)))

/-! ## After region 2: the statistics of layer 3 -/

/-- The scale array the stretch leaves is the host chain applied to what region 2 left. -/
theorem scale3_term : (W17 m ρ c (Proc.devRef .tc main_v81) : S1x1024.Idx → EReal)
    = Cert.LibStats.hostScale 0x00000000#32 0x46000000#32 0x00000000#32 0x3727C5AC#32
        reducesTo_S64x1024_S1024_d0 h_S_ bcast_S_S1024 shapeCasts_S1024_S1x1024
        (W16 m ρ c (Proc.devRef .tc main_v66_1)) (W16 m ρ c (Proc.devRef .tc main_v66_2))
        (W16 m ρ c (Proc.devRef .tc main_arg9)) := by
  dsimp only [Gen.W17, Gen.hostOps3]; after_results_simp; rfl

/-- The shift array the stretch leaves, likewise. -/
theorem shift3_term : (W17 m ρ c (Proc.devRef .tc main_v85) : S1x1024.Idx → EReal)
    = Cert.LibStats.hostShift 0x00000000#32 0x46000000#32 0x00000000#32 0x3727C5AC#32
        reducesTo_S64x1024_S1024_d0 h_S_ bcast_S_S1024 shapeCasts_S1024_S1x1024
        (W16 m ρ c (Proc.devRef .tc main_v66_1)) (W16 m ρ c (Proc.devRef .tc main_v66_2))
        (W16 m ρ c (Proc.devRef .tc main_arg9)) (W16 m ρ c (Proc.devRef .tc main_arg10)) := by
  dsimp only [Gen.W17, Gen.hostOps3]; after_results_simp; rfl

/-- Column `q` of the scale: `statScale` of the column's two totals and its γ. -/
theorem scale3 (q : Fin 1024) :
    mat (W17 m ρ c (Proc.devRef .tc main_v81) : S1x1024.Idx → EReal) 0 q
      = statScale (z32 + ∑ j : Fin 64, mat (W16 m ρ c (Proc.devRef .tc main_v66_1) : S64x1024.Idx → EReal) j q)
          (z32 + ∑ j : Fin 64, mat (W16 m ρ c (Proc.devRef .tc main_v66_2) : S64x1024.Idx → EReal) j q)
          (vec (W16 m ρ c (Proc.devRef .tc main_arg9) : S1024.Idx → EReal) q) := by
  unfold mat
  rw [scale3_term, Cert.LibStats.hostScale_apply]
  rfl

/-- Column `q` of the shift: `statShift` of the column's two totals, its γ and its β. -/
theorem shift3 (q : Fin 1024) :
    mat (W17 m ρ c (Proc.devRef .tc main_v85) : S1x1024.Idx → EReal) 0 q
      = statShift (z32 + ∑ j : Fin 64, mat (W16 m ρ c (Proc.devRef .tc main_v66_1) : S64x1024.Idx → EReal) j q)
          (z32 + ∑ j : Fin 64, mat (W16 m ρ c (Proc.devRef .tc main_v66_2) : S64x1024.Idx → EReal) j q)
          (vec (W16 m ρ c (Proc.devRef .tc main_arg9) : S1024.Idx → EReal) q)
          (vec (W16 m ρ c (Proc.devRef .tc main_arg10) : S1024.Idx → EReal) q) := by
  unfold mat
  rw [shift3_term, Cert.LibStats.hostShift_apply]
  rfl

/-- The stretch writes no array a region wrote: the activations stay. -/
theorem kept3 : W17 m ρ c (Proc.devRef .tc main_v66_0) = W16 m ρ c (Proc.devRef .tc main_v66_0) :=
  StableHlo.after_of_forall_not_mem (b := Proc.devRef .tc main_v66_0) _ _ (List.forall_iff_forall_mem.mp (by
    simp only [Gen.hostOps3, List.Forall, StableHlo.nullary_writes, StableHlo.unary_writes, StableHlo.binary_writes,
      StableHlo.reshape_writes, Finset.mem_singleton]
    repeat' apply And.intro
    all_goals exact StableHlo.devRef_ne_of_ne (by decide)))

end Cert.KernelIdeal.HostValue.Stats

end
-- ==== Proof.KValue.lean ====
/-
  What the kernel program leaves in its result array: the network in the moments-first arrangement.

  Region by region. The first region's activations are the clipped product of the flattened images with the transposed
  signs of the first weight matrix; its two statistics arrays have, column by column, the sum and the sum of squares of
  those activations over the whole batch. The host operations that follow turn the two sums and the layer's parameters
  into the column's scale and shift, exactly `scaleK` and `shiftK` of the activations. The next region applies them
  before its own clipped product, which is `act (bnK …)`; and so on for three hidden layers. The last region's product is
  taken with the fourth sign matrix padded with zero columns on the right, and the result keeps the first ten columns,
  in which the padding plays no part.
-/
import proofs.«124504_j45586782880351_2_alg».proof.Proof.Gen.KernelIdeal.Frame
import proofs.«124504_j45586782880351_2_alg».proof.Proof.Net
import proofs.«124504_j45586782880351_2_alg».proof.Proof.Region0
import proofs.«124504_j45586782880351_2_alg».proof.Proof.Region1
import proofs.«124504_j45586782880351_2_alg».proof.Proof.Region2
import proofs.«124504_j45586782880351_2_alg».proof.Proof.Region3
import proofs.«124504_j45586782880351_2_alg».proof.Proof.KWeights
import proofs.«124504_j45586782880351_2_alg».proof.Proof.KStats

noncomputable section

namespace Cert.KernelIdeal.NetValue

open Idealize.ShloMosaic Idealize.ShloMosaic.TcCoe Idealize.SL.Sem
open Cert.KernelIdeal Cert.KernelIdeal.Gen Cert.BinNet ValueIdx
open Cert.KernelIdeal.RegionValue Cert.KernelIdeal.HostValue Cert.KernelIdeal.HostValue.Stats

variable (m : (ℓ : Loc nD τ sig) → Buf (Elt Ideal) ℓ) (ρ : Dev nD → PrngReg) (c : Dev nD)

/-- The network's arguments as the launch memory holds them. -/
abbrev X : Fin 8192 → Fin 3072 → EReal := flat shapeCasts_S8192x3x32x32_S8192x3072 (m ((c : Thread nD τ).loc main_arg0))
abbrev Wt1 : Fin 1024 → Fin 3072 → EReal := mat (m ((c : Thread nD τ).loc main_arg1))
abbrev Wt2 : Fin 1024 → Fin 1024 → EReal := mat (m ((c : Thread nD τ).loc main_arg2))
abbrev Wt3 : Fin 1024 → Fin 1024 → EReal := mat (m ((c : Thread nD τ).loc main_arg3))
abbrev Wt4 : Fin 10 → Fin 1024 → EReal := mat (m ((c : Thread nD τ).loc main_arg4))
abbrev G1 : Fin 1024 → EReal := vec (m ((c : Thread nD τ).loc main_arg5))
abbrev B1 : Fin 1024 → EReal := vec (m ((c : Thread nD τ).loc main_arg6))
abbrev G2 : Fin 1024 → EReal := vec (m ((c : Thread nD τ).loc main_arg7))
abbrev B2 : Fin 1024 → EReal := vec (m ((c : Thread nD τ).loc main_arg8))
abbrev G3 : Fin 1024 → EReal := vec (m ((c : Thread nD τ).loc main_arg9))
abbrev B3 : Fin 1024 → EReal := vec (m ((c : Thread nD τ).loc main_arg10))

/-- The three hidden layers' activations. -/
def A1 : Fin 8192 → Fin 1024 → EReal := act (X m c) (Wt1 m c)
def A2 : Fin 8192 → Fin 1024 → EReal := act (bnK (A1 m c) (G1 m c) (B1 m c)) (Wt2 m c)
def A3 : Fin 8192 → Fin 1024 → EReal := act (bnK (A2 m c) (G2 m c) (B2 m c)) (Wt3 m c)

/-! ## The first layer -/

theorem acts1 : mat (W12 m ρ c (Proc.devRef .tc main_v26_0)) = A1 m c := by
  rw [W12_arr m ρ c 2, region0_act (V11 m ρ) c]
  funext p q
  show relu (mm (mat (W11 m ρ c (Proc.devRef .tc main_v25))) (mat (W11 m ρ c (Proc.devRef .tc main_v5))) p q) = _
  rw [images m ρ c, signs1 m ρ c]; rfl

theorem sum1 (q : Fin 1024) : ∑ j : Fin 128, mat (W12 m ρ c (Proc.devRef .tc main_v26_1)) j q = ∑ p : Fin 8192, A1 m c p q := by
  rw [W12_arr m ρ c 3, region0_sum (V11 m ρ) c q]
  refine Finset.sum_congr rfl fun p _ => ?_
  show relu (mm (mat (W11 m ρ c (Proc.devRef .tc main_v25))) (mat (W11 m ρ c (Proc.devRef .tc main_v5))) p q) = _
  rw [images m ρ c, signs1 m ρ c]; rfl

theorem sumsq1 (q : Fin 1024) :
    ∑ j : Fin 128, mat (W12 m ρ c (Proc.devRef .tc main_v26_2)) j q = ∑ p : Fin 8192, A1 m c p q * A1 m c p q := by
  rw [W12_arr m ρ c 4, region0_sumsq (V11 m ρ) c q]
  refine Finset.sum_congr rfl fun p _ => ?_
  show relu (mm (mat (W11 m ρ c (Proc.devRef .tc main_v25))) (mat (W11 m ρ c (Proc.devRef .tc main_v5))) p q)
      * relu (mm (mat (W11 m ρ c (Proc.devRef .tc main_v25))) (mat (W11 m ρ c (Proc.devRef .tc main_v5))) p q) = _
  rw [images m ρ c, signs1 m ρ c]; rfl

theorem scaleRow1 : mat (W13 m ρ c (Proc.devRef .tc main_v41)) 0 = scaleK (A1 m c) (G1 m c) := by
  funext q
  rw [scale1 m ρ c q, sum1 m ρ c q, sumsq1 m ρ c q, arg5_12 m ρ c]; rfl

theorem shiftRow1 : mat (W13 m ρ c (Proc.devRef .tc main_v45)) 0 = shiftK (A1 m c) (G1 m c) (B1 m c) := by
  funext q
  rw [shift1 m ρ c q, sum1 m ρ c q, sumsq1 m ρ c q, arg5_12 m ρ c, arg6_12 m ρ c]; rfl

/-! ## The second layer -/

theorem acts2 : mat (W14 m ρ c (Proc.devRef .tc main_v46_0)) = A2 m c := by
  rw [W14_arr m ρ c 4, region1_act (V13 m ρ) c]
  funext p q
  show relu (mm (aff (mat (W13 m ρ c (Proc.devRef .tc main_v26_0))) (mat (W13 m ρ c (Proc.devRef .tc main_v41)) 0)
      (mat (W13 m ρ c (Proc.devRef .tc main_v45)) 0)) (mat (W13 m ρ c (Proc.devRef .tc main_v11))) p q) = _
  rw [kept1 m ρ c, acts1 m ρ c, scaleRow1 m ρ c, shiftRow1 m ρ c, kept_v11 m ρ c, signs2 m ρ c]; rfl

theorem sum2 (q : Fin 1024) : ∑ j : Fin 64, mat (W14 m ρ c (Proc.devRef .tc main_v46_1)) j q = ∑ p : Fin 8192, A2 m c p q := by
  rw [W14_arr m ρ c 5, region1_sum (V13 m ρ) c q]
  refine Finset.sum_congr rfl fun p _ => ?_
  show relu (mm (aff (mat (W13 m ρ c (Proc.devRef .tc main_v26_0))) (mat (W13 m ρ c (Proc.devRef .tc main_v41)) 0)
      (mat (W13 m ρ c (Proc.devRef .tc main_v45)) 0)) (mat (W13 m ρ c (Proc.devRef .tc main_v11))) p q) = _
  rw [kept1 m ρ c, acts1 m ρ c, scaleRow1 m ρ c, shiftRow1 m ρ c, kept_v11 m ρ c, signs2 m ρ c]; rfl

theorem sumsq2 (q : Fin 1024) :
    ∑ j : Fin 64, mat (W14 m ρ c (Proc.devRef .tc main_v46_2)) j q = ∑ p : Fin 8192, A2 m c p q * A2 m c p q := by
  rw [W14_arr m ρ c 6, region1_sumsq (V13 m ρ) c q]
  refine Finset.sum_congr rfl fun p _ => ?_
  have e : relu (mm (aff (mat (W13 m ρ c (Proc.devRef .tc main_v26_0))) (mat (W13 m ρ c (Proc.devRef .tc main_v41)) 0)
      (mat (W13 m ρ c (Proc.devRef .tc main_v45)) 0)) (mat (W13 m ρ c (Proc.devRef .tc main_v11))) p q) = A2 m c p q := by
    rw [kept1 m ρ c, acts1 m ρ c, scaleRow1 m ρ c, shiftRow1 m ρ c, kept_v11 m ρ c, signs2 m ρ c]; rfl
  exact congrArg₂ (· * ·) e e

theorem scaleRow2 : mat (W15 m ρ c (Proc.devRef .tc main_v61)) 0 = scaleK (A2 m c) (G2 m c) := by
  funext q
  rw [scale2 m ρ c q, sum2 m ρ c q, sumsq2 m ρ c q, arg7_14 m ρ c]; rfl

theorem shiftRow2 : mat (W15 m ρ c (Proc.devRef .tc main_v65)) 0 = shiftK (A2 m c) (G2 m c) (B2 m c) := by
  funext q
  rw [shift2 m ρ c q, sum2 m ρ c q, sumsq2 m ρ c q, arg7_14 m ρ c, arg8_14 m ρ c]; rfl

/-! ## The third layer -/

theorem acts3 : mat (W16 m ρ c (Proc.devRef .tc main_v66_0)) = A3 m c := by
  rw [W16_arr m ρ c 4, region2_act (V15 m ρ) c]
  funext p q
  show relu (mm (aff (mat (W15 m ρ c (Proc.devRef .tc main_v46_0))) (mat (W15 m ρ c (Proc.devRef .tc main_v61)) 0)
      (mat (W15 m ρ c (Proc.devRef .tc main_v65)) 0)) (mat (W15 m ρ c (Proc.devRef .tc main_v17))) p q) = _
  rw [kept2 m ρ c, acts2 m ρ c, scaleRow2 m ρ c, shiftRow2 m ρ c, kept_v17 m ρ c, signs3 m ρ c]; rfl

theorem sum3 (q : Fin 1024) : ∑ j : Fin 64, mat (W16 m ρ c (Proc.devRef .tc main_v66_1)) j q = ∑ p : Fin 8192, A3 m c p q := by
  rw [W16_arr m ρ c 5, region2_sum (V15 m ρ) c q]
  refine Finset.sum_congr rfl fun p _ => ?_
  show relu (mm (aff (mat (W15 m ρ c (Proc.devRef .tc main_v46_0))) (mat (W15 m ρ c (Proc.devRef .tc main_v61)) 0)
      (mat (W15 m ρ c (Proc.devRef .tc main_v65)) 0)) (mat (W15 m ρ c (Proc.devRef .tc main_v17))) p q) = _
  rw [kept2 m ρ c, acts2 m ρ c, scaleRow2 m ρ c, shiftRow2 m ρ c, kept_v17 m ρ c, signs3 m ρ c]; rfl

theorem sumsq3 (q : Fin 1024) :
    ∑ j : Fin 64, mat (W16 m ρ c (Proc.devRef .tc main_v66_2)) j q = ∑ p : Fin 8192, A3 m c p q * A3 m c p q := by
  rw [W16_arr m ρ c 6, region2_sumsq (V15 m ρ) c q]
  refine Finset.sum_congr rfl fun p _ => ?_
  have e : relu (mm (aff (mat (W15 m ρ c (Proc.devRef .tc main_v46_0))) (mat (W15 m ρ c (Proc.devRef .tc main_v61)) 0)
      (mat (W15 m ρ c (Proc.devRef .tc main_v65)) 0)) (mat (W15 m ρ c (Proc.devRef .tc main_v17))) p q) = A3 m c p q := by
    rw [kept2 m ρ c, acts2 m ρ c, scaleRow2 m ρ c, shiftRow2 m ρ c, kept_v17 m ρ c, signs3 m ρ c]; rfl
  exact congrArg₂ (· * ·) e e

theorem scaleRow3 : mat (W17 m ρ c (Proc.devRef .tc main_v81)) 0 = scaleK (A3 m c) (G3 m c) := by
  funext q
  rw [scale3 m ρ c q, sum3 m ρ c q, sumsq3 m ρ c q, arg9_16 m ρ c]; rfl

theorem shiftRow3 : mat (W17 m ρ c (Proc.devRef .tc main_v85)) 0 = shiftK (A3 m c) (G3 m c) (B3 m c) := by
  funext q
  rw [shift3 m ρ c q, sum3 m ρ c q, sumsq3 m ρ c q, arg9_16 m ρ c, arg10_16 m ρ c]; rfl

/-! ## The last layer and the result -/

/-- The kernel program's result array, entry by entry: the network in the moments-first arrangement. -/
theorem result_apply (p : Fin 8192) (q : Fin 10) :
    mat (W19 m ρ c (Proc.devRef .tc main_v87)) p q
      = netK (X m c) (Wt1 m c) (Wt2 m c) (Wt3 m c) (Wt4 m c) (G1 m c) (B1 m c) (G2 m c) (B2 m c) (G3 m c) (B3 m c) p q := by
  rw [sliced m ρ c p q, W18_arr m ρ c 4, region3_out (V17 m ρ) c]
  show mm (aff (mat (W17 m ρ c (Proc.devRef .tc main_v66_0))) (mat (W17 m ρ c (Proc.devRef .tc main_v81)) 0)
      (mat (W17 m ρ c (Proc.devRef .tc main_v85)) 0)) (mat (W17 m ρ c (Proc.devRef .tc main_v24))) p ⟨q.val, by omega⟩ = _
  rw [kept3 m ρ c, acts3 m ρ c, scaleRow3 m ρ c, shiftRow3 m ρ c, kept_v24 m ρ c]
  unfold netK lin mm
  refine Finset.sum_congr rfl fun k _ => ?_
  rw [signs4 m ρ c k q]; rfl

end Cert.KernelIdeal.NetValue

end
-- ==== Proof.RefOps.lean ====
/-
  The reference program's @main as a list of its host operations.

  @main is a straight line of StableHLO operations; the functions it calls (the select of two constants under a mask,
  the clip at zero, the variance over the batch, which itself calls a select) are straight lines too, so with every
  call replaced by the callee's operations over that call's own buffers the whole program is one line of 186
  operations. The line is given in five pieces, one per layer (the second layer in two, where the printed text is
  cut).
-/
import proofs.«124504_j45586782880351_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- The first hidden layer: the images flattened, the sign matrix of the first weights transposed, the product clipped at zero, and its normalisation over the batch (through `%26`). -/
abbrev opsL1 : List (HloOp τ sig (Elt F)) :=
  [ StableHlo.reshape main_arg0 main_v0 rfl shapeCasts_S8192x3x32x32_S8192x3072,
    StableHlo.nullary main_cst (constant S_ .f32 0x00000000#32),
    StableHlo.unary main_cst main_v1 (broadcastInDim S1024x3072 ![] bcast_S_S1024x3072 : (⟨S_, .f32⟩ : BufTy).Contents (Elt F) → (⟨S1024x3072, .f32⟩ : BufTy).Contents (Elt F)),
    StableHlo.binary main_arg1 main_v1 main_v2 (cmpf .oge : (⟨S1024x3072, .f32⟩ : BufTy).Contents (Elt F) → (⟨S1024x3072, .f32⟩ : BufTy).Contents (Elt F) → (⟨S1024x3072, .i1⟩ : BufTy).Contents (Elt F)),
    StableHlo.nullary main_cst_0 (constant S_ .f32 0x3F800000#32),
    StableHlo.nullary main_cst_1 (constant S_ .f32 0xBF800000#32),
    StableHlo.TRef.unary (.of main_cst_0 : StableHlo.TRef sig ⟨S_, .f32⟩) (.of main_call0_v0 : StableHlo.TRef sig ⟨S1024x3072, .f32⟩) (broadcastInDim S1024x3072 ![] bcast_S_S1024x3072),
    StableHlo.TRef.unary (.of main_cst_1 : StableHlo.TRef sig ⟨S_, .f32⟩) (.of main_call0_v1 : StableHlo.TRef sig ⟨S1024x3072, .f32⟩) (broadcastInDim S1024x3072 ![] bcast_S_S1024x3072),
    StableHlo.TRef.ternary (.of main_v2 : StableHlo.TRef sig ⟨S1024x3072, .i1⟩) (.of main_call0_v0 : StableHlo.TRef sig ⟨S1024x3072, .f32⟩) (.of main_call0_v1 : StableHlo.TRef sig ⟨S1024x3072, .f32⟩) (.of main_v3 : StableHlo.TRef sig ⟨S1024x3072, .f32⟩) select,
    StableHlo.unary main_v3 main_v4 (id : (⟨S1024x3072, .f32⟩ : BufTy).Contents (Elt F) → (⟨S1024x3072, .f32⟩ : BufTy).Contents (Elt F)),
    StableHlo.unary main_v4 main_v5 ((transpose S3072x1024 [1, 0] · transposes_S1024x3072_S3072x1024_1_0) : (⟨S1024x3072, .f32⟩ : BufTy).Contents (Elt F) → (⟨S3072x1024, .f32⟩ : BufTy).Contents (Elt F)),
    StableHlo.binary main_v0 main_v5 main_v6 ((fun l r => Host.dotGeneral dot_S8192x3072_S3072x1024_S8192x1024_1_0_0_1_n_n none l r) : (⟨S8192x3072, .f32⟩ : BufTy).Contents (Elt F) → (⟨S3072x1024, .f32⟩ : BufTy).Contents (Elt F) → (⟨S8192x1024, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8192x1024, .f32⟩) (broadcastInDim S8192x1024 ![] bcast_S_S8192x1024),
    StableHlo.TRef.binary (.of main_v6 : StableHlo.TRef sig ⟨S8192x1024, .f32⟩) (.of main_call1_v0 : StableHlo.TRef sig ⟨S8192x1024, .f32⟩) (.of main_v7 : StableHlo.TRef sig ⟨S8192x1024, .f32⟩) maximumf,
    StableHlo.nullary main_cst_2 (constant S_ .f32 0x00000000#32),
    StableHlo.binary main_v7 main_cst_2 main_v8 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.nullary main_cst_3 (constant S_ .f32 0x46000000#32),
    StableHlo.unary main_cst_3 main_v9 (broadcastInDim S1024 ![] bcast_S_S1024 : (⟨S_, .f32⟩ : BufTy).Contents (Elt F) → (⟨S1024, .f32⟩ : BufTy).Contents (Elt F)),
    StableHlo.binary main_v8 main_v9 main_v10 (Host.divf : (⟨S1024, .f32⟩ : BufTy).Contents (Elt F) → (⟨S1024, .f32⟩ : BufTy).Contents (Elt F) → (⟨S1024, .f32⟩ : BufTy).Contents (Elt F)),
    StableHlo.nullary main_c (constantI S_ 32 0#32),
    StableHlo.TRef.nullary (.of main_call2_cst : StableHlo.TRef sig ⟨S_, .f32⟩) (constant S_ .f32 0x00000000#32),
    StableHlo.TRef.binary (.of main_v7 : StableHlo.TRef sig ⟨S8192x1024, .f32⟩) (.of main_call2_cst : StableHlo.TRef sig ⟨S_, .f32⟩) (.of main_call2_v0 : StableHlo.TRef sig ⟨S1024, .f32⟩) (fun x v => Host.reduceAdd x v reducesTo_S8192x1024_S1024_d0 h_S_),
    StableHlo.TRef.unary (.of main_call2_v0 : StableHlo.TRef sig ⟨S1024, .f32⟩) (.of main_call2_v1 : StableHlo.TRef sig ⟨S1x1024, .f32⟩) (broadcastInDim S1x1024 ![1] bcast_S1024_S1x1024_1),
    StableHlo.TRef.nullary (.of main_call2_cst_0 : StableHlo.TRef sig ⟨S_, .f32⟩) (constant S_ .f32 0x46000000#32),
    StableHlo.TRef.unary (.of main_call2_cst_0 : StableHlo.TRef sig ⟨S_, .f32⟩) (.of main_call2_v2 : StableHlo.TRef sig ⟨S1x1024, .f32⟩) (broadcastInDim S1x1024 ![] bcast_S_S1x1024),
    StableHlo.TRef.binary (.of main_call2_v1 : StableHlo.TRef sig ⟨S1x1024, .f32⟩) (.of main_call2_v2 : StableHlo.TRef sig ⟨S1x1024, .f32⟩) (.of main_call2_v3 : StableHlo.TRef sig ⟨S1x1024, .f32⟩) Host.divf,
    StableHlo.TRef.unary (.of main_call2_v3 : StableHlo.TRef sig ⟨S1x1024, .f32⟩) (.of main_call2_v4 : StableHlo.TRef sig ⟨S8192x1024, .f32⟩) (broadcastInDim S8192x1024 ![0, 1] bcast_S1x1024_S8192x1024_0_1),
    StableHlo.TRef.binary (.of main_v7 : StableHlo.TRef sig ⟨S8192x1024, .f32⟩) (.of main_call2_v4 : StableHlo.TRef sig ⟨S8192x1024, .f32⟩) (.of main_call2_v5 : StableHlo.TRef sig ⟨S8192x1024, .f32⟩) subf,
    StableHlo.TRef.binary (.of main_call2_v5 : StableHlo.TRef sig ⟨S8192x1024, .f32⟩) (.of main_call2_v5 : StableHlo.TRef sig ⟨S8192x1024, .f32⟩) (.of main_call2_v6 : StableHlo.TRef sig ⟨S8192x1024, .f32⟩) mulf,
    StableHlo.TRef.unary (.of main_c : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x46000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S8192x1024, .f32⟩) (.of main_call2_cst_2 : StableHlo.TRef sig ⟨S_, .f32⟩) (.of main_call2_v9 : StableHlo.TRef sig ⟨S1024, .f32⟩) (fun x v => Host.reduceAdd x v reducesTo_S8192x1024_S1024_d0 h_S_),
    StableHlo.TRef.unary (.of main_call2_v8 : StableHlo.TRef sig ⟨S_, .f32⟩) (.of main_call2_v10 : StableHlo.TRef sig ⟨S1024, .f32⟩) (broadcastInDim S1024 ![] bcast_S_S1024),
    StableHlo.TRef.binary (.of main_call2_v9 : StableHlo.TRef sig ⟨S1024, .f32⟩) (.of main_call2_v10 : StableHlo.TRef sig ⟨S1024, .f32⟩) (.of main_call2_v11 : StableHlo.TRef sig ⟨S1024, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S1024, .f32⟩) (broadcastInDim S1024 ![] bcast_S_S1024),
    StableHlo.TRef.ternary (.of main_call2_v12 : StableHlo.TRef sig ⟨S_, .i1⟩) (.of main_call2_v11 : StableHlo.TRef sig ⟨S1024, .f32⟩) (.of main_call2_call0_v1 : StableHlo.TRef sig ⟨S1024, .f32⟩) (.of main_v11 : StableHlo.TRef sig ⟨S1024, .f32⟩) (fun p a b => select (broadcastInDim S1024 ![] bcast_S_S1024 p) a b),
    StableHlo.unary main_v10 main_v12 (broadcastInDim S1x1024 ![1] bcast_S1024_S1x1024_1 : (⟨S1024, .f32⟩ : BufTy).Contents (Elt F) → (⟨S1x1024, .f32⟩ : BufTy).Contents (Elt F)),
    StableHlo.unary main_v12 main_v13 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v7 main_v13 main_v14 (subf : (⟨S8192x1024, .f32⟩ : BufTy).Contents (Elt F) → (⟨S8192x1024, .f32⟩ : BufTy).Contents (Elt F) → (⟨S8192x1024, .f32⟩ : BufTy).Contents (Elt F)),
    StableHlo.unary main_arg5 main_v15 (broadcastInDim S1x1024 ![1] bcast_S1024_S1x1024_1 : (⟨S1024, .f32⟩ : BufTy).Contents (Elt F) → (⟨S1x1024, .f32⟩ : BufTy).Contents (Elt F)),
    StableHlo.unary main_v15 main_v16 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v16 main_v14 main_v17 (mulf : (⟨S8192x1024, .f32⟩ : BufTy).Contents (Elt F) → (⟨S8192x1024, .f32⟩ : BufTy).Contents (Elt F) → (⟨S8192x1024, .f32⟩ : BufTy).Contents (Elt F)),
    StableHlo.nullary main_cst_4 (constant S_ .f32 0x3727C5AC#32),
    StableHlo.unary main_cst_4 main_v18 (broadcastInDim S1024 ![] bcast_S_S1024 : (⟨S_, .f32⟩ : BufTy).Contents (Elt F) → (⟨S1024, .f32⟩ : BufTy).Contents (Elt F)),
    StableHlo.binary main_v11 main_v18 main_v19 (addf : (⟨S1024, .f32⟩ : BufTy).Contents (Elt F) → (⟨S1024, .f32⟩ : BufTy).Contents (Elt F) → (⟨S1024, .f32⟩ : BufTy).Contents (Elt F)),
    StableHlo.unary main_v19 main_v20 (Host.rsqrt : (⟨S1024, .f32⟩ : BufTy).Contents (Elt F) → (⟨S1024, .f32⟩ : BufTy).Contents (Elt F)),
    StableHlo.unary main_v20 main_v21 (broadcastInDim S1x1024 ![1] bcast_S1024_S1x1024_1 : (⟨S1024, .f32⟩ : BufTy).Contents (Elt F) → (⟨S1x1024, .f32⟩ : BufTy).Contents (Elt F)),
    StableHlo.unary main_v21 main_v22 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v17 main_v22 main_v23 (mulf : (⟨S8192x1024, .f32⟩ : BufTy).Contents (Elt F) → (⟨S8192x1024, .f32⟩ : BufTy).Contents (Elt F) → (⟨S8192x1024, .f32⟩ : BufTy).Contents (Elt F)),
    StableHlo.unary main_arg6 main_v24 (broadcastInDim S1x1024 ![1] bcast_S1024_S1x1024_1 : (⟨S1024, .f32⟩ : BufTy).Contents (Elt F) → (⟨S1x1024, .f32⟩ : BufTy).Contents (Elt F)),
    StableHlo.unary main_v24 main_v25 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v23 main_v25 main_v26 (addf : (⟨S8192x1024, .f32⟩ : BufTy).Contents (Elt F) → (⟨S8192x1024, .f32⟩ : BufTy).Contents (Elt F) → (⟨S8192x1024, .f32⟩ : BufTy).Contents (Elt F)) ]

theorem opsL1_sub : (opsL1 : List (HloOp τ sig (Elt F))).Forall fun op => op.bufs ⊆ tcRefs τ sig :=
  ⟨reshape_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem opsL1_fresh : ∀ op ∈ (opsL1 : List (HloOp τ sig (Elt F))), op.fresh = ∅ := by
  intro _ h; (repeat (cases h with | head => rfl | tail _ h => ?_)); exact nomatch h

/-- The second hidden layer up to the variance plus its floor (`%27` … `%45`). -/
abbrev opsL2a : List (HloOp τ sig (Elt F)) :=
  [ StableHlo.nullary main_cst_5 (constant S_ .f32 0x00000000#32),
    StableHlo.unary main_cst_5 main_v27 (broadcastInDim S1024x1024 ![] bcast_S_S1024x1024 : (⟨S_, .f32⟩ : BufTy).Contents (Elt F) → (⟨S1024x1024, .f32⟩ : BufTy).Contents (Elt F)),
    StableHlo.binary main_arg2 main_v27 main_v28 (cmpf .oge : (⟨S1024x1024, .f32⟩ : BufTy).Contents (Elt F) → (⟨S1024x1024, .f32⟩ : BufTy).Contents (Elt F) → (⟨S1024x1024, .i1⟩ : BufTy).Contents (Elt F)),
    StableHlo.nullary main_cst_6 (constant S_ .f32 0x3F800000#32),
    StableHlo.nullary main_cst_7 (constant S_ .f32 0xBF800000#32),
    StableHlo.TRef.unary (.of main_cst_6 : StableHlo.TRef sig ⟨S_, .f32⟩) (.of main_call3_v0 : StableHlo.TRef sig ⟨S1024x1024, .f32⟩) (broadcastInDim S1024x1024 ![] bcast_S_S1024x1024),
    StableHlo.TRef.unary (.of main_cst_7 : StableHlo.TRef sig ⟨S_, .f32⟩) (.of main_call3_v1 : StableHlo.TRef sig ⟨S1024x1024, .f32⟩) (broadcastInDim S1024x1024 ![] bcast_S_S1024x1024),
    StableHlo.TRef.ternary (.of main_v28 : StableHlo.TRef sig ⟨S1024x1024, .i1⟩) (.of main_call3_v0 : StableHlo.TRef sig ⟨S1024x1024, .f32⟩) (.of main_call3_v1 : StableHlo.TRef sig ⟨S1024x1024, .f32⟩) (.of main_v29 : StableHlo.TRef sig ⟨S1024x1024, .f32⟩) select,
    StableHlo.unary main_v29 main_v30 (id : (⟨S1024x1024, .f32⟩ : BufTy).Contents (Elt F) → (⟨S1024x1024, .f32⟩ : BufTy).Contents (Elt F)),
    StableHlo.unary main_v30 main_v31 ((transpose S1024x1024 [1, 0] · transposes_S1024x1024_S1024x1024_1_0) : (⟨S1024x1024, .f32⟩ : BufTy).Contents (Elt F) → (⟨S1024x1024, .f32⟩ : BufTy).Contents (Elt F)),
    StableHlo.binary main_v26 main_v31 main_v32 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S8192x1024, .f32⟩) (broadcastInDim S8192x1024 ![] bcast_S_S8192x1024),
    StableHlo.TRef.binary (.of main_v32 : StableHlo.TRef sig ⟨S8192x1024, .f32⟩) (.of main_call4_v0 : StableHlo.TRef sig ⟨S8192x1024, .f32⟩) (.of main_v33 : StableHlo.TRef sig ⟨S8192x1024, .f32⟩) maximumf,
    StableHlo.nullary main_cst_8 (constant S_ .f32 0x00000000#32),
    StableHlo.binary main_v33 main_cst_8 main_v34 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.nullary main_cst_9 (constant S_ .f32 0x46000000#32),
    StableHlo.unary main_cst_9 main_v35 (broadcastInDim S1024 ![] bcast_S_S1024 : (⟨S_, .f32⟩ : BufTy).Contents (Elt F) → (⟨S1024, .f32⟩ : BufTy).Contents (Elt F)),
    StableHlo.binary main_v34 main_v35 main_v36 (Host.divf : (⟨S1024, .f32⟩ : BufTy).Contents (Elt F) → (⟨S1024, .f32⟩ : BufTy).Contents (Elt F) → (⟨S1024, .f32⟩ : BufTy).Contents (Elt F)),
    StableHlo.nullary main_c_10 (constantI S_ 32 0#32),
    StableHlo.TRef.nullary (.of main_call5_cst : StableHlo.TRef sig ⟨S_, .f32⟩) (constant S_ .f32 0x00000000#32),
    StableHlo.TRef.binary (.of main_v33 : StableHlo.TRef sig ⟨S8192x1024, .f32⟩) (.of main_call5_cst : StableHlo.TRef sig ⟨S_, .f32⟩) (.of main_call5_v0 : StableHlo.TRef sig ⟨S1024, .f32⟩) (fun x v => Host.reduceAdd x v reducesTo_S8192x1024_S1024_d0 h_S_),
    StableHlo.TRef.unary (.of main_call5_v0 : StableHlo.TRef sig ⟨S1024, .f32⟩) (.of main_call5_v1 : StableHlo.TRef sig ⟨S1x1024, .f32⟩) (broadcastInDim S1x1024 ![1] bcast_S1024_S1x1024_1),
    StableHlo.TRef.nullary (.of main_call5_cst_0 : StableHlo.TRef sig ⟨S_, .f32⟩) (constant S_ .f32 0x46000000#32),
    StableHlo.TRef.unary (.of main_call5_cst_0 : StableHlo.TRef sig ⟨S_, .f32⟩) (.of main_call5_v2 : StableHlo.TRef sig ⟨S1x1024, .f32⟩) (broadcastInDim S1x1024 ![] bcast_S_S1x1024),
    StableHlo.TRef.binary (.of main_call5_v1 : StableHlo.TRef sig ⟨S1x1024, .f32⟩) (.of main_call5_v2 : StableHlo.TRef sig ⟨S1x1024, .f32⟩) (.of main_call5_v3 : StableHlo.TRef sig ⟨S1x1024, .f32⟩) Host.divf,
    StableHlo.TRef.unary (.of main_call5_v3 : StableHlo.TRef sig ⟨S1x1024, .f32⟩) (.of main_call5_v4 : StableHlo.TRef sig ⟨S8192x1024, .f32⟩) (broadcastInDim S8192x1024 ![0, 1] bcast_S1x1024_S8192x1024_0_1),
    StableHlo.TRef.binary (.of main_v33 : StableHlo.TRef sig ⟨S8192x1024, .f32⟩) (.of main_call5_v4 : StableHlo.TRef sig ⟨S8192x1024, .f32⟩) (.of main_call5_v5 : StableHlo.TRef sig ⟨S8192x1024, .f32⟩) subf,
    StableHlo.TRef.binary (.of main_call5_v5 : StableHlo.TRef sig ⟨S8192x1024, .f32⟩) (.of main_call5_v5 : StableHlo.TRef sig ⟨S8192x1024, .f32⟩) (.of main_call5_v6 : StableHlo.TRef sig ⟨S8192x1024, .f32⟩) mulf,
    StableHlo.TRef.unary (.of main_c_10 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x46000000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S8192x1024, .f32⟩) (.of main_call5_cst_2 : StableHlo.TRef sig ⟨S_, .f32⟩) (.of main_call5_v9 : StableHlo.TRef sig ⟨S1024, .f32⟩) (fun x v => Host.reduceAdd x v reducesTo_S8192x1024_S1024_d0 h_S_),
    StableHlo.TRef.unary (.of main_call5_v8 : StableHlo.TRef sig ⟨S_, .f32⟩) (.of main_call5_v10 : StableHlo.TRef sig ⟨S1024, .f32⟩) (broadcastInDim S1024 ![] bcast_S_S1024),
    StableHlo.TRef.binary (.of main_call5_v9 : StableHlo.TRef sig ⟨S1024, .f32⟩) (.of main_call5_v10 : StableHlo.TRef sig ⟨S1024, .f32⟩) (.of main_call5_v11 : StableHlo.TRef sig ⟨S1024, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S1024, .f32⟩) (broadcastInDim S1024 ![] bcast_S_S1024),
    StableHlo.TRef.ternary (.of main_call5_v12 : StableHlo.TRef sig ⟨S_, .i1⟩) (.of main_call5_v11 : StableHlo.TRef sig ⟨S1024, .f32⟩) (.of main_call5_call0_v1 : StableHlo.TRef sig ⟨S1024, .f32⟩) (.of main_v37 : StableHlo.TRef sig ⟨S1024, .f32⟩) (fun p a b => select (broadcastInDim S1024 ![] bcast_S_S1024 p) a b),
    StableHlo.unary main_v36 main_v38 (broadcastInDim S1x1024 ![1] bcast_S1024_S1x1024_1 : (⟨S1024, .f32⟩ : BufTy).Contents (Elt F) → (⟨S1x1024, .f32⟩ : BufTy).Contents (Elt F)),
    StableHlo.unary main_v38 main_v39 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v33 main_v39 main_v40 (subf : (⟨S8192x1024, .f32⟩ : BufTy).Contents (Elt F) → (⟨S8192x1024, .f32⟩ : BufTy).Contents (Elt F) → (⟨S8192x1024, .f32⟩ : BufTy).Contents (Elt F)),
    StableHlo.unary main_arg7 main_v41 (broadcastInDim S1x1024 ![1] bcast_S1024_S1x1024_1 : (⟨S1024, .f32⟩ : BufTy).Contents (Elt F) → (⟨S1x1024, .f32⟩ : BufTy).Contents (Elt F)),
    StableHlo.unary main_v41 main_v42 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v42 main_v40 main_v43 (mulf : (⟨S8192x1024, .f32⟩ : BufTy).Contents (Elt F) → (⟨S8192x1024, .f32⟩ : BufTy).Contents (Elt F) → (⟨S8192x1024, .f32⟩ : BufTy).Contents (Elt F)),
    StableHlo.nullary main_cst_11 (constant S_ .f32 0x3727C5AC#32),
    StableHlo.unary main_cst_11 main_v44 (broadcastInDim S1024 ![] bcast_S_S1024 : (⟨S_, .f32⟩ : BufTy).Contents (Elt F) → (⟨S1024, .f32⟩ : BufTy).Contents (Elt F)),
    StableHlo.binary main_v37 main_v44 main_v45 (addf : (⟨S1024, .f32⟩ : BufTy).Contents (Elt F) → (⟨S1024, .f32⟩ : BufTy).Contents (Elt F) → (⟨S1024, .f32⟩ : BufTy).Contents (Elt F)) ]

theorem opsL2a_sub : (opsL2a : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub ..⟩

theorem opsL2a_fresh : ∀ op ∈ (opsL2a : List (HloOp τ sig (Elt F))), op.fresh = ∅ := by
  intro _ h; (repeat (cases h with | head => rfl | tail _ h => ?_)); exact nomatch h

/-- The rest of the second layer's normalisation (`%46` … `%52`). -/
abbrev opsL2b : List (HloOp τ sig (Elt F)) :=
  [ StableHlo.unary main_v45 main_v46 (Host.rsqrt : (⟨S1024, .f32⟩ : BufTy).Contents (Elt F) → (⟨S1024, .f32⟩ : BufTy).Contents (Elt F)),
    StableHlo.unary main_v46 main_v47 (broadcastInDim S1x1024 ![1] bcast_S1024_S1x1024_1 : (⟨S1024, .f32⟩ : BufTy).Contents (Elt F) → (⟨S1x1024, .f32⟩ : BufTy).Contents (Elt F)),
    StableHlo.unary main_v47 main_v48 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v43 main_v48 main_v49 (mulf : (⟨S8192x1024, .f32⟩ : BufTy).Contents (Elt F) → (⟨S8192x1024, .f32⟩ : BufTy).Contents (Elt F) → (⟨S8192x1024, .f32⟩ : BufTy).Contents (Elt F)),
    StableHlo.unary main_arg8 main_v50 (broadcastInDim S1x1024 ![1] bcast_S1024_S1x1024_1 : (⟨S1024, .f32⟩ : BufTy).Contents (Elt F) → (⟨S1x1024, .f32⟩ : BufTy).Contents (Elt F)),
    StableHlo.unary main_v50 main_v51 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v49 main_v51 main_v52 (addf : (⟨S8192x1024, .f32⟩ : BufTy).Contents (Elt F) → (⟨S8192x1024, .f32⟩ : BufTy).Contents (Elt F) → (⟨S8192x1024, .f32⟩ : BufTy).Contents (Elt F)) ]

theorem opsL2b_sub : (opsL2b : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub ..⟩

theorem opsL2b_fresh : ∀ op ∈ (opsL2b : List (HloOp τ sig (Elt F))), op.fresh = ∅ := by
  intro _ h; (repeat (cases h with | head => rfl | tail _ h => ?_)); exact nomatch h

/-- The third hidden layer and its normalisation (`%53` … `%78`). -/
abbrev opsL3 : List (HloOp τ sig (Elt F)) :=
  [ StableHlo.nullary main_cst_12 (constant S_ .f32 0x00000000#32),
    StableHlo.unary main_cst_12 main_v53 (broadcastInDim S1024x1024 ![] bcast_S_S1024x1024 : (⟨S_, .f32⟩ : BufTy).Contents (Elt F) → (⟨S1024x1024, .f32⟩ : BufTy).Contents (Elt F)),
    StableHlo.binary main_arg3 main_v53 main_v54 (cmpf .oge : (⟨S1024x1024, .f32⟩ : BufTy).Contents (Elt F) → (⟨S1024x1024, .f32⟩ : BufTy).Contents (Elt F) → (⟨S1024x1024, .i1⟩ : BufTy).Contents (Elt F)),
    StableHlo.nullary main_cst_13 (constant S_ .f32 0x3F800000#32),
    StableHlo.nullary main_cst_14 (constant S_ .f32 0xBF800000#32),
    StableHlo.TRef.unary (.of main_cst_13 : StableHlo.TRef sig ⟨S_, .f32⟩) (.of main_call6_v0 : StableHlo.TRef sig ⟨S1024x1024, .f32⟩) (broadcastInDim S1024x1024 ![] bcast_S_S1024x1024),
    StableHlo.TRef.unary (.of main_cst_14 : StableHlo.TRef sig ⟨S_, .f32⟩) (.of main_call6_v1 : StableHlo.TRef sig ⟨S1024x1024, .f32⟩) (broadcastInDim S1024x1024 ![] bcast_S_S1024x1024),
    StableHlo.TRef.ternary (.of main_v54 : StableHlo.TRef sig ⟨S1024x1024, .i1⟩) (.of main_call6_v0 : StableHlo.TRef sig ⟨S1024x1024, .f32⟩) (.of main_call6_v1 : StableHlo.TRef sig ⟨S1024x1024, .f32⟩) (.of main_v55 : StableHlo.TRef sig ⟨S1024x1024, .f32⟩) select,
    StableHlo.unary main_v55 main_v56 (id : (⟨S1024x1024, .f32⟩ : BufTy).Contents (Elt F) → (⟨S1024x1024, .f32⟩ : BufTy).Contents (Elt F)),
    StableHlo.unary main_v56 main_v57 ((transpose S1024x1024 [1, 0] · transposes_S1024x1024_S1024x1024_1_0) : (⟨S1024x1024, .f32⟩ : BufTy).Contents (Elt F) → (⟨S1024x1024, .f32⟩ : BufTy).Contents (Elt F)),
    StableHlo.binary main_v52 main_v57 main_v58 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S8192x1024, .f32⟩) (broadcastInDim S8192x1024 ![] bcast_S_S8192x1024),
    StableHlo.TRef.binary (.of main_v58 : StableHlo.TRef sig ⟨S8192x1024, .f32⟩) (.of main_call7_v0 : StableHlo.TRef sig ⟨S8192x1024, .f32⟩) (.of main_v59 : StableHlo.TRef sig ⟨S8192x1024, .f32⟩) maximumf,
    StableHlo.nullary main_cst_15 (constant S_ .f32 0x00000000#32),
    StableHlo.binary main_v59 main_cst_15 main_v60 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.nullary main_cst_16 (constant S_ .f32 0x46000000#32),
    StableHlo.unary main_cst_16 main_v61 (broadcastInDim S1024 ![] bcast_S_S1024 : (⟨S_, .f32⟩ : BufTy).Contents (Elt F) → (⟨S1024, .f32⟩ : BufTy).Contents (Elt F)),
    StableHlo.binary main_v60 main_v61 main_v62 (Host.divf : (⟨S1024, .f32⟩ : BufTy).Contents (Elt F) → (⟨S1024, .f32⟩ : BufTy).Contents (Elt F) → (⟨S1024, .f32⟩ : BufTy).Contents (Elt F)),
    StableHlo.nullary main_c_17 (constantI S_ 32 0#32),
    StableHlo.TRef.nullary (.of main_call8_cst : StableHlo.TRef sig ⟨S_, .f32⟩) (constant S_ .f32 0x00000000#32),
    StableHlo.TRef.binary (.of main_v59 : StableHlo.TRef sig ⟨S8192x1024, .f32⟩) (.of main_call8_cst : StableHlo.TRef sig ⟨S_, .f32⟩) (.of main_call8_v0 : StableHlo.TRef sig ⟨S1024, .f32⟩) (fun x v => Host.reduceAdd x v reducesTo_S8192x1024_S1024_d0 h_S_),
    StableHlo.TRef.unary (.of main_call8_v0 : StableHlo.TRef sig ⟨S1024, .f32⟩) (.of main_call8_v1 : StableHlo.TRef sig ⟨S1x1024, .f32⟩) (broadcastInDim S1x1024 ![1] bcast_S1024_S1x1024_1),
    StableHlo.TRef.nullary (.of main_call8_cst_0 : StableHlo.TRef sig ⟨S_, .f32⟩) (constant S_ .f32 0x46000000#32),
    StableHlo.TRef.unary (.of main_call8_cst_0 : StableHlo.TRef sig ⟨S_, .f32⟩) (.of main_call8_v2 : StableHlo.TRef sig ⟨S1x1024, .f32⟩) (broadcastInDim S1x1024 ![] bcast_S_S1x1024),
    StableHlo.TRef.binary (.of main_call8_v1 : StableHlo.TRef sig ⟨S1x1024, .f32⟩) (.of main_call8_v2 : StableHlo.TRef sig ⟨S1x1024, .f32⟩) (.of main_call8_v3 : StableHlo.TRef sig ⟨S1x1024, .f32⟩) Host.divf,
    StableHlo.TRef.unary (.of main_call8_v3 : StableHlo.TRef sig ⟨S1x1024, .f32⟩) (.of main_call8_v4 : StableHlo.TRef sig ⟨S8192x1024, .f32⟩) (broadcastInDim S8192x1024 ![0, 1] bcast_S1x1024_S8192x1024_0_1),
    StableHlo.TRef.binary (.of main_v59 : StableHlo.TRef sig ⟨S8192x1024, .f32⟩) (.of main_call8_v4 : StableHlo.TRef sig ⟨S8192x1024, .f32⟩) (.of main_call8_v5 : StableHlo.TRef sig ⟨S8192x1024, .f32⟩) subf,
    StableHlo.TRef.binary (.of main_call8_v5 : StableHlo.TRef sig ⟨S8192x1024, .f32⟩) (.of main_call8_v5 : StableHlo.TRef sig ⟨S8192x1024, .f32⟩) (.of main_call8_v6 : StableHlo.TRef sig ⟨S8192x1024, .f32⟩) mulf,
    StableHlo.TRef.unary (.of main_c_17 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x46000000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S8192x1024, .f32⟩) (.of main_call8_cst_2 : StableHlo.TRef sig ⟨S_, .f32⟩) (.of main_call8_v9 : StableHlo.TRef sig ⟨S1024, .f32⟩) (fun x v => Host.reduceAdd x v reducesTo_S8192x1024_S1024_d0 h_S_),
    StableHlo.TRef.unary (.of main_call8_v8 : StableHlo.TRef sig ⟨S_, .f32⟩) (.of main_call8_v10 : StableHlo.TRef sig ⟨S1024, .f32⟩) (broadcastInDim S1024 ![] bcast_S_S1024),
    StableHlo.TRef.binary (.of main_call8_v9 : StableHlo.TRef sig ⟨S1024, .f32⟩) (.of main_call8_v10 : StableHlo.TRef sig ⟨S1024, .f32⟩) (.of main_call8_v11 : StableHlo.TRef sig ⟨S1024, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S1024, .f32⟩) (broadcastInDim S1024 ![] bcast_S_S1024),
    StableHlo.TRef.ternary (.of main_call8_v12 : StableHlo.TRef sig ⟨S_, .i1⟩) (.of main_call8_v11 : StableHlo.TRef sig ⟨S1024, .f32⟩) (.of main_call8_call0_v1 : StableHlo.TRef sig ⟨S1024, .f32⟩) (.of main_v63 : StableHlo.TRef sig ⟨S1024, .f32⟩) (fun p a b => select (broadcastInDim S1024 ![] bcast_S_S1024 p) a b),
    StableHlo.unary main_v62 main_v64 (broadcastInDim S1x1024 ![1] bcast_S1024_S1x1024_1 : (⟨S1024, .f32⟩ : BufTy).Contents (Elt F) → (⟨S1x1024, .f32⟩ : BufTy).Contents (Elt F)),
    StableHlo.unary main_v64 main_v65 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v59 main_v65 main_v66 (subf : (⟨S8192x1024, .f32⟩ : BufTy).Contents (Elt F) → (⟨S8192x1024, .f32⟩ : BufTy).Contents (Elt F) → (⟨S8192x1024, .f32⟩ : BufTy).Contents (Elt F)),
    StableHlo.unary main_arg9 main_v67 (broadcastInDim S1x1024 ![1] bcast_S1024_S1x1024_1 : (⟨S1024, .f32⟩ : BufTy).Contents (Elt F) → (⟨S1x1024, .f32⟩ : BufTy).Contents (Elt F)),
    StableHlo.unary main_v67 main_v68 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v68 main_v66 main_v69 (mulf : (⟨S8192x1024, .f32⟩ : BufTy).Contents (Elt F) → (⟨S8192x1024, .f32⟩ : BufTy).Contents (Elt F) → (⟨S8192x1024, .f32⟩ : BufTy).Contents (Elt F)),
    StableHlo.nullary main_cst_18 (constant S_ .f32 0x3727C5AC#32),
    StableHlo.unary main_cst_18 main_v70 (broadcastInDim S1024 ![] bcast_S_S1024 : (⟨S_, .f32⟩ : BufTy).Contents (Elt F) → (⟨S1024, .f32⟩ : BufTy).Contents (Elt F)),
    StableHlo.binary main_v63 main_v70 main_v71 (addf : (⟨S1024, .f32⟩ : BufTy).Contents (Elt F) → (⟨S1024, .f32⟩ : BufTy).Contents (Elt F) → (⟨S1024, .f32⟩ : BufTy).Contents (Elt F)),
    StableHlo.unary main_v71 main_v72 (Host.rsqrt : (⟨S1024, .f32⟩ : BufTy).Contents (Elt F) → (⟨S1024, .f32⟩ : BufTy).Contents (Elt F)),
    StableHlo.unary main_v72 main_v73 (broadcastInDim S1x1024 ![1] bcast_S1024_S1x1024_1 : (⟨S1024, .f32⟩ : BufTy).Contents (Elt F) → (⟨S1x1024, .f32⟩ : BufTy).Contents (Elt F)),
    StableHlo.unary main_v73 main_v74 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v69 main_v74 main_v75 (mulf : (⟨S8192x1024, .f32⟩ : BufTy).Contents (Elt F) → (⟨S8192x1024, .f32⟩ : BufTy).Contents (Elt F) → (⟨S8192x1024, .f32⟩ : BufTy).Contents (Elt F)),
    StableHlo.unary main_arg10 main_v76 (broadcastInDim S1x1024 ![1] bcast_S1024_S1x1024_1 : (⟨S1024, .f32⟩ : BufTy).Contents (Elt F) → (⟨S1x1024, .f32⟩ : BufTy).Contents (Elt F)),
    StableHlo.unary main_v76 main_v77 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v75 main_v77 main_v78 (addf : (⟨S8192x1024, .f32⟩ : BufTy).Contents (Elt F) → (⟨S8192x1024, .f32⟩ : BufTy).Contents (Elt F) → (⟨S8192x1024, .f32⟩ : BufTy).Contents (Elt F)) ]

theorem opsL3_sub : (opsL3 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem opsL3_fresh : ∀ op ∈ (opsL3 : List (HloOp τ sig (Elt F))), op.fresh = ∅ := by
  intro _ h; (repeat (cases h with | head => rfl | tail _ h => ?_)); exact nomatch h

/-- The last layer: the sign matrix of the last weights transposed and the product (`%79` … `%84`). -/
abbrev opsL4 : List (HloOp τ sig (Elt F)) :=
  [ StableHlo.nullary main_cst_19 (constant S_ .f32 0x00000000#32),
    StableHlo.unary main_cst_19 main_v79 (broadcastInDim S10x1024 ![] bcast_S_S10x1024 : (⟨S_, .f32⟩ : BufTy).Contents (Elt F) → (⟨S10x1024, .f32⟩ : BufTy).Contents (Elt F)),
    StableHlo.binary main_arg4 main_v79 main_v80 (cmpf .oge : (⟨S10x1024, .f32⟩ : BufTy).Contents (Elt F) → (⟨S10x1024, .f32⟩ : BufTy).Contents (Elt F) → (⟨S10x1024, .i1⟩ : BufTy).Contents (Elt F)),
    StableHlo.nullary main_cst_20 (constant S_ .f32 0x3F800000#32),
    StableHlo.nullary main_cst_21 (constant S_ .f32 0xBF800000#32),
    StableHlo.TRef.unary (.of main_cst_20 : StableHlo.TRef sig ⟨S_, .f32⟩) (.of main_call9_v0 : StableHlo.TRef sig ⟨S10x1024, .f32⟩) (broadcastInDim S10x1024 ![] bcast_S_S10x1024),
    StableHlo.TRef.unary (.of main_cst_21 : StableHlo.TRef sig ⟨S_, .f32⟩) (.of main_call9_v1 : StableHlo.TRef sig ⟨S10x1024, .f32⟩) (broadcastInDim S10x1024 ![] bcast_S_S10x1024),
    StableHlo.TRef.ternary (.of main_v80 : StableHlo.TRef sig ⟨S10x1024, .i1⟩) (.of main_call9_v0 : StableHlo.TRef sig ⟨S10x1024, .f32⟩) (.of main_call9_v1 : StableHlo.TRef sig ⟨S10x1024, .f32⟩) (.of main_v81 : StableHlo.TRef sig ⟨S10x1024, .f32⟩) select,
    StableHlo.unary main_v81 main_v82 (id : (⟨S10x1024, .f32⟩ : BufTy).Contents (Elt F) → (⟨S10x1024, .f32⟩ : BufTy).Contents (Elt F)),
    StableHlo.unary main_v82 main_v83 ((transpose S1024x10 [1, 0] · transposes_S10x1024_S1024x10_1_0) : (⟨S10x1024, .f32⟩ : BufTy).Contents (Elt F) → (⟨S1024x10, .f32⟩ : BufTy).Contents (Elt F)),
    StableHlo.binary main_v78 main_v83 main_v84 ((fun l r => Host.dotGeneral dot_S8192x1024_S1024x10_S8192x10_1_0_0_1_n_n none l r) : (⟨S8192x1024, .f32⟩ : BufTy).Contents (Elt F) → (⟨S1024x10, .f32⟩ : BufTy).Contents (Elt F) → (⟨S8192x10, .f32⟩ : BufTy).Contents (Elt F)) ]

theorem opsL4_sub : (opsL4 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., unary_bufs_sub .., unary_bufs_sub .., binary_bufs_sub ..⟩

theorem opsL4_fresh : ∀ op ∈ (opsL4 : List (HloOp τ sig (Elt F))), op.fresh = ∅ := by
  intro _ h; (repeat (cases h with | head => rfl | tail _ h => ?_)); exact nomatch h

/-- @main's 186 operations, in order. -/
abbrev ops : List (HloOp τ sig (Elt F)) := opsL1 ++ opsL2a ++ opsL2b ++ opsL3 ++ opsL4

end Cert.ReferenceIdeal.RefValue

end
-- ==== Proof.RefRun.lean ====
/-
  The reference program's run.

  With every call replaced by the callee's operations over that call's own buffers, @main is the straight line `ops`
  (two printed windows, each a line, one after the other). Every weakly fair execution runs the line to its end: each
  buffer then holds the fold of the operations' results over the contents at the launch. The result buffer holds
  `refOut`; and no operation writes an argument, so the arguments end as they started.
-/
import proofs.«124504_j45586782880351_2_alg».proof.Proof.RefOps
import proofs.«124504_j45586782880351_2_alg».proof.Proof.LibKeepsOff
import Idealize.ShloMosaic.PureOps.Ideal

noncomputable section

namespace Cert.ReferenceIdeal.RefValue

open Cert.ReferenceIdeal Idealize.ShloMosaic Idealize.ShloMosaic.TcCoe Idealize.SL.Sem Idealize.ShloMosaic.StableHlo Cert.KRIdent

variable {F : FTy → Type} [FloatOps F] [Facts]
open Facts₀ Facts

-- a chain of a hundred and ten operations: the re-association recurses once per operation
set_option maxRecDepth 8192 in
set_option maxHeartbeats 4000000 in
/-- The first window is the line of the first layer and the second layer's first part: the functions' definitions
    unfolded at their calls, both sides are one chain of operations once sequencing is re-associated. -/
theorem part0_eq (c : Dev nD) : main_part0 (F := F) c = seq (opsL1 ++ opsL2a) := by
  simp only [main_part0, fn_where.body, fn_relu.body, fn_var.body, fn_where_0.body, fn_where_1.body, List.cons_append,
    List.nil_append, seq, bind_assoc, pure_bind] <;> rfl

set_option maxRecDepth 8192 in
set_option maxHeartbeats 4000000 in
/-- The second window is the line of the rest. -/
theorem part1_eq (c : Dev nD) : main_part1 (F := F) c = seq (opsL2b ++ opsL3 ++ opsL4) := by
  simp only [main_part1, fn_relu.body, fn_var.body, fn_where_0.body, fn_where_1.body, fn_where_2.body, List.cons_append,
    List.nil_append, seq, bind_assoc, pure_bind] <;> rfl

/-- @main is the whole line. -/
theorem main_eq (c : Dev nD) : main (F := F) c = seq ops := by
  have e : (ops : List (HloOp τ sig (Elt F))) = (opsL1 ++ opsL2a) ++ (opsL2b ++ opsL3 ++ opsL4) := by
    simp only [ops, List.append_assoc]
  rw [e, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨List.forall_append.2 ⟨List.forall_append.2 ⟨List.forall_append.2 ⟨opsL1_sub, opsL2a_sub⟩, opsL2b_sub⟩, opsL3_sub⟩, opsL4_sub⟩

theorem ops_fresh : ∀ op ∈ (ops : List (HloOp τ sig (Elt F))), op.fresh = ∅ := fun op h => by
  rcases List.mem_append.1 h with h | h
  · rcases List.mem_append.1 h with h | h
    · rcases List.mem_append.1 h with h | h
      · rcases List.mem_append.1 h with h | h
        · exact opsL1_fresh op h
        · exact opsL2a_fresh op h
      · exact opsL2b_fresh op h
    · exact opsL3_fresh op h
  · exact opsL4_fresh op h

/-- Every weakly fair execution of @main terminates with each buffer at the fold of the line over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What the line leaves alone -/

/-- The buffers the piece `opsL1` writes, in order. -/
abbrev WL1 : List (Ref sig .tc) :=
  [main_v0, main_cst, main_v1, main_v2, main_cst_0, main_cst_1, main_call0_v0, main_call0_v1, main_v3, main_v4, main_v5, main_v6, main_call1_cst, main_call1_v0, main_v7, main_cst_2, main_v8, main_cst_3, main_v9, main_v10, main_c, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v11, main_v12, main_v13, main_v14, main_v15, main_v16, main_v17, main_cst_4, main_v18, main_v19, main_v20, main_v21, main_v22, main_v23, main_v24, main_v25, main_v26]

theorem opsL1_keeps : KeepsOff WL1 (opsL1 : List (HloOp τ sig (Elt F))) :=
  KeepsOff.of_writes ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- The buffers the piece `opsL2a` writes, in order. -/
abbrev WL2a : List (Ref sig .tc) :=
  [main_cst_5, main_v27, main_v28, main_cst_6, main_cst_7, main_call3_v0, main_call3_v1, main_v29, main_v30, main_v31, main_v32, main_call4_cst, main_call4_v0, main_v33, main_cst_8, main_v34, main_cst_9, main_v35, main_v36, main_c_10, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v37, main_v38, main_v39, main_v40, main_v41, main_v42, main_v43, main_cst_11, main_v44, main_v45]

theorem opsL2a_keeps : KeepsOff WL2a (opsL2a : List (HloOp τ sig (Elt F))) :=
  KeepsOff.of_writes ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- The buffers the piece `opsL2b` writes, in order. -/
abbrev WL2b : List (Ref sig .tc) :=
  [main_v46, main_v47, main_v48, main_v49, main_v50, main_v51, main_v52]

theorem opsL2b_keeps : KeepsOff WL2b (opsL2b : List (HloOp τ sig (Elt F))) :=
  KeepsOff.of_writes ⟨wsub (by decide), wsub (by decide), wsub (by decide), wsub (by decide), wsub (by decide), wsub (by decide), wsub (by decide)⟩

/-- The buffers the piece `opsL3` writes, in order. -/
abbrev WL3 : List (Ref sig .tc) :=
  [main_cst_12, main_v53, main_v54, main_cst_13, main_cst_14, main_call6_v0, main_call6_v1, main_v55, main_v56, main_v57, main_v58, main_call7_cst, main_call7_v0, main_v59, main_cst_15, main_v60, main_cst_16, main_v61, main_v62, main_c_17, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v63, main_v64, main_v65, main_v66, main_v67, main_v68, main_v69, main_cst_18, main_v70, main_v71, main_v72, main_v73, main_v74, main_v75, main_v76, main_v77, main_v78]

theorem opsL3_keeps : KeepsOff WL3 (opsL3 : List (HloOp τ sig (Elt F))) :=
  KeepsOff.of_writes ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- The buffers the piece `opsL4` writes, in order. -/
abbrev WL4 : List (Ref sig .tc) :=
  [main_cst_19, main_v79, main_v80, main_cst_20, main_cst_21, main_call9_v0, main_call9_v1, main_v81, main_v82, main_v83, main_v84]

theorem opsL4_keeps : KeepsOff WL4 (opsL4 : List (HloOp τ sig (Elt F))) :=
  KeepsOff.of_writes ⟨wsub (by decide), wsub (by decide), wsub (by decide), wsub (by decide), wsub (by decide), wsub (by decide), wsub (by decide), wsub (by decide), wsub (by decide), wsub (by decide), wsub (by decide)⟩

/-- Every buffer the line writes. -/
abbrev Wall : List (Ref sig .tc) := WL1 ++ WL2a ++ WL2b ++ WL3 ++ WL4

/-- The line writes no other buffer. -/
theorem ops_keeps : KeepsOff Wall (ops : List (HloOp τ sig (Elt F))) :=
  (((opsL1_keeps.append opsL2a_keeps).append opsL2b_keeps).append opsL3_keeps).append opsL4_keeps

/-- A buffer outside every piece's list is outside the whole list. -/
theorem not_mem_Wall {r : Ref sig .tc} (h1 : r ∉ WL1) (h2 : r ∉ WL2a) (h3 : r ∉ WL2b) (h4 : r ∉ WL3) (h5 : r ∉ WL4) : r ∉ Wall := by
  simp only [Wall, List.mem_append, not_or]
  exact ⟨⟨⟨⟨h1, h2⟩, h3⟩, h4⟩, h5⟩

/-! ## The run at the ideal values -/

/-- What the result buffer holds when @main has run: the fold of the line over the launch contents, at `%84`. -/
def refOut (m : (ℓ : Loc nD τ sig) → Buf (Elt Ideal) ℓ) (c : Dev nD) : Buf (Elt Ideal) ((c.tc : Thread nD τ).loc main_v84) :=
  after (ops (F := Ideal)) (launchContents m c) (Proc.devRef .tc main_v84)

/-- Every weakly fair execution of @main terminates with the result buffer at `refOut` and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v84) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨h c main_v84,
      (h c main_arg0).trans (ops_keeps main_arg0 (not_mem_Wall (by decide) (by decide) (by decide) (by decide) (by decide)) _),
      (h c main_arg1).trans (ops_keeps main_arg1 (not_mem_Wall (by decide) (by decide) (by decide) (by decide) (by decide)) _),
      (h c main_arg2).trans (ops_keeps main_arg2 (not_mem_Wall (by decide) (by decide) (by decide) (by decide) (by decide)) _),
      (h c main_arg3).trans (ops_keeps main_arg3 (not_mem_Wall (by decide) (by decide) (by decide) (by decide) (by decide)) _),
      (h c main_arg4).trans (ops_keeps main_arg4 (not_mem_Wall (by decide) (by decide) (by decide) (by decide) (by decide)) _),
      (h c main_arg5).trans (ops_keeps main_arg5 (not_mem_Wall (by decide) (by decide) (by decide) (by decide) (by decide)) _),
      (h c main_arg6).trans (ops_keeps main_arg6 (not_mem_Wall (by decide) (by decide) (by decide) (by decide) (by decide)) _),
      (h c main_arg7).trans (ops_keeps main_arg7 (not_mem_Wall (by decide) (by decide) (by decide) (by decide) (by decide)) _),
      (h c main_arg8).trans (ops_keeps main_arg8 (not_mem_Wall (by decide) (by decide) (by decide) (by decide) (by decide)) _),
      (h c main_arg9).trans (ops_keeps main_arg9 (not_mem_Wall (by decide) (by decide) (by decide) (by decide) (by decide)) _),
      (h c main_arg10).trans (ops_keeps main_arg10 (not_mem_Wall (by decide) (by decide) (by decide) (by decide) (by decide)) _)⟩)
    (run_all m ρ)

end Cert.ReferenceIdeal.RefValue

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.RefLayer.lean ====
/-
  The reference's layers as functions of whole arrays, read entry by entry.

  Each hidden layer of the reference is the same composition of whole-array operations: the weights' sign matrix
  (a comparison with zero choosing between the words 1 and −1) transposed, the product with it, the clip at zero; then
  the normalisation over the batch: the column means (a sum down the columns from the zero word, divided by the batch
  size), the variance (the mean of the squared deviations, the divisor being the batch size less a zero given as an
  integer, and a branch for a divisor that is not positive), and the scale by the reciprocal square root and the two
  parameters, each vector spread over the rows through a one-row matrix. Here each composition is a function of its
  operands, and at an entry (p, q) it is the network's definition of that layer.
-/
import proofs.«124504_j45586782880351_2_alg».proof.ReferenceIdeal
import proofs.«124504_j45586782880351_2_alg».proof.Proof.Net
import proofs.«124504_j45586782880351_2_alg».proof.Proof.LibHostRead
import proofs.«124504_j45586782880351_2_alg».proof.Proof.LibDot
import proofs.«124504_j45586782880351_2_alg».proof.Proof.LibMatLayout
import proofs.«124504_j45586782880351_2_alg».proof.Proof.LibColSum
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Idealize.ShloMosaic Idealize.ShloMosaic.ValueIdx Cert.BinNet
open scoped BigOperators

variable [Facts]
open Facts₀ Facts

/-- An f32 array at the ideal values. -/
abbrev Arr (s : Shape) : Type := FVec Ideal s .f32

/-! ## The compositions -/

/-- The clip at zero of a whole array. -/
def reluF (y : Arr S8192x1024) : Arr S8192x1024 :=
  maximumf y (broadcastInDim S8192x1024 ![] bcast_S_S8192x1024 (constant S_ .f32 0x00000000#32))

/-- The transposed sign matrix of the first layer's weights. -/
def sgnM1 (W : Arr S1024x3072) : Arr S3072x1024 :=
  transpose S3072x1024 [1, 0] (id (select (cmpf .oge W (broadcastInDim S1024x3072 ![] bcast_S_S1024x3072 (constant S_ .f32 0x00000000#32)))
    (broadcastInDim S1024x3072 ![] bcast_S_S1024x3072 (constant S_ .f32 0x3F800000#32))
    (broadcastInDim S1024x3072 ![] bcast_S_S1024x3072 (constant S_ .f32 0xBF800000#32)))) transposes_S1024x3072_S3072x1024_1_0

/-- The transposed sign matrix of a square layer's weights. -/
def sgnM (W : Arr S1024x1024) : Arr S1024x1024 :=
  transpose S1024x1024 [1, 0] (id (select (cmpf .oge W (broadcastInDim S1024x1024 ![] bcast_S_S1024x1024 (constant S_ .f32 0x00000000#32)))
    (broadcastInDim S1024x1024 ![] bcast_S_S1024x1024 (constant S_ .f32 0x3F800000#32))
    (broadcastInDim S1024x1024 ![] bcast_S_S1024x1024 (constant S_ .f32 0xBF800000#32)))) transposes_S1024x1024_S1024x1024_1_0

/-- The transposed sign matrix of the last layer's weights. -/
def sgnM4 (W : Arr S10x1024) : Arr S1024x10 :=
  transpose S1024x10 [1, 0] (id (select (cmpf .oge W (broadcastInDim S10x1024 ![] bcast_S_S10x1024 (constant S_ .f32 0x00000000#32)))
    (broadcastInDim S10x1024 ![] bcast_S_S10x1024 (constant S_ .f32 0x3F800000#32))
    (broadcastInDim S10x1024 ![] bcast_S_S10x1024 (constant S_ .f32 0xBF800000#32)))) transposes_S10x1024_S1024x10_1_0

/-- The first hidden layer before its normalisation: the images flattened, times the transposed signs, clipped. -/
def actF1 (x : Arr S8192x3x32x32) (W : Arr S1024x3072) : Arr S8192x1024 :=
  reluF (Host.dotGeneral dot_S8192x3072_S3072x1024_S8192x1024_1_0_0_1_n_n none
    (shapeCast S8192x3072 x shapeCasts_S8192x3x32x32_S8192x3072) (sgnM1 W))

/-- A square hidden layer before its normalisation. -/
def actF (h : Arr S8192x1024) (W : Arr S1024x1024) : Arr S8192x1024 :=
  reluF (Host.dotGeneral dot_S8192x1024_S1024x1024_S8192x1024_1_0_0_1_n_n none h (sgnM W))

/-- The last layer. -/
def linF (h : Arr S8192x1024) (W : Arr S10x1024) : Arr S8192x10 :=
  Host.dotGeneral dot_S8192x1024_S1024x10_S8192x10_1_0_0_1_n_n none h (sgnM4 W)

/-- A vector spread over the rows, through a one-row matrix. -/
def rowF (v : Arr S1024) : Arr S8192x1024 :=
  broadcastInDim S8192x1024 ![0, 1] bcast_S1x1024_S8192x1024_0_1 (broadcastInDim S1x1024 ![1] bcast_S1024_S1x1024_1 v)

/-- The column means. -/
def meanF (a : Arr S8192x1024) : Arr S1024 :=
  Host.divf (Host.reduceAdd a (constant S_ .f32 0x00000000#32) reducesTo_S8192x1024_S1024_d0 h_S_)
    (broadcastInDim S1024 ![] bcast_S_S1024 (constant S_ .f32 0x46000000#32))

/-- The divisor of the variance: the batch size less the integer zero made a float. -/
def cntF : Arr S_ := subf (constant S_ .f32 0x46000000#32) (sitofp .f32 (constantI S_ 32 0#32))

/-- The deviations from the column means, the means taken through a one-row matrix. -/
def devF (a : Arr S8192x1024) : Arr S8192x1024 :=
  subf a (broadcastInDim S8192x1024 ![0, 1] bcast_S1x1024_S8192x1024_0_1
    (Host.divf (broadcastInDim S1x1024 ![1] bcast_S1024_S1x1024_1
        (Host.reduceAdd a (constant S_ .f32 0x00000000#32) reducesTo_S8192x1024_S1024_d0 h_S_))
      (broadcastInDim S1x1024 ![] bcast_S_S1x1024 (constant S_ .f32 0x46000000#32))))

/-- The column variances. -/
def varF (a : Arr S8192x1024) : Arr S1024 :=
  select (broadcastInDim S1024 ![] bcast_S_S1024 (cmpf .ogt cntF (constant S_ .f32 0x00000000#32)))
    (Host.divf (Host.reduceAdd (mulf (devF a) (devF a)) (constant S_ .f32 0x00000000#32) reducesTo_S8192x1024_S1024_d0 h_S_)
      (broadcastInDim S1024 ![] bcast_S_S1024 cntF))
    (broadcastInDim S1024 ![] bcast_S_S1024 (id (constant S_ .f32 0x7FC00000#32)))

/-- The normalisation over the batch. -/
def bnF (a : Arr S8192x1024) (g b : Arr S1024) : Arr S8192x1024 :=
  addf (mulf (mulf (rowF g) (subf a (rowF (meanF a))))
      (rowF (Host.rsqrt (addf (varF a) (broadcastInDim S1024 ![] bcast_S_S1024 (constant S_ .f32 0x3727C5AC#32))))))
    (rowF b)

/-! ## Read at an entry -/

/-- The host's sum down the columns of a matrix from an initial value: at column `q`, that value plus the sum over the rows. -/
theorem hostSumAxis0_apply {a b : ℕ} (x : (⟨2, ![a, b]⟩ : Shape).Idx → EReal) {u : Shape} (init : u.Idx → EReal)
    (h' : (⟨2, ![a, b]⟩ : Shape).ReducesTo [0] ⟨1, ![b]⟩) (hu : 0 < u.numel) (q : Fin b) :
    Host.reduceAdd (F := Ideal) (φ := .f32) x init h' hu (ix1 q) = init (Shape.Idx.first hu) + ∑ p : Fin a, x (ix2 p q) := by
  have h : (⟨2, ![a, b]⟩ : Shape).Reduces [0] ⟨1, ![b]⟩ := ⟨h'.1, Nat.one_pos, h'.2⟩
  show Ideal.hostReduceAdd h' x (init (Shape.Idx.first hu)) (ix1 q) = _
  rw [Ideal.hostReduceAdd_single h' h x _ (ix1 q)]
  exact congrArg _ (Finset.sum_congr rfl fun k _ => congrArg x (LibColSum.lift_col h q k))

theorem sgnM1_apply (W : Arr S1024x3072) (k : Fin 3072) (q : Fin 1024) : sgnM1 W (ix2 k q) = sgn (W (ix2 q k)) :=
  (LibMatLayout.transpose_ab_ba_apply _ transposes_S1024x3072_S3072x1024_1_0 k q).trans rfl

theorem sgnM_apply (W : Arr S1024x1024) (k : Fin 1024) (q : Fin 1024) : sgnM W (ix2 k q) = sgn (W (ix2 q k)) :=
  (LibMatLayout.transpose_ab_ba_apply _ transposes_S1024x1024_S1024x1024_1_0 k q).trans rfl

theorem sgnM4_apply (W : Arr S10x1024) (k : Fin 1024) (q : Fin 10) : sgnM4 W (ix2 k q) = sgn (W (ix2 q k)) :=
  (LibMatLayout.transpose_ab_ba_apply _ transposes_S10x1024_S1024x10_1_0 k q).trans rfl

/-- The first layer before its normalisation is `act` of the flattened images and the weights. -/
theorem actF1_mat (x : Arr S8192x3x32x32) (W : Arr S1024x3072) :
    mat (actF1 x W) = act (flat shapeCasts_S8192x3x32x32_S8192x3072 x) (mat W) := by
  funext p q
  show max (Host.dotGeneral dot_S8192x3072_S3072x1024_S8192x1024_1_0_0_1_n_n none
      (shapeCast S8192x3072 x shapeCasts_S8192x3x32x32_S8192x3072) (sgnM1 W) (ix2 p q)) z32 = _
  rw [show Host.dotGeneral dot_S8192x3072_S3072x1024_S8192x1024_1_0_0_1_n_n none
        (shapeCast S8192x3072 x shapeCasts_S8192x3x32x32_S8192x3072) (sgnM1 W) (ix2 p q)
      = ∑ c : Fin 3072, shapeCast S8192x3072 x shapeCasts_S8192x3x32x32_S8192x3072 (ix2 p c) * sgnM1 W (ix2 c q) from
    LibDot.dotGeneral_apply dot_S8192x3072_S3072x1024_S8192x1024_1_0_0_1_n_n_wf none _ _ p q]
  simp only [sgnM1_apply]
  rfl

/-- A square layer before its normalisation is `act`. -/
theorem actF_mat (h : Arr S8192x1024) (W : Arr S1024x1024) : mat (actF h W) = act (mat h) (mat W) := by
  funext p q
  show max (Host.dotGeneral dot_S8192x1024_S1024x1024_S8192x1024_1_0_0_1_n_n none h (sgnM W) (ix2 p q)) z32 = _
  rw [show Host.dotGeneral dot_S8192x1024_S1024x1024_S8192x1024_1_0_0_1_n_n none h (sgnM W) (ix2 p q)
      = ∑ c : Fin 1024, h (ix2 p c) * sgnM W (ix2 c q) from
    LibDot.dotGeneral_apply dot_S8192x1024_S1024x1024_S8192x1024_1_0_0_1_n_n_wf none _ _ p q]
  simp only [sgnM_apply]
  rfl

/-- The last layer is `lin`. -/
theorem linF_mat (h : Arr S8192x1024) (W : Arr S10x1024) : mat (linF h W) = lin (mat h) (mat W) := by
  funext p q
  show Host.dotGeneral dot_S8192x1024_S1024x10_S8192x10_1_0_0_1_n_n none h (sgnM4 W) (ix2 p q) = _
  rw [show Host.dotGeneral dot_S8192x1024_S1024x10_S8192x10_1_0_0_1_n_n none h (sgnM4 W) (ix2 p q)
      = ∑ c : Fin 1024, h (ix2 p c) * sgnM4 W (ix2 c q) from
    LibDot.dotGeneral_apply dot_S8192x1024_S1024x10_S8192x10_1_0_0_1_n_n_wf none _ _ p q]
  simp only [sgnM4_apply]
  rfl

theorem rowF_apply (v : Arr S1024) (p : Fin 8192) (q : Fin 1024) : rowF v (ix2 p q) = v (ix1 q) :=
  LibHostRead.bcastRow_apply v bcast_S1024_S1x1024_1 bcast_S1x1024_S8192x1024_0_1 p q

theorem colSumF_apply (a : Arr S8192x1024) (q : Fin 1024) :
    Host.reduceAdd a (constant S_ .f32 0x00000000#32) reducesTo_S8192x1024_S1024_d0 h_S_ (ix1 q) = colSum (mat a) q :=
  hostSumAxis0_apply a _ reducesTo_S8192x1024_S1024_d0 h_S_ q

theorem meanF_apply (a : Arr S8192x1024) (q : Fin 1024) : meanF a (ix1 q) = mean (mat a) q := by
  show Ideal.div (Host.reduceAdd a (constant S_ .f32 0x00000000#32) reducesTo_S8192x1024_S1024_d0 h_S_ (ix1 q)) n32 = _
  rw [colSumF_apply]
  rfl

theorem devF_apply (a : Arr S8192x1024) (p : Fin 8192) (q : Fin 1024) : devF a (ix2 p q) = mat a p q - mean (mat a) q := by
  have e : broadcastInDim S8192x1024 ![0, 1] bcast_S1x1024_S8192x1024_0_1
      (Host.divf (broadcastInDim S1x1024 ![1] bcast_S1024_S1x1024_1
          (Host.reduceAdd a (constant S_ .f32 0x00000000#32) reducesTo_S8192x1024_S1024_d0 h_S_))
        (broadcastInDim S1x1024 ![] bcast_S_S1x1024 (constant S_ .f32 0x46000000#32))) (ix2 p q) = mean (mat a) q := by
    rw [LibHostRead.bcast_1b_ab_apply _ bcast_S1x1024_S8192x1024_0_1 p q]
    show Ideal.div (broadcastInDim S1x1024 ![1] bcast_S1024_S1x1024_1
      (Host.reduceAdd a (constant S_ .f32 0x00000000#32) reducesTo_S8192x1024_S1024_d0 h_S_) (ix2 (0 : Fin 1) q)) n32 = _
    rw [LibHostRead.bcast_b_1b_apply _ bcast_S1024_S1x1024_1 0 q, colSumF_apply]
    rfl
  exact congrArg (fun t => a (ix2 p q) - t) e

theorem varF_apply (a : Arr S8192x1024) (q : Fin 1024) : varF a (ix1 q) = varR (mat a) q := by
  show Scalar.select (Ideal.cmp .ogt cnt z32)
    (Ideal.div (Host.reduceAdd (mulf (devF a) (devF a)) (constant S_ .f32 0x00000000#32) reducesTo_S8192x1024_S1024_d0 h_S_ (ix1 q)) cnt) nan32 = _
  rw [hostSumAxis0_apply]
  show Scalar.select (Ideal.cmp .ogt cnt z32) (Ideal.div (z32 + ∑ p : Fin 8192, devF a (ix2 p q) * devF a (ix2 p q)) cnt) nan32 = _
  simp only [devF_apply]
  rfl

/-- The normalisation is `bnR`. -/
theorem bnF_mat (a : Arr S8192x1024) (g b : Arr S1024) : mat (bnF a g b) = bnR (mat a) (vec g) (vec b) := by
  funext p q
  show rowF g (ix2 p q) * (a (ix2 p q) - rowF (meanF a) (ix2 p q))
      * rowF (Host.rsqrt (addf (varF a) (broadcastInDim S1024 ![] bcast_S_S1024 (constant S_ .f32 0x3727C5AC#32)))) (ix2 p q)
      + rowF b (ix2 p q) = _
  rw [rowF_apply, rowF_apply, rowF_apply, rowF_apply, meanF_apply]
  show g (ix1 q) * (a (ix2 p q) - mean (mat a) q) * Ideal.rsqrt (varF a (ix1 q) + eps32) + b (ix1 q) = _
  rw [varF_apply]
  rfl

end Cert.ReferenceIdeal.RefValue

end
-- ==== Proof.RefRead.lean ====
/-
  The reference's result, entry by entry.

  The line of operations is read one layer at a time: after a layer's piece of the line, the layer's result buffer
  holds the layer's whole-array function of what the piece's operand buffers held before it, and the piece writes
  none of the argument buffers the later layers read. Chaining the four pieces, the result buffer holds the last
  layer of the three normalised hidden layers of the arguments; entry by entry that is the network `netR`.
-/
import proofs.«124504_j45586782880351_2_alg».proof.Proof.RefRun
import proofs.«124504_j45586782880351_2_alg».proof.Proof.RefLayer

noncomputable section

namespace Cert.ReferenceIdeal.RefValue

open Cert.ReferenceIdeal Idealize.ShloMosaic Idealize.ShloMosaic.TcCoe Idealize.SL.Sem Idealize.ShloMosaic.StableHlo Cert.KRIdent
open Cert.BinNet ValueIdx

variable [Facts]
open Facts₀ Facts

/-! ## One layer's piece of the line -/

set_option maxRecDepth 8192 in
set_option maxHeartbeats 4000000 in
/-- After the first piece, `%26` holds the first normalised layer of the images, the first weights and their two parameters. -/
theorem stage1 (V : Valuation τ sig (Elt Ideal)) :
    after (opsL1 (F := Ideal)) V (Proc.devRef .tc main_v26)
      = bnF (actF1 (V (Proc.devRef .tc main_arg0)) (V (Proc.devRef .tc main_arg1))) (V (Proc.devRef .tc main_arg5)) (V (Proc.devRef .tc main_arg6)) := by
  after_results_simp
  rfl

set_option maxRecDepth 8192 in
set_option maxHeartbeats 4000000 in
/-- After the second piece, `%52` holds the second normalised layer of what `%26` held. -/
theorem stage2 (V : Valuation τ sig (Elt Ideal)) :
    after (opsL2a (F := Ideal) ++ opsL2b) V (Proc.devRef .tc main_v52)
      = bnF (actF (V (Proc.devRef .tc main_v26)) (V (Proc.devRef .tc main_arg2))) (V (Proc.devRef .tc main_arg7)) (V (Proc.devRef .tc main_arg8)) := by
  simp only [List.cons_append, List.nil_append]
  after_results_simp
  rfl

set_option maxRecDepth 8192 in
set_option maxHeartbeats 4000000 in
/-- After the third piece, `%78` holds the third normalised layer of what `%52` held. -/
theorem stage3 (V : Valuation τ sig (Elt Ideal)) :
    after (opsL3 (F := Ideal)) V (Proc.devRef .tc main_v78)
      = bnF (actF (V (Proc.devRef .tc main_v52)) (V (Proc.devRef .tc main_arg3))) (V (Proc.devRef .tc main_arg9)) (V (Proc.devRef .tc main_arg10)) := by
  after_results_simp
  rfl

/-- After the last piece, `%84` holds the last layer of what `%78` held. -/
theorem stage4 (V : Valuation τ sig (Elt Ideal)) :
    after (opsL4 (F := Ideal)) V (Proc.devRef .tc main_v84) = linF (V (Proc.devRef .tc main_v78)) (V (Proc.devRef .tc main_arg4)) := by
  after_results_simp
  rfl

/-! ## The whole line -/

/-- The second layer's two pieces write no buffer outside their two lists. -/
theorem opsL2_keeps : KeepsOff (WL2a ++ WL2b) (opsL2a (F := Ideal) ++ opsL2b) := opsL2a_keeps.append opsL2b_keeps

theorem not_mem_WL2 {r : Ref sig .tc} (h1 : r ∉ WL2a) (h2 : r ∉ WL2b) : r ∉ WL2a ++ WL2b := by
  simp only [List.mem_append, not_or]
  exact ⟨h1, h2⟩

/-- The result buffer holds the four layers' functions composed, of the argument buffers' launch contents. -/
theorem refOut_eq (m : (ℓ : Loc nD τ sig) → Buf (Elt Ideal) ℓ) (c : Dev nD) :
    refOut m c
      = linF (bnF (actF (bnF (actF (bnF (actF1 (m ((c.tc : Thread nD τ).loc main_arg0)) (m ((c.tc : Thread nD τ).loc main_arg1))) (m ((c.tc : Thread nD τ).loc main_arg5)) (m ((c.tc : Thread nD τ).loc main_arg6)))
            (m ((c.tc : Thread nD τ).loc main_arg2))) (m ((c.tc : Thread nD τ).loc main_arg7)) (m ((c.tc : Thread nD τ).loc main_arg8))) (m ((c.tc : Thread nD τ).loc main_arg3))) (m ((c.tc : Thread nD τ).loc main_arg9)) (m ((c.tc : Thread nD τ).loc main_arg10))) (m ((c.tc : Thread nD τ).loc main_arg4)) := by
  have e : (ops (F := Ideal)) = opsL1 ++ (opsL2a ++ opsL2b) ++ opsL3 ++ opsL4 := by simp only [ops, List.append_assoc]
  unfold refOut
  rw [e, Cert.KRIdent.after_append, Cert.KRIdent.after_append, Cert.KRIdent.after_append, stage4, stage3, stage2, stage1,
    opsL3_keeps main_arg4 (by decide), opsL2_keeps main_arg4 (not_mem_WL2 (by decide) (by decide)), opsL1_keeps main_arg4 (by decide),
    opsL2_keeps main_arg3 (not_mem_WL2 (by decide) (by decide)), opsL1_keeps main_arg3 (by decide),
    opsL2_keeps main_arg9 (not_mem_WL2 (by decide) (by decide)), opsL1_keeps main_arg9 (by decide),
    opsL2_keeps main_arg10 (not_mem_WL2 (by decide) (by decide)), opsL1_keeps main_arg10 (by decide),
    opsL1_keeps main_arg2 (by decide), opsL1_keeps main_arg7 (by decide), opsL1_keeps main_arg8 (by decide)]

/-- **The reference's result at an entry** is the network of the arguments: the images flattened, the four weight
    matrices and the six parameter vectors. -/
theorem refOut_apply (m : (ℓ : Loc nD τ sig) → Buf (Elt Ideal) ℓ) (c : Dev nD) (p : Fin 8192) (q : Fin 10) :
    mat (refOut m c) p q
      = netR (flat shapeCasts_S8192x3x32x32_S8192x3072 (m ((c.tc : Thread nD τ).loc main_arg0)))
          (mat (m ((c.tc : Thread nD τ).loc main_arg1))) (mat (m ((c.tc : Thread nD τ).loc main_arg2))) (mat (m ((c.tc : Thread nD τ).loc main_arg3))) (mat (m ((c.tc : Thread nD τ).loc main_arg4)))
          (vec (m ((c.tc : Thread nD τ).loc main_arg5))) (vec (m ((c.tc : Thread nD τ).loc main_arg6))) (vec (m ((c.tc : Thread nD τ).loc main_arg7))) (vec (m ((c.tc : Thread nD τ).loc main_arg8))) (vec (m ((c.tc : Thread nD τ).loc main_arg9))) (vec (m ((c.tc : Thread nD τ).loc main_arg10))) p q := by
  rw [refOut_eq, linF_mat, bnF_mat, actF_mat, bnF_mat, actF_mat, bnF_mat, actF1_mat]
  rfl

end Cert.ReferenceIdeal.RefValue

end
-- ==== Proof.lean ====
/-
  The certificate of a sign-binarised perceptron with batch normalisation over a batch of 8192 images: a Pallas program of
  four kernel regions against a jnp reference, equal on the extended reals.

  Both programs compute three hidden layers — a product with the transposed signs of the weights, clipped at zero, then
  each column normalised with its mean and variance over the batch — and a last product. The reference centres first:
  it subtracts the column's mean, takes the variance as the mean of the squared deviations and multiplies by
  `γ (var + ε)^(−1/2)`. The kernel program takes moments first: every region also leaves, tile by tile, the column sums
  and the column sums of squares of its activations; between regions these become the variance `max (E a² − (E a)², 0)`
  and a per-column scale and shift, which the next region applies before its product.

  The two agree when every entry is a real number (Proof/NetLaw.lean): the mean of the squared deviations IS the mean
  of the squares less the squared mean, it is never negative, and the rest is distributivity — laws that fail at
  infinities, which is where the precondition (every input finite) is used. That the kernel program's result array is the
  moments-first network of the launch memory's arrays is Proof/KValue.lean, over the regions' arrays
  (Proof/Region0.lean … Region3.lean) and the host operations around them (Proof/KWeights.lean, Proof/KStats.lean); that
  the reference's result is the centre-first network is Proof/RefRead.lean over its run (Proof/RefRun.lean).
  The idealized kernel program is the kernel program's own text read on the extended reals: nothing was rewritten, so
  there is nothing to preserve.
-/
import proofs.«124504_j45586782880351_2_alg».proof.Defs
import proofs.«124504_j45586782880351_2_alg».proof.Proof.Gen.Kernel
import proofs.«124504_j45586782880351_2_alg».proof.Proof.Gen.Kernel.Frame
import proofs.«124504_j45586782880351_2_alg».proof.Proof.Gen.KernelIdeal
import proofs.«124504_j45586782880351_2_alg».proof.Proof.Gen.KernelIdeal.Frame
import proofs.«124504_j45586782880351_2_alg».proof.Proof.Gen.ReferenceIdeal
import proofs.«124504_j45586782880351_2_alg».proof.Proof.Gen.Pre_finite_inputs
import proofs.«124504_j45586782880351_2_alg».proof.Proof.NetLaw
import proofs.«124504_j45586782880351_2_alg».proof.Proof.Finite
import proofs.«124504_j45586782880351_2_alg».proof.Proof.KRun
import proofs.«124504_j45586782880351_2_alg».proof.Proof.KValue
import proofs.«124504_j45586782880351_2_alg».proof.Proof.RefRun
import proofs.«124504_j45586782880351_2_alg».proof.Proof.RefRead
import Idealize.ShloMosaic.Adequacy
import Idealize.ShloMosaic.Init

noncomputable section

namespace Cert.Proof

open Idealize.ShloMosaic Idealize.ShloMosaic.TcCoe Idealize.SL.Sem Cert.BinNet ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Every entry of a flattened array of real numbers is one of its entries, hence real. -/
theorem flat_real (h : (⟨4, ![8192, 3, 32, 32]⟩ : Shape).ShapeCasts ⟨2, ![8192, 3072]⟩)
    (x : (⟨4, ![8192, 3, 32, 32]⟩ : Shape).Idx → EReal) (hx : ∀ i, ∃ r : ℝ, x i = (r : EReal)) (p : Fin 8192) (k : Fin 3072) :
    ∃ r : ℝ, flat h x p k = (r : EReal) := hx _

/-- From memories that agree on the arguments, the kernel program's result (the network, moments first) and the
    reference's (the network, centre first) are the same array: the precondition makes every entry of the images and of
    the normalisation parameters real, and on real entries the two arrangements agree. -/
theorem algebraic : Cert.algebraic_KernelIdeal_ReferenceIdeal := by
  intro m ρ m' ρ' hpre hagree
  refine ⟨fun c => Cert.KernelIdeal.Gen.W19 m ρ c (Proc.devRef .tc Cert.KernelIdeal.main_v87),
    Cert.KernelIdeal.HostValue.run_value m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10⟩ := hagree c
  obtain ⟨r0, r5, r6, r7, r8, r9, r10⟩ := Cert.Pre_finite_inputs.Finite.real_of_pre _ _ _ _ _ _ _ _ _ _ _ (hpre c)
  show (Cert.ReferenceIdeal.RefValue.refOut m' c : (⟨2, ![8192, 10]⟩ : Shape).Idx → EReal)
    = (Cert.KernelIdeal.Gen.W19 m ρ c (Proc.devRef .tc Cert.KernelIdeal.main_v87) : (⟨2, ![8192, 10]⟩ : Shape).Idx → EReal)
  funext i
  rw [eq_ix2 i]
  show mat (Cert.ReferenceIdeal.RefValue.refOut m' c) (i 0) (i 1)
    = mat (Cert.KernelIdeal.Gen.W19 m ρ c (Proc.devRef .tc Cert.KernelIdeal.main_v87)) (i 0) (i 1)
  rw [Cert.ReferenceIdeal.RefValue.refOut_apply m' c (i 0) (i 1), Cert.KernelIdeal.NetValue.result_apply m ρ c (i 0) (i 1),
    e0, e1, e2, e3, e4, e5, e6, e7, e8, e9, e10]
  exact (congrFun (congrFun (netK_eq_netR rfl _ _ _ _ _ _ _ _ _ _ _ (flat_real _ _ r0)
    (fun q => r5 _) (fun q => r6 _) (fun q => r7 _) (fun q => r8 _) (fun q => r9 _) (fun q => r10 _)) (i 0)) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
